-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2048x512 : Shape := ⟨2, ![2048, 512]⟩
abbrev S2048x10000 : Shape := ⟨2, ![2048, 10000]⟩
abbrev S20000x2048 : Shape := ⟨2, ![20000, 2048]⟩
abbrev S512x1536 : Shape := ⟨2, ![512, 1536]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048x10000 : S_.BroadcastsInDim S2048x10000 (![] : Fin 0 → Fin S2048x10000.rank)
  reducesTo_S2048x10000_S_d0_1 : S2048x10000.ReducesTo [0, 1] S_
  bcast_S_S20000x2048 : S_.BroadcastsInDim S20000x2048 (![] : Fin 0 → Fin S20000x2048.rank)
  reducesTo_S20000x2048_S_d0_1 : S20000x2048.ReducesTo [0, 1] S_
  bcast_S_S512x1536 : S_.BroadcastsInDim S512x1536 (![] : Fin 0 → Fin S512x1536.rank)
  reducesTo_S512x1536_S_d0_1 : S512x1536.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S2048x10000 .f32) (main_arg5 : FVec F S20000x2048 .f32) (main_arg6 : FVec F S512x1536 .f32) (main_arg7 : FVec F S512 .f32) (main_v13 : IVec S_ 1) (main_v16 : IVec S2048x10000 1) : IVec S_ 1 :=
  let main_c_5 : IVec S_ 1 := constantI S_ 1 1#1
  let main_v17 : IVec S_ 1 := (fun x v => Host.reduce IntOp.andi x v reducesTo_S2048x10000_S_d0_1 h_S_) main_v16 main_c_5
  let main_v18 : IVec S_ 1 := andi main_v13 main_v17
  let main_v19 : FVec F S2048x10000 .f32 := Host.absf main_arg4
  let main_cst_6 : FVec F S_ .f32 := constant S_ .f32 0x7F800000#32
  let main_v20 : FVec F S2048x10000 .f32 := broadcastInDim S2048x10000 ![] bcast_S_S2048x10000 main_cst_6
  let main_v21 : IVec S2048x10000 1 := cmpf .olt main_v19 main_v20
  let main_c_7 : IVec S_ 1 := constantI S_ 1 1#1
  let main_v22 : IVec S_ 1 := (fun x v => Host.reduce IntOp.andi x v reducesTo_S2048x10000_S_d0_1 h_S_) main_v21 main_c_7
  let main_v23 : IVec S_ 1 := andi main_v18 main_v22
  let main_v24 : FVec F S20000x2048 .f32 := Host.absf main_arg5
  let main_cst_8 : FVec F S_ .f32 := constant S_ .f32 0x7F800000#32
  let main_v25 : FVec F S20000x2048 .f32 := broadcastInDim S20000x2048 ![] bcast_S_S20000x2048 main_cst_8
  let main_v26 : IVec S20000x2048 1 := cmpf .olt main_v24 main_v25
  let main_c_9 : IVec S_ 1 := constantI S_ 1 1#1
  let main_v27 : IVec S_ 1 := (fun x v => Host.reduce IntOp.andi x v reducesTo_S20000x2048_S_d0_1 h_S_) main_v26 main_c_9
  let main_v28 : IVec S_ 1 := andi main_v23 main_v27
  let main_v29 : FVec F S512x1536 .f32 := Host.absf main_arg6
  let main_cst_10 : FVec F S_ .f32 := constant S_ .f32 0x7F800000#32
  let main_v30 : FVec F S512x1536 .f32 := broadcastInDim S512x1536 ![] bcast_S_S512x1536 main_cst_10
  let main_v31 : IVec S512x1536 1 := cmpf .olt main_v29 main_v30
  let main_c_11 : IVec S_ 1 := constantI S_ 1 1#1
  let main_v32 : IVec S_ 1 := (fun x v => Host.reduce IntOp.andi x v reducesTo_S512x1536_S_d0_1 h_S_) main_v31 main_c_11
  let main_v33 : IVec S_ 1 := andi main_v28 main_v32
  fn_part2 (F := F) main_arg7 main_v33

def fn {F : FTy → Type} [FloatOps F] (main_arg0 : FVec F S10000x512 .f32) (main_arg1 : FVec F S10000x512 .f32) (main_arg2 : FVec F S2048x512 .f32) (main_arg3 : FVec F S2048x10000 .f32) (main_arg4 : FVec F S2048x10000 .f32) (main_arg5 : FVec F S20000x2048 .f32) (main_arg6 : FVec F S512x1536 .f32) (main_arg7 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x10000 .f32 := Host.absf main_arg3
  let main_cst_4 : FVec F S_ .f32 := constant S_ .f32 0x7F800000#32
  let main_v15 : FVec F S2048x10000 .f32 := broadcastInDim S2048x10000 ![] bcast_S_S2048x10000 main_cst_4
  let main_v16 : IVec S2048x10000 1 := cmpf .olt main_v14 main_v15
  fn_part1 (F := F) main_arg4 main_arg5 main_arg6 main_arg7 main_v13 main_v16
-- ==== Kernel.lean ====
abbrev S10000x512 : Shape := ⟨2, ![10000, 512]⟩
abbrev S2048x512 : Shape := ⟨2, ![2048, 512]⟩
abbrev S2048x10000 : Shape := ⟨2, ![2048, 10000]⟩
abbrev S20000x2048 : Shape := ⟨2, ![20000, 2048]⟩
abbrev S512x1536 : Shape := ⟨2, ![512, 1536]⟩
abbrev S512 : Shape := ⟨1, ![512]⟩
abbrev S_ : Shape := ⟨0, ![]⟩
abbrev S2048x10112 : Shape := ⟨2, ![2048, 10112]⟩
abbrev S10112x512 : Shape := ⟨2, ![10112, 512]⟩
abbrev S1536x512 : Shape := ⟨2, ![1536, 512]⟩
abbrev S1x512 : Shape := ⟨2, ![1, 512]⟩
abbrev S512x10112 : Shape := ⟨2, ![512, 10112]⟩
abbrev S512x512 : Shape := ⟨2, ![512, 512]⟩
abbrev S20000x512 : Shape := ⟨2, ![20000, 512]⟩
abbrev S1000x2048 : Shape := ⟨2, ![1000, 2048]⟩
abbrev S1000x512 : Shape := ⟨2, ![1000, 512]⟩

abbrev nBuf : Space → Nat
  | .hbm => 30
  | .vmem => 21
  | .smem => 0
  | _ => 0

abbrev bufTy : (tb : Table) → Fin (tcTables nBuf tb) → BufTy
  | .hbm, ⟨0, _⟩ => ⟨S10000x512, .f32⟩
  | .hbm, ⟨1, _⟩ => ⟨S10000x512, .f32⟩
  | .hbm, ⟨2, _⟩ => ⟨S2048x512, .f32⟩
  | .hbm, ⟨3, _⟩ => ⟨S2048x10000, .f32⟩
  | .hbm, ⟨4, _⟩ => ⟨S2048x10000, .f32⟩
  | .hbm, ⟨5, _⟩ => ⟨S20000x2048, .f32⟩
  | .hbm, ⟨6, _⟩ => ⟨S512x1536, .f32⟩
  | .hbm, ⟨7, _⟩ => ⟨S512, .f32⟩
  | .hbm, ⟨8, _⟩ => ⟨S_, .i32⟩
  | .hbm, ⟨9, _⟩ => ⟨S_, .f32⟩
  | .hbm, ⟨10, _⟩ => ⟨S2048x10112, .f32⟩
  | .hbm, ⟨11, _⟩ => ⟨S2048x10112, .bf16⟩
  | .hbm, ⟨12, _⟩ => ⟨S_, .i32⟩
  | .hbm, ⟨13, _⟩ => ⟨S_, .f32⟩
  | .hbm, ⟨14, _⟩ => ⟨S2048x10112, .f32⟩
  | .hbm, ⟨15, _⟩ => ⟨S2048x10112, .bf16⟩
  | .hbm, ⟨16, _⟩ => ⟨S_, .i32⟩
  | .hbm, ⟨17, _⟩ => ⟨S_, .f32⟩
  | .hbm, ⟨18, _⟩ => ⟨S10112x512, .f32⟩
  | .hbm, ⟨19, _⟩ => ⟨S10112x512, .bf16⟩
  | .hbm, ⟨20, _⟩ => ⟨S_, .i32⟩
  | .hbm, ⟨21, _⟩ => ⟨S_, .f32⟩
  | .hbm, ⟨22, _⟩ => ⟨S10112x512, .f32⟩
  | .hbm, ⟨23, _⟩ => ⟨S10112x512, .bf16⟩
  | .hbm, ⟨24, _⟩ => ⟨S1536x512, .f32⟩
  | .hbm, ⟨25, _⟩ => ⟨S1x512, .f32⟩
  | .hbm, ⟨26, _⟩ => ⟨S2048x512, .bf16⟩
  | .hbm, ⟨27, _⟩ => ⟨S2048x512, .bf16⟩
  | .hbm, ⟨28, _⟩ => ⟨S20000x512, .f32⟩
  | .hbm, ⟨29, _⟩ => ⟨S2048x512, .f32⟩
  | .local _ .vmem, ⟨0, _⟩ => ⟨S512x10112, .bf16⟩
  | .local _ .vmem, ⟨1, _⟩ => ⟨S512x10112, .bf16⟩
  | .local _ .vmem, ⟨2, _⟩ => ⟨S10112x512, .bf16⟩
  | .local _ .vmem, ⟨3, _⟩ => ⟨S512x512, .bf16⟩
  | .local _ .vmem, ⟨4, _⟩ => ⟨S512x512, .bf16⟩
  | .local _ .vmem, ⟨5, _⟩ => ⟨S512x10112, .bf16⟩
  | .local _ .vmem, ⟨6, _⟩ => ⟨S512x10112, .bf16⟩
  | .local _ .vmem, ⟨7, _⟩ => ⟨S10112x512, .bf16⟩
  | .local _ .vmem, ⟨8, _⟩ => ⟨S512x512, .bf16⟩
  | .local _ .vmem, ⟨9, _⟩ => ⟨S512x512, .bf16⟩
  | .local _ .vmem, ⟨10, _⟩ => ⟨S1000x2048, .f32⟩
  | .local _ .vmem, ⟨11, _⟩ => ⟨S1000x2048, .f32⟩
  | .local _ .vmem, ⟨12, _⟩ => ⟨S2048x512, .bf16⟩
  | .local _ .vmem, ⟨13, _⟩ => ⟨S2048x512, .bf16⟩
  | .local _ .vmem, ⟨14, _⟩ => ⟨S2048x512, .f32⟩
  | .local _ .vmem, ⟨15, _⟩ => ⟨S1536x512, .f32⟩
  | .local _ .vmem, ⟨16, _⟩ => ⟨S1x512, .f32⟩
  | .local _ .vmem, ⟨17, _⟩ => ⟨S1000x512, .f32⟩
  | .local _ .vmem, ⟨18, _⟩ => ⟨S1000x512, .f32⟩
  | .local _ .vmem, ⟨19, _⟩ => ⟨S2048x512, .f32⟩
  | .local _ .vmem, ⟨20, _⟩ => ⟨S2048x512, .bf16⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_c_1 : Ref sig .tc := ⟨.hbm, 16, rfl⟩
abbrev main_call2_v0 : Ref sig .tc := ⟨.hbm, 17, rfl⟩
abbrev main_v4 : Ref sig .tc := ⟨.hbm, 18, rfl⟩
abbrev main_v5 : Ref sig .tc := ⟨.hbm, 19, rfl⟩
abbrev main_c_2 : Ref sig .tc := ⟨.hbm, 20, rfl⟩
abbrev main_call3_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc2_stg7_0 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc2_sem7_0 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x10112 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10112x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x10112 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10112x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1536x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S2048x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  pads_S2048x10000_S2048x10112_000_01120 : S2048x10000.Pads (![0, 0] : Fin 2 → Nat) ![0, 112] ![0, 0] S2048x10112
  h_S_ : 0 < S_.numel
  bitsLt_bf16_f32 : FTy.bits .bf16 < FTy.bits .f32
  pads_S10000x512_S10112x512_01120_000 : S10000x512.Pads (![0, 0] : Fin 2 → Nat) ![112, 0] ![0, 0] S10112x512
  transposes_S512x1536_S1536x512_1_0 : S512x1536.Transposes [1, 0] S1536x512
  shapeCasts_S512_S1x512 : S512.ShapeCasts S1x512
  inb_S512x10112_S512x10112_0_0 : ∀ a, (![0, 0] : Fin 2 → Nat) a + S512x10112.size a ≤ S512x10112.size a
  h_S512x10112 : 0 < S512x10112.numel
  shapeCasts_S512x10112_S512x10112 : S512x10112.ShapeCasts S512x10112
  inb_S10112x512_S10112x512_0_0 : ∀ a, (![0, 0] : Fin 2 → Nat) a + S10112x512.size a ≤ S10112x512.size a
  h_S10112x512 : 0 < S10112x512.numel
  shapeCasts_S10112x512_S10112x512 : S10112x512.ShapeCasts S10112x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  slices_S1536x512_o0_0_S512x512 : S1536x512.Slices ![0, 0] S512x512
  slices_S1536x512_o512_0_S512x512 : S1536x512.Slices ![512, 0] S512x512
  slices_S1536x512_o1024_0_S512x512 : S1536x512.Slices ![1024, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  packedbf16_S2048x512_S2048x512_0_0 : (Rect.unit (s := S2048x512) ![0, 0] S2048x512.size inb_S2048x512_S2048x512_0_0).PackedRows (EltTy.packing .bf16)
  inb_S1000x2048_S1000x2048_0_0 : ∀ a, (![0, 0] : Fin 2 → Nat) a + S1000x2048.size a ≤ S1000x2048.size a
  h_S1000x2048 : 0 < S1000x2048.numel
  inb_S1000x512_S1000x512_0_0 : ∀ a, (![0, 0] : Fin 2 → Nat) a + S1000x512.size a ≤ S1000x512.size a
  h_S1000x512 : 0 < S1000x512.numel
  dot_S512x10112_S10112x512_S512x512_1_0_0_1_n_n_wf : DotDims.WF S512x10112 S10112x512 S512x512 [1] [0] [0] [1] [] []
  dot_S2048x512_S512x512_S2048x512_1_0_0_1_n_n_wf : DotDims.WF S2048x512 S512x512 S2048x512 [1] [0] [0] [1] [] []
  dot_S1000x2048_S2048x512_S1000x512_1_0_0_1_n_n_wf : DotDims.WF S1000x2048 S2048x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x10112.size a ≤ S2048x10112.size a
  hwx0_0 : ∀ i : grid0.Coords, EltTy.bits .bf16 = 32 ∨ (Rect.block (s := S2048x10112) S512x10112.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10112x512.size a ≤ S10112x512.size a
  hwx0_1 : ∀ i : grid0.Coords, EltTy.bits .bf16 = 32 ∨ (Rect.block (s := S10112x512) S10112x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x512.size a
  hwx0_2 : ∀ i : grid0.Coords, EltTy.bits .bf16 = 32 ∨ (Rect.block (s := S2048x512) S512x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x10112.size a ≤ S2048x10112.size a
  hwx1_0 : ∀ i : grid1.Coords, EltTy.bits .bf16 = 32 ∨ (Rect.block (s := S2048x10112) S512x10112.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10112x512.size a ≤ S10112x512.size a
  hwx1_1 : ∀ i : grid1.Coords, EltTy.bits .bf16 = 32 ∨ (Rect.block (s := S10112x512) S10112x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S2048x512.size a
  hwx1_2 : ∀ i : grid1.Coords, EltTy.bits .bf16 = 32 ∨ (Rect.block (s := S2048x512) S512x512.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x2048.size a ≤ S20000x2048.size a
  hwx2_0 : ∀ i : grid2.Coords, EltTy.bits .f32 = 32 ∨ (Rect.block (s := S20000x2048) S1000x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S2048x512.size a
  hwx2_1 : ∀ i : grid2.Coords, EltTy.bits .bf16 = 32 ∨ (Rect.block (s := S2048x512) S2048x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x512.size a ≤ S2048x512.size a
  hwx2_2 : ∀ i : grid2.Coords, EltTy.bits .bf16 = 32 ∨ (Rect.block (s := S2048x512) S2048x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x512.size a ≤ S2048x512.size a
  hwx2_3 : ∀ i : grid2.Coords, EltTy.bits .f32 = 32 ∨ (Rect.block (s := S2048x512) S2048x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1536x512.size a ≤ S1536x512.size a
  hwx2_4 : ∀ i : grid2.Coords, EltTy.bits .f32 = 32 ∨ (Rect.block (s := S1536x512) S1536x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x512.size a ≤ S20000x512.size a
  hwx2_6 : ∀ i : grid2.Coords, EltTy.bits .f32 = 32 ∨ (Rect.block (s := S20000x512) S1000x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S2048x512.size a ≤ S2048x512.size a
  hwx2_7 : ∀ i : grid2.Coords, EltTy.bits .f32 = 32 ∨ (Rect.block (s := S2048x512) S2048x512.size (cc2_transform_7 i) (hinb2_7 i)).WholeWords (EltTy.packing .f32)

variable [Facts₀]

def dot_S512x10112_S10112x512_S512x512_1_0_0_1_n_n : DotDims S512x10112 S10112x512 S512x512 where
  lhsContracting := [1]
  rhsContracting := [0]
  lhsNonContracting := [0]
  rhsNonContracting := [1]
  lhsBatch := []
  rhsBatch := []
  wf := dot_S512x10112_S10112x512_S512x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S1000x2048_S2048x512_S1000x512_1_0_0_1_n_n : DotDims S1000x2048 S2048x512 S1000x512 where
  lhsContracting := [1]
  rhsContracting := [0]
  lhsNonContracting := [0]
  rhsNonContracting := [1]
  lhsBatch := []
  rhsBatch := []
  wf := dot_S1000x2048_S2048x512_S1000x512_1_0_0_1_n_n_wf

abbrev win0_0 : Pipeline.Window sig grid0 :=
  Pipeline.Window.ofSpec (Memref.whole main_v1) S512x10112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S10112x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S512x10112.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S10112x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg5) S1000x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S2048x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2048x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S2048x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1536x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12_0) S1000x512.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v12_1) S2048x512.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond1 i == 1#1) | ⟨_ + 8, h⟩ => absurd h (Nat.not_lt.2 (Nat.le_add_left _ _))

class Facts : Prop extends Facts₀ where

variable [Facts]
-- ==== ReferenceIdeal.lean ====
abbrev S10000x512 : Shape := ⟨2, ![10000, 512]⟩
abbrev S2048x512 : Shape := ⟨2, ![2048, 512]⟩
abbrev S2048x10000 : Shape := ⟨2, ![2048, 10000]⟩
abbrev S20000x2048 : Shape := ⟨2, ![20000, 2048]⟩
abbrev S512x1536 : Shape := ⟨2, ![512, 1536]⟩
abbrev S512 : Shape := ⟨1, ![512]⟩
abbrev S2048x1536 : Shape := ⟨2, ![2048, 1536]⟩
abbrev S1536x512 : Shape := ⟨2, ![1536, 512]⟩
abbrev S1x512 : Shape := ⟨2, ![1, 512]⟩
abbrev S20000x512 : Shape := ⟨2, ![20000, 512]⟩

abbrev nBuf : Space → Nat
  | .hbm => 18
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x512, .f32⟩
  | .hbm, ⟨2, _⟩ => ⟨S2048x512, .f32⟩
  | .hbm, ⟨3, _⟩ => ⟨S2048x10000, .f32⟩
  | .hbm, ⟨4, _⟩ => ⟨S2048x10000, .f32⟩
  | .hbm, ⟨5, _⟩ => ⟨S20000x2048, .f32⟩
  | .hbm, ⟨6, _⟩ => ⟨S512x1536, .f32⟩
  | .hbm, ⟨7, _⟩ => ⟨S512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x1536, .f32⟩
  | .hbm, ⟨12, _⟩ => ⟨S1536x512, .f32⟩
  | .hbm, ⟨13, _⟩ => ⟨S2048x512, .f32⟩
  | .hbm, ⟨14, _⟩ => ⟨S1x512, .f32⟩
  | .hbm, ⟨15, _⟩ => ⟨S2048x512, .f32⟩
  | .hbm, ⟨16, _⟩ => ⟨S2048x512, .f32⟩
  | .hbm, ⟨17, _⟩ => ⟨S20000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  concatenates_S2048x512_S2048x512_S2048x512_S2048x1536_d1 : Shape.Concatenates [S2048x512, S2048x512, S2048x512] S2048x1536 1
  transposes_S512x1536_S1536x512_1_0 : S512x1536.Transposes [1, 0] S1536x512
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  dot_S2048x10000_S10000x512_S2048x512_1_0_0_1_n_n_wf : DotDims.WF S2048x10000 S10000x512 S2048x512 [1] [0] [0] [1] [] []
  dot_S2048x1536_S1536x512_S2048x512_1_0_0_1_n_n_wf : DotDims.WF S2048x1536 S1536x512 S2048x512 [1] [0] [0] [1] [] []
  dot_S20000x2048_S2048x512_S20000x512_1_0_0_1_n_n_wf : DotDims.WF S20000x2048 S2048x512 S20000x512 [1] [0] [0] [1] [] []

variable [Facts₀]

def dot_S2048x10000_S10000x512_S2048x512_1_0_0_1_n_n : DotDims S2048x10000 S10000x512 S2048x512 where
  lhsContracting := [1]
  rhsContracting := [0]
  lhsNonContracting := [0]
  rhsNonContracting := [1]
  lhsBatch := []
  rhsBatch := []
  wf := dot_S2048x10000_S10000x512_S2048x512_1_0_0_1_n_n_wf
def dot_S2048x1536_S1536x512_S2048x512_1_0_0_1_n_n : DotDims S2048x1536 S1536x512 S2048x512 where
  lhsContracting := [1]
  rhsContracting := [0]
  lhsNonContracting := [0]
  rhsNonContracting := [1]
  lhsBatch := []
  rhsBatch := []
  wf := dot_S2048x1536_S1536x512_S2048x512_1_0_0_1_n_n_wf
def dot_S20000x2048_S2048x512_S20000x512_1_0_0_1_n_n : DotDims S20000x2048 S2048x512 S20000x512 where
  lhsContracting := [1]
  rhsContracting := [0]
  lhsNonContracting := [0]
  rhsNonContracting := [1]
  lhsBatch := []
  rhsBatch := []
  wf := dot_S20000x2048_S2048x512_S20000x512_1_0_0_1_n_n_wf

class Facts : Prop extends Facts₀ where

variable [Facts]
-- ==== Proof.Kernel.Dats.lean ====
/-
  What each of the three kernel regions of the program leaves behind, stated as data: for every region the blocks its
  windows hold at a grid point, what the body leaves in each window's staging buffer there, and the contents of every
  buffer of the program between two consecutive items of its entry function.

  Region 0 and region 1 are the same kernel: at point t the 512 × 10112 panel t of an incidence matrix times the whole
  10112 × 512 table, written to rows 512·t … 512·t + 511 of the partial message. Region 2 computes the message once, at
  its first point, from the two partial messages, the group table, the transposed weight and the bias; it keeps a
  copy in a scratch buffer that every later point reads, and at point t multiplies rows 1000·t … 1000·t + 999 of the
  aggregation matrix by that copy. The message's own output block never moves, so its staging buffer keeps the message
  from the first point to the last, where it is written back.
-/
import proofs.«111077_g1812476199039_cont_8to1_364_13_alg».proof.Proof.Gen.Kernel.Launch
import proofs.«111077_g1812476199039_cont_8to1_364_13_alg».proof.Proof.Gen.Kernel.Skeleton
import proofs.«111077_g1812476199039_cont_8to1_364_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! ## Region 0: one incidence matrix times its table -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rPanel : Rect S512x10112 := Rect.unit (s := S512x10112) ![0, 0] S512x10112.size inb_S512x10112_S512x10112_0_0
abbrev rTable : Rect S10112x512 := Rect.unit (s := S10112x512) ![0, 0] S10112x512.size inb_S10112x512_S10112x512_0_0
abbrev rTile : Rect S512x512 := Rect.unit (s := S512x512) ![0, 0] S512x512.size inb_S512x512_S512x512_0_0

/-- The output tile after the body of region 0: the panel times the table, stored whole. -/
def out0_2 (x0 : Vec F S512x10112 .bf16) (x1 : Vec F S10112x512 .bf16) : Vec F S512x512 .bf16 :=
  View.canon [⟨rTile, k0_pay1 (View.ld x0 rPanel) (View.ld x1 rTable)⟩]

/-- The proof data of region 0: the arrays as the region finds them; each input's buffer at its block, the output's at
    the product; nothing owed, full shares, the scoped rest untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: the other incidence matrix times its table -/

/-- Window `w`'s block at point `t` of region 1. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output tile after the body of region 1. -/
def out1_2 (x0 : Vec F S512x10112 .bf16) (x1 : Vec F S10112x512 .bf16) : Vec F S512x512 .bf16 :=
  View.canon [⟨rTile, k1_pay1 (View.ld x0 rPanel) (View.ld x1 rTable)⟩]

/-- The proof data of region 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Region 2: the message, once, and the aggregation, slab by slab -/

/-- Window `w`'s block at point `t` of region 2. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rSlab : Rect S1000x2048 := Rect.unit (s := S1000x2048) ![0, 0] S1000x2048.size inb_S1000x2048_S1000x2048_0_0
abbrev rMsg : Rect S2048x512 := Rect.unit (s := S2048x512) ![0, 0] S2048x512.size inb_S2048x512_S2048x512_0_0
abbrev rWt : Rect S1536x512 := Rect.unit (s := S1536x512) ![0, 0] S1536x512.size inb_S1536x512_S1536x512_0_0
abbrev rBias : Rect S1x512 := Rect.unit (s := S1x512) ![0, 0] S1x512.size inb_S1x512_S1x512_0_0
abbrev rOut : Rect S1000x512 := Rect.unit (s := S1000x512) ![0, 0] S1000x512.size inb_S1000x512_S1000x512_0_0

/-- The message block the first point stores: from the two partial messages `x1`, `x2`, the group table `x3`, the
    transposed weight `x4` and the bias row `x5`. -/
def msgOf (x1 x2 : Vec F S2048x512 .bf16) (x3 : Vec F S2048x512 .f32) (x4 : Vec F S1536x512 .f32) (x5 : Vec F S1x512 .f32) : Vec F S2048x512 .f32 :=
  View.canon [⟨rMsg, k2_pay1 (View.ld x2 rMsg) (View.ld x3 rMsg) (View.ld x4 rWt) (View.ld x1 rMsg) (View.ld x2 rMsg) (View.ld x5 rBias)⟩]

/-- The copy of the message the first point leaves in the scratch buffer. -/
def copyOf (x1 x2 : Vec F S2048x512 .bf16) (x3 : Vec F S2048x512 .f32) (x4 : Vec F S1536x512 .f32) (x5 : Vec F S1x512 .f32) : Vec F S2048x512 .bf16 :=
  View.canon [⟨rMsg, k2_pay2 (View.ld x2 rMsg) (View.ld x3 rMsg) (View.ld x4 rWt) (View.ld x1 rMsg) (View.ld x2 rMsg) (View.ld x5 rBias)⟩]

/-- The output slab after the body at any point: the slab of the aggregation matrix times the scratch copy `s`. -/
def out2_6 (x0 : Vec F S1000x2048 .f32) (s : Vec F S2048x512 .bf16) : Vec F S1000x512 .f32 :=
  View.canon [⟨rOut, k2_pay3 (View.ld x0 rSlab) (View.ld s rMsg)⟩]

/-- The first point of region 2's grid. -/
def t2z : Fin cfg2.N := ⟨0, Nat.lt_of_lt_of_eq (by decide : 0 < 20) N_2.symm⟩

/-- The message, from the blocks the first point finds (windows 1 … 5 never move, so every point finds the same). -/
def msg2 (c : Dev nD) : Vec F S2048x512 .f32 :=
  msgOf (iblk2 V c 1 t2z) (iblk2 V c 2 t2z) (iblk2 V c 3 t2z) (iblk2 V c 4 t2z) (iblk2 V c 5 t2z)

/-- The scratch copy of the message. -/
def copy2 (c : Dev nD) : Vec F S2048x512 .bf16 :=
  copyOf (iblk2 V c 1 t2z) (iblk2 V c 2 t2z) (iblk2 V c 3 t2z) (iblk2 V c 4 t2z) (iblk2 V c 5 t2z)

/-- The scratch buffer of region 2, as a memref. -/
abbrev scM2 : Memref sig .tc .vmem S2048x512 .bf16 := Memref.whole cc2_scratch0

/-- The scoped buffers of regions 0 and 1 (no concern of region 2), each whole at some contents, in front of `X`:
    with `X` the scratch buffer at some contents this is all of region 2's scoped rest. -/
def chain2 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ X)

/-- Region 2's invariant before position `n`: before the first point the scoped rest at anything and the generator
    register; afterwards the same with the scratch buffer at the copy of the message. -/
def PhiS2 (c : Dev nD) : ℕ → sProp 𝕄
  | 0 => Pipeline.ΦA spec2 c
  | _ + 1 => iprop(chain2 c (owns (c : Thread nD τ) scM2 fullShare (copy2 V c)) ∗ (∃ r, prngReg c r))

/-- The proof data of region 2: the inputs' buffers at their blocks; the slab output's at the slab times the copy; the
    message output's at the message, at EVERY point (stored at the first, kept since); the invariant `PhiS2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (copy2 V c)
    | ⟨7, _⟩ => msg2 V c
  Φ t := PhiS2 V c t.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (copy2 V c) := by dsimp only [dat2]
theorem after2_7 (c : Dev nD) (t : Fin cfg2.N) : (dat2 V c).after 7 t = msg2 V c := by dsimp only [dat2]

end Regions

/-! ## The buffers' contents between the items of the entry function -/

variable (m : (ℓ : Loc nD τ sig) → Buf (Elt F) ℓ)

/-- Core `c`'s buffers at launch. -/
abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
abbrev W5 (c : Dev nD) : Valuation τ sig (Elt F) := StableHlo.after hostOps0_4 (W4 m c)
abbrev W6 (c : Dev nD) : Valuation τ sig (Elt F) := StableHlo.after hostOps0_5 (W5 m c)
abbrev W7 (c : Dev nD) : Valuation τ sig (Elt F) := StableHlo.after hostOps0_6 (W6 m c)
abbrev W8 (c : Dev nD) : Valuation τ sig (Elt F) := StableHlo.after hostOps0_7 (W7 m c)
/-- After the last host operation before the regions: what region 0 is entered from. -/
abbrev W9 (c : Dev nD) : Valuation τ sig (Elt F) := StableHlo.after hostOps0_8 (W8 m c)
abbrev V9 : (c : Dev nD) → (b : Ref sig .tc) → Buf (Elt F) ((c : Thread nD τ).loc b) := fun c b => W9 m c b
/-- At region 0's exit: its arrays at what its write-backs leave, every other buffer as entered. -/
def W10 (c : Dev nD) : Valuation τ sig (Elt F) :=
  Pipeline.withArrays spec0 c (W9 m c) fun w => (dat0 (V9 m) c).arrAt w cfg0.N
abbrev V10 : (c : Dev nD) → (b : Ref sig .tc) → Buf (Elt F) ((c : Thread nD τ).loc b) := fun c b => W10 m c b
/-- At region 1's exit. -/
def W11 (c : Dev nD) : Valuation τ sig (Elt F) :=
  Pipeline.withArrays spec1 c (W10 m c) fun w => (dat1 (V10 m) c).arrAt w cfg1.N
abbrev V11 : (c : Dev nD) → (b : Ref sig .tc) → Buf (Elt F) ((c : Thread nD τ).loc b) := fun c b => W11 m c b
/-- At region 2's exit: the program's end. -/
def W12 (c : Dev nD) : Valuation τ sig (Elt F) :=
  Pipeline.withArrays spec2 c (W11 m c) fun w => (dat2 (V11 m) c).arrAt w cfg2.N
abbrev V12 : (c : Dev nD) → (b : Ref sig .tc) → Buf (Elt F) ((c : Thread nD τ).loc b) := fun c b => W12 m c b

theorem W10_arr (c : Dev nD) (w : Fin cfg0.W) :
    W10 m c (Proc.devRef .tc (Pipeline.arrRef spec0 w)) = (dat0 (V9 m) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m c (Proc.devRef .tc b) = W9 m c (Proc.devRef .tc b) := by
  unfold W10; exact Pipeline.withArrays_of_ne spec0 c _ _ b hb
theorem W11_arr (c : Dev nD) (w : Fin cfg1.W) :
    W11 m c (Proc.devRef .tc (Pipeline.arrRef spec1 w)) = (dat1 (V10 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb
theorem W12_arr (c : Dev nD) (w : Fin cfg2.W) :
    W12 m c (Proc.devRef .tc (Pipeline.arrRef spec2 w)) = (dat2 (V11 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb

/-- No region has a prefetched table. -/
abbrev adm : (p : Fin 3) → (pcfgs (F := F) p).Adm := fun p => (cfgs p).toPCfg_adm

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V9 m) c
  | ⟨1, _⟩ => fun c => dat1 (V10 m) c
  | ⟨2, _⟩ => fun c => dat2 (V11 m) c

end Cert.Kernel.Conv

end
-- ==== Proof.Kernel.Body01.lean ====
/-
  The body obligations of the two partial-message regions: at every grid point the kernel finds the panel's block and
  the whole table in its input buffers (fetched there or not), and leaves in its output buffer the product of the
  two, stored as one whole tile.
-/
import proofs.«111077_g1812476199039_cont_8to1_364_13_alg».proof.Proof.Kernel.Dats

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- The panel's staging buffer holds its block at every point: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The table's staging buffer holds the whole table at every point: fetched at the first point, and its block index
    never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one whole-tile store covers the output tile. -/
theorem cover0_2 (p0 : Vec F S512x512 .bf16) (y : S512x512.Idx) :
    ∃ pc ∈ ([⟨rTile, p0⟩] : List (View.Piece (Elt F) S512x512 .bf16)), y ∈ pc.1.set :=
  View.cover_of_tiled [⟨rTile, p0⟩] S512x512.size (by rfl) y

set_option maxHeartbeats 1000000 in
/-- The kernel on whole staging memrefs, the inputs' at read contents `x0`, `x1` and the output's at anything, runs to the
    continuation holding the inputs' as they were and the output's at the product tile. The load of the output tile
    before its store reads a value nothing uses. -/
theorem sound_kernel0 (c : Dev nD) (E : Set ℕ) (i : grid0.Coords)
    (arg1 : Memref sig .tc .vmem S512x10112 .bf16) (harg1 : arg1.IsWhole)
    (arg2 : Memref sig .tc .vmem S10112x512 .bf16) (harg2 : arg2.IsWhole)
    (arg3 : Memref sig .tc .vmem S512x512 .bf16) (harg3 : arg3.IsWhole)
    (x0 : Vec F S512x10112 .bf16) (x1 : Vec F S10112x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__partial_msg_body i arg1 harg1 arg2 harg2 arg3 harg3) K := by
  simp only [cc0__partial_msg_body_eq_skeleton]; unfold cc0__partial_msg_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ### The body obligation of region 0, at a generic point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`: the invariant, the core's dues, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Region 1 -/

/-- The panel's staging buffer holds its block at every point: the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The table's staging buffer holds the whole table at every point: fetched at the first point, and its block index
    never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one whole-tile store covers the output tile. -/
theorem cover1_2 (p0 : Vec F S512x512 .bf16) (y : S512x512.Idx) :
    ∃ pc ∈ ([⟨rTile, p0⟩] : List (View.Piece (Elt F) S512x512 .bf16)), y ∈ pc.1.set :=
  View.cover_of_tiled [⟨rTile, p0⟩] S512x512.size (by rfl) y

set_option maxHeartbeats 1000000 in
/-- The kernel on whole staging memrefs, the inputs' at read contents `x0`, `x1` and the output's at anything, runs to the
    continuation holding the inputs' as they were and the output's at the product tile. The load of the output tile
    before its store reads a value nothing uses. -/
theorem sound_kernel1 (c : Dev nD) (E : Set ℕ) (i : grid1.Coords)
    (arg1 : Memref sig .tc .vmem S512x10112 .bf16) (harg1 : arg1.IsWhole)
    (arg2 : Memref sig .tc .vmem S10112x512 .bf16) (harg2 : arg2.IsWhole)
    (arg3 : Memref sig .tc .vmem S512x512 .bf16) (harg3 : arg3.IsWhole)
    (x0 : Vec F S512x10112 .bf16) (x1 : Vec F S10112x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__partial_msg_body i arg1 harg1 arg2 harg2 arg3 harg3) K := by
  simp only [cc1__partial_msg_body_eq_skeleton]; unfold cc1__partial_msg_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ### The body obligation of region 1, at a generic point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`: the invariant, the core's dues, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the kernel's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Conv

end
-- ==== Proof.Kernel.Body2a.lean ====
/-
  The kernel of region 2 on its staging buffers, in its two cases. At the first grid point it loads the two partial
  messages, the group table, the transposed weight and the bias, stores the message into the message window's buffer
  and its copy into the scratch buffer, then multiplies the slab of the aggregation matrix by that copy. At every
  later point it only multiplies the slab by the copy the scratch buffer still holds.
-/
import proofs.«111077_g1812476199039_cont_8to1_364_13_alg».proof.Proof.Kernel.Dats

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The later points: the slab times the scratch copy -/

/-- The one store of the later points covers the slab output's buffer. -/
theorem coverOut (p0 : Vec F S1000x512 .f32) (y : S1000x512.Idx) :
    ∃ pc ∈ ([⟨rOut, p0⟩] : List (View.Piece (Elt F) S1000x512 .f32)), y ∈ pc.1.set :=
  View.cover_of_tiled [⟨rOut, p0⟩] S1000x512.size (by rfl) y

set_option maxHeartbeats 1000000 in
/-- Away from the first point the body reads the slab `x0` and the scratch copy `s` and stores their product into
    the slab output; it touches no other buffer. -/
theorem sound_later (c : Dev nD) (E : Set ℕ) (i : grid2.Coords) (hc : ¬ k2_cond1 i = 1#1)
    (arg1 : Memref sig .tc .vmem S1000x2048 .f32) (harg1 : arg1.IsWhole) (arg2 : Memref sig .tc .vmem S2048x512 .bf16) (harg2 : arg2.IsWhole)
    (arg3 : Memref sig .tc .vmem S2048x512 .bf16) (harg3 : arg3.IsWhole) (arg4 : Memref sig .tc .vmem S2048x512 .f32) (harg4 : arg4.IsWhole)
    (arg5 : Memref sig .tc .vmem S1536x512 .f32) (harg5 : arg5.IsWhole) (arg6 : Memref sig .tc .vmem S1x512 .f32) (harg6 : arg6.IsWhole)
    (arg7 : Memref sig .tc .vmem S1000x512 .f32) (harg7 : arg7.IsWhole) (arg8 : Memref sig .tc .vmem S2048x512 .f32) (harg8 : arg8.IsWhole)
    (arg9 : Memref sig .tc .vmem S2048x512 .bf16) (harg9 : arg9.IsWhole)
    (x0 : Vec F S1000x2048 .f32) (s : Vec F S2048x512 .bf16) (K : PUnit → sProp 𝕄) :
    iprop(owns (c : Thread nD τ) arg1 fullShare x0 ∗ (∃ d, owns (c : Thread nD τ) arg7 fullShare d) ∗ owns (c : Thread nD τ) arg9 fullShare s
        ∗ (iprop(owns (c : Thread nD τ) arg1 fullShare x0 ∗ owns (c : Thread nD τ) arg7 fullShare (out2_6 x0 s) ∗ owns (c : Thread nD τ) arg9 fullShare s) -∗ K ⟨⟩))
      ⊢ wp frame (wpE (defs₀ (F := F)) Variants.none c none) E (cc2__agg_body i arg1 harg1 arg2 harg2 arg3 harg3 arg4 harg4 arg5 harg5 arg6 harg6 arg7 harg7 arg8 harg8 arg9 harg9) K := by
  simp only [cc2__agg_body_eq_skeleton]; unfold cc2__agg_body_skel
  unfold owns
  iintro ⟨⟨%f0, %hf0, H0⟩, ⟨%d7, %f7, -, H7⟩, ⟨%f9, %hf9, H9⟩, Hk⟩
  subst hf0; subst hf9
  sl_exec (disch := exact hc)
  sl_step
  iapply Hk
  isplitl [H0]
  · iexists f0; isplitr; · ipureintro; rfl
    iexact H0
  isplitl [H7]
  · iexists _; isplitr
    swap; · iexact H7
    ipureintro
    exact View.read_writes_eq_canon _ _ _ (coverOut _)
  iexists f9; isplitr; · ipureintro; rfl
  iexact H9

/-! ## The first point: the message, its copy, and the first slab -/

theorem coverMsg (p0 : Vec F S2048x512 .f32) (y : S2048x512.Idx) :
    ∃ pc ∈ ([⟨rMsg, p0⟩] : List (View.Piece (Elt F) S2048x512 .f32)), y ∈ pc.1.set :=
  View.cover_of_tiled [⟨rMsg, p0⟩] S2048x512.size (by rfl) y

theorem coverCopy (p0 : Vec F S2048x512 .bf16) (y : S2048x512.Idx) :
    ∃ pc ∈ ([⟨rMsg, p0⟩] : List (View.Piece (Elt F) S2048x512 .bf16)), y ∈ pc.1.set :=
  View.cover_of_tiled [⟨rMsg, p0⟩] S2048x512.size (by rfl) y

set_option maxHeartbeats 2000000 in
/-- At the first point the body reads the five constant blocks and the slab, stores the message, its copy, and the
    slab times that copy. -/
theorem sound_first (c : Dev nD) (E : Set ℕ) (i : grid2.Coords) (hc : k2_cond1 i = 1#1)
    (arg1 : Memref sig .tc .vmem S1000x2048 .f32) (harg1 : arg1.IsWhole) (arg2 : Memref sig .tc .vmem S2048x512 .bf16) (harg2 : arg2.IsWhole)
    (arg3 : Memref sig .tc .vmem S2048x512 .bf16) (harg3 : arg3.IsWhole) (arg4 : Memref sig .tc .vmem S2048x512 .f32) (harg4 : arg4.IsWhole)
    (arg5 : Memref sig .tc .vmem S1536x512 .f32) (harg5 : arg5.IsWhole) (arg6 : Memref sig .tc .vmem S1x512 .f32) (harg6 : arg6.IsWhole)
    (arg7 : Memref sig .tc .vmem S1000x512 .f32) (harg7 : arg7.IsWhole) (arg8 : Memref sig .tc .vmem S2048x512 .f32) (harg8 : arg8.IsWhole)
    (arg9 : Memref sig .tc .vmem S2048x512 .bf16) (harg9 : arg9.IsWhole)
    (x0 : Vec F S1000x2048 .f32) (x1 x2 : Vec F S2048x512 .bf16) (x3 : Vec F S2048x512 .f32) (x4 : Vec F S1536x512 .f32) (x5 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 (copyOf x1 x2 x3 x4 x5))
            ∗ owns (c : Thread nD τ) arg8 fullShare (msgOf x1 x2 x3 x4 x5)
            ∗ owns (c : Thread nD τ) arg9 fullShare (copyOf x1 x2 x3 x4 x5)) -∗ K ⟨⟩))
      ⊢ wp frame (wpE (defs₀ (F := F)) Variants.none c none) E (cc2__agg_body i arg1 harg1 arg2 harg2 arg3 harg3 arg4 harg4 arg5 harg5 arg6 harg6 arg7 harg7 arg8 harg8 arg9 harg9) K := by
  simp only [cc2__agg_body_eq_skeleton]; unfold cc2__agg_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%d9, %f9, -, H9⟩, Hk⟩
  subst hf0; subst hf1; subst hf2; subst hf3; subst hf4; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    refine (View.read_writes_eq_canon _ _ _ (coverOut _)).trans ?_
    unfold out2_6 copyOf
    sl_unfold_run_names
    refine congrArg (fun s => View.canon [(⟨rOut, k2_pay3 (View.ld (View.read (Elt F) arg1.view f0) rSlab) s⟩ : View.Piece (Elt F) S1000x512 .f32)]) ?_
    exact View.readCov_eq_canon_ld _ _ _ (coverCopy _)
  isplitl [H8]
  · iexists _; isplitr
    swap; · iexact H8
    ipureintro
    exact View.read_writes_eq_canon _ _ _ (coverMsg _)
  iexists _; isplitr
  swap; · iexact H9
  ipureintro
  exact View.read_writes_eq_canon _ _ _ (coverCopy _)

end Cert.Kernel.Conv

end
-- ==== Proof.Kernel.Body2.lean ====
/-
  The body obligation of region 2: at every grid point, from its invariant and its windows' staging buffers as the
  pipeline hands them over, the kernel runs to the invariant of the next point and leaves each buffer at what the
  proof data state. The inputs' buffers hold their blocks at every point, fetched there or not. The slab output's
  buffer is fresh at every point. The message output's buffer is stored at the first point; its block never moves
  and is written back at the last point only, so from the second point on the buffer still holds the message, which is
  what the last point's write-back writes.
-/
import proofs.«111077_g1812476199039_cont_8to1_364_13_alg».proof.Proof.Kernel.Dats
import proofs.«111077_g1812476199039_cont_8to1_364_13_alg».proof.Proof.Kernel.Body2a

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the buffers hold when the body runs -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

/-- The branch condition holds at the first point only. -/
theorem hcond2 : ∀ t : Fin cfg2.N, k2_cond1 (grid2.coords t) = 1#1 ↔ t.val % 20 = 0 :=
  (by decide +kernel : ∀ t : Fin grid2.N, k2_cond1 (grid2.coords t) = 1#1 ↔ t.val % 20 = 0)
/-- The message window is stated idle everywhere but at the first point. -/
theorem idle2_7 : ∀ t : Fin cfg2.N, cfg2.idle 7 (grid2.coords t) = true ↔ ¬ t.val % 20 = 0 :=
  (by decide +kernel : ∀ t : Fin grid2.N, idle2 7 (grid2.coords t) = true ↔ ¬ t.val % 20 = 0)
theorem live2_7 : ∀ t : Fin cfg2.N, cfg2.idle 7 (grid2.coords t) = false ↔ t.val % 20 = 0 :=
  (by decide +kernel : ∀ t : Fin grid2.N, idle2 7 (grid2.coords t) = false ↔ t.val % 20 = 0)

/-- After the first point the message window's buffer holds the message: nothing has touched it since the first
    point's store. -/
theorem before2_7_pos (c : Dev nD) (t : Fin cfg2.N) (ht : t.val ≠ 0) (d) : (dat2 V c).before 7 t d = msg2 V c := by
  obtain ⟨n, hn⟩ := t
  induction n with
  | zero => exact absurd rfl ht
  | succ k ih =>
    have hN : k + 1 < 20 := lt_of_lt_of_eq hn (show cfg2.N = 20 from N_2)
    have hk : k < cfg2.N := Nat.lt_of_succ_lt hn
    rw [(dat2 V c).before_of_pos 7 ⟨k + 1, hn⟩ ht ((cfg2.win 7).fetch_out rfl _) d]
    have e : (⟨(⟨k + 1, hn⟩ : Fin cfg2.N).val - 1, Nat.lt_of_le_of_lt (Nat.sub_le _ _) (⟨k + 1, hn⟩ : Fin cfg2.N).isLt⟩ : Fin cfg2.N) = ⟨k, hk⟩ := Fin.ext (show k + 1 - 1 = k from Nat.add_sub_cancel k 1)
    rw [e]
    have hfl : (cfg2.win 7).flush ⟨k, hk⟩ = false := by
      cases h : (cfg2.win 7).flush ⟨k, hk⟩ with
      | false => rfl
      | true => exfalso; have := (flush2_7 ⟨k, hk⟩).mp h; dsimp only at this; omega
    rw [hfl, if_neg Bool.false_ne_true]
    unfold Dat.left
    by_cases hz : k = 0
    · subst hz
      rw [(live2_7 ⟨0, hk⟩).mpr rfl]
      dsimp only
      unfold Dat.kept
      rw [Pipeline.fill_of_clip_none (cfg := cfg2) 7 _ (fun _ => rfl) d ((dat2 V c).after 7 ⟨0, hk⟩), Window.fill_cut, after2_7]
    · rw [(idle2_7 ⟨k, hk⟩).mpr (by dsimp only; omega)]
      dsimp only
      exact ih hk hz

/-! ## The invariant, point by point -/

/-- Region 2's scoped rest with the scratch buffer as a memref at some contents. -/
theorem PhiA2_eq (c : Dev nD) :
    (Pipeline.ΦA spec2 c : sProp 𝕄) = iprop(chain2 c iprop(∃ d, owns (c : Thread nD τ) scM2 fullShare d) ∗ (∃ r, prngReg c r)) := by
  unfold Pipeline.ΦA chain2; rw [scopedRest2_eq]; simp only [scM2, owns_whole]; try rfl

theorem PhiS2_pos (c : Dev nD) (n : ℕ) (hn : n ≠ 0) :
    PhiS2 V c n = iprop(chain2 c (owns (c : Thread nD τ) scM2 fullShare (copy2 V c)) ∗ (∃ r, prngReg c r)) := by
  cases n with
  | zero => exact absurd rfl hn
  | succ n => rfl

/-! ## The obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

theorem live_in (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

set_option maxHeartbeats 4000000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) from rfl, show (dat2 V c).Φ t.castSucc = PhiS2 V c t.val from rfl]
  rw [live_in V c 0 t rfl, live_in V c 1 t rfl, live_in V c 2 t rfl, live_in V c 3 t rfl, live_in V c 4 t rfl, live_in V c 5 t rfl, live_in V c 6 t rfl,
    after2_0, after2_1, after2_2, after2_3, after2_4, after2_5, after2_6]
  rw [PhiS2_pos V c (t.val + 1) (Nat.succ_ne_zero _)]
  have hN : t.val < 20 := lt_of_lt_of_eq t.isLt (show cfg2.N = 20 from N_2)
  by_cases h0 : t.val = 0
  · -- the first point
    obtain rfl : t = t2z := Fin.ext h0
    have hc : k2_cond1 (grid2.coords t2z) = 1#1 := (hcond2 t2z).mpr rfl
    rw [live_in V c 7 t2z ((live2_7 t2z).mpr rfl), after2_7]
    rw [show PhiS2 V c (t2z : Fin cfg2.N).val = Pipeline.ΦA spec2 c from rfl, PhiA2_eq]
    unfold chain2
    iintro ⟨⟨⟨B0, B1, B2, B3, B4, B5, B6, B7, B8, B9, HS⟩, Hg⟩, Ho, ⟨%d0, H0⟩, ⟨%d1, H1⟩, ⟨%d2, H2⟩, ⟨%d3, H3⟩, ⟨%d4, H4⟩, ⟨%d5, H5⟩, H6, H7⟩
    iapply (sound_first c Set.univ (grid2.coords t2z) hc _ _ _ _ _ _ _ _ _ _ _ _ _ _ _ _ _ _
      (iblk2 V c 0 t2z) (iblk2 V c 1 t2z) (iblk2 V c 2 t2z) (iblk2 V c 3 t2z) (iblk2 V c 4 t2z) (iblk2 V c 5 t2z) _)
    isplitl [H0]; · iexact H0
    isplitl [H1]; · iexact H1
    isplitl [H2]; · iexact H2
    isplitl [H3]; · iexact H3
    isplitl [H4]; · iexact H4
    isplitl [H5]; · iexact H5
    isplitl [H6]
    · icases H6 with ⟨%d6, H6⟩; iexists _; iexact H6
    isplitl [H7]
    · icases H7 with ⟨%d7, H7⟩; iexists _; iexact H7
    isplitl [HS]; · iexact HS
    iintro ⟨H0, H1, H2, H3, H4, H5, H6, H7, HS⟩
    isplitl [B0 B1 B2 B3 B4 B5 B6 B7 B8 B9 HS Hg]
    · isplitr [Hg]
      · isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · -- a later point
    have hc : ¬ k2_cond1 (grid2.coords t) = 1#1 := fun h => h0 (by have := (hcond2 t).mp h; omega)
    rw [PhiS2_pos V c t.val h0]
    unfold chain2
    by_cases h19 : t.val = 19
    · -- the last point: the message window is written back, at the message it still holds
      rw [show (dat2 V c).leavesExact 7 t = owns (c : Thread nD τ) (st2_7 t) fullShare ((dat2 V c).after 7 t) from by
        unfold Dat.leavesExact; rw [(idle2_7 t).mpr (by omega), (flush2_7 t).mpr (by omega)], after2_7]
      iintro ⟨⟨⟨B0, B1, B2, B3, B4, B5, B6, B7, B8, B9, HS⟩, Hg⟩, Ho, ⟨%d0, H0⟩, H1, H2, H3, H4, H5, ⟨%d6, H6⟩, ⟨%d7, H7⟩⟩
      rw [before2_7_pos V c t h0 d7]
      iapply (sound_later c Set.univ (grid2.coords t) hc _ _ _ _ _ _ _ _ _ _ _ _ _ _ _ _ _ _ (iblk2 V c 0 t) (copy2 V c) _)
      isplitl [H0]; · iexact H0
      isplitl [H6]; · iexists _; iexact H6
      isplitl [HS]; · iexact HS
      iintro ⟨H0, H6, HS⟩
      isplitl [B0 B1 B2 B3 B4 B5 B6 B7 B8 B9 HS Hg]
      · isplitr [Hg]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          iexact HS
        iexact Hg
      isplitl [Ho]; · iexact Ho
      isplitl [H0]; · iexact H0
      isplitl [H1]; · icases H1 with ⟨%d1, H1⟩; iexact H1
      isplitl [H2]; · icases H2 with ⟨%d2, H2⟩; iexact H2
      isplitl [H3]; · icases H3 with ⟨%d3, H3⟩; iexact H3
      isplitl [H4]; · icases H4 with ⟨%d4, H4⟩; iexact H4
      isplitl [H5]; · icases H5 with ⟨%d5, H5⟩; iexact H5
      isplitl [H6]; · iexact H6
      iexact H7
    · -- a middle point: the message window's buffer is handed back as found
      rw [(dat2 V c).leavesExact_idle 7 t ((idle2_7 t).mpr (by omega)) (by
        cases h : (cfg2.win 7).flush t with
        | false => rfl
        | true => exfalso; have := (flush2_7 t).mp h; omega)]
      iintro ⟨⟨⟨B0, B1, B2, B3, B4, B5, B6, B7, B8, B9, HS⟩, Hg⟩, Ho, ⟨%d0, H0⟩, H1, H2, H3, H4, H5, ⟨%d6, H6⟩, H7⟩
      iapply (sound_later c Set.univ (grid2.coords t) hc _ _ _ _ _ _ _ _ _ _ _ _ _ _ _ _ _ _ (iblk2 V c 0 t) (copy2 V c) _)
      isplitl [H0]; · iexact H0
      isplitl [H6]; · iexists _; iexact H6
      isplitl [HS]; · iexact HS
      iintro ⟨H0, H6, HS⟩
      isplitl [B0 B1 B2 B3 B4 B5 B6 B7 B8 B9 HS Hg]
      · isplitr [Hg]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          iexact HS
        iexact Hg
      isplitl [Ho]; · iexact Ho
      isplitl [H0]; · iexact H0
      isplitl [H1]; · icases H1 with ⟨%d1, H1⟩; iexact H1
      isplitl [H2]; · icases H2 with ⟨%d2, H2⟩; iexact H2
      isplitl [H3]; · icases H3 with ⟨%d3, H3⟩; iexact H3
      isplitl [H4]; · icases H4 with ⟨%d4, H4⟩; iexact H4
      isplitl [H5]; · icases H5 with ⟨%d5, H5⟩; iexact H5
      isplitl [H6]; · iexact H6
      iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Conv

end
-- ==== Proof.Kernel.Run.lean ====
/-
  The whole run of the entry function: nine stretches of host operations, then the three kernel regions, each
  entered from what the item before it left. Between two items a core holds every unscoped buffer at the contents
  `WK` beside its generator register and an empty debt; a region takes its windows' arrays out of those buffers,
  runs its pipeline over its proof data, and puts the arrays back at what the write-backs left. Every weakly fair
  execution therefore ends, without a fault, with every unscoped buffer at `W12`.
-/
import proofs.«111077_g1812476199039_cont_8to1_364_13_alg».proof.Proof.Gen.Kernel.Regions
import proofs.«111077_g1812476199039_cont_8to1_364_13_alg».proof.Proof.Kernel.Dats
import proofs.«111077_g1812476199039_cont_8to1_364_13_alg».proof.Proof.Kernel.Body01
import proofs.«111077_g1812476199039_cont_8to1_364_13_alg».proof.Proof.Kernel.Body2

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and an empty debt. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hF0 (c : Dev nD) (w : Fin cfg0.W) : (dat0 (V9 m) c).arrAt w cfg0.N = V10 m c (Pipeline.arrRef spec0 w) :=
  (W10_arr m c w).symm
theorem hrest0 (c : Dev nD) : ∀ b, b ∉ Finset.univ.image (Pipeline.arrRef spec0) → V10 m c b = V9 m c b :=
  fun b hb => W10_of_ne m c b fun w e => hb (Finset.mem_image.mpr ⟨w, Finset.mem_univ _, e⟩)

theorem hF1 (c : Dev nD) (w : Fin cfg1.W) : (dat1 (V10 m) c).arrAt w cfg1.N = V11 m c (Pipeline.arrRef spec1 w) :=
  (W11_arr m c w).symm
theorem hrest1 (c : Dev nD) : ∀ b, b ∉ Finset.univ.image (Pipeline.arrRef spec1) → V11 m c b = V10 m c b :=
  fun b hb => W11_of_ne m c b fun w e => hb (Finset.mem_image.mpr ⟨w, Finset.mem_univ _, e⟩)

theorem hF2 (c : Dev nD) (w : Fin cfg2.W) : (dat2 (V11 m) c).arrAt w cfg2.N = V12 m c (Pipeline.arrRef spec2 w) :=
  (W12_arr m c w).symm
theorem hrest2 (c : Dev nD) : ∀ b, b ∉ Finset.univ.image (Pipeline.arrRef spec2) → V12 m c b = V11 m c b :=
  fun b hb => W12_of_ne m c b fun w e => hb (Finset.mem_image.mpr ⟨w, Finset.mem_univ _, e⟩)

set_option backward.isDefEq.respectTransparency.types false in
/-- Region 0 over the thread state: entered from every unscoped buffer at `W9`, left at `W10`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9 m) c).loose
  hwaits := Pipeline.hwaits_of_owed_zero _ _ _ _ L lv 0 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec0 c (V9 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V9 m c) (V10 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered at `W10`, left at `W11`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V10 m) c).loose
  hwaits := Pipeline.hwaits_of_owed_zero _ _ _ _ L lv 1 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec1 c (V10 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V10 m c) (V11 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered at `W11`, left at `W12`; at its exit the scratch buffer's named contents are forgotten. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m) c).loose
  hwaits := Pipeline.hwaits_of_owed_zero _ _ _ _ L lv 2 fun _ _ => rfl
  pre c := iprop(StableHlo.held (c : Thread nD τ) (Pipeline.ucRefs τ sig) (W11 m c) ∗ R c)
  post c := iprop(iprop(StableHlo.held (c : Thread nD τ) (Pipeline.ucRefs τ sig) (W12 m c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V11 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = PhiS2 (V11 m) c (Fin.last cfg2.N).val from rfl,
      show (Fin.last cfg2.N).val = 19 + 1 from (show cfg2.N = 20 from N_2), PhiS2, show Pipeline.scopedRest (Pipeline.pin (pcfgs (F := F)) adm 2).spec c = Pipeline.scopedRest spec2 c from rfl, scopedRest2_eq]
    unfold chain2
    rw [show (scM2 : Memref sig .tc .vmem S2048x512 .bf16) = Memref.whole cc2_scratch0 from rfl, owns_whole]
    iintro ⟨⟨H0, H1, H2, H3, H4, H5, H6, H7, H8, H9, HS⟩, Hp⟩
    isplitl [Hp]; · iexact Hp
    isplitr; · iempintro
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact HS
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V11 m c) (V12 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The entry function's twelve items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .region (reg0 m), .region (reg1 m), .region (reg2 m) ]

/-- The entry function is the run of its items. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the entry function terminates, nothing
    faulting, with every unscoped buffer of every core at `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W12 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.Kernel.Conv

end
-- ==== Proof.Kernel.Kept.lean ====
/-
  No item of the entry function writes an argument array: each ends holding what it was launched with.
-/
import proofs.«111077_g1812476199039_cont_8to1_364_13_alg».proof.Proof.Kernel.Dats
import proofs.«111077_g1812476199039_cont_8to1_364_13_alg».proof.Proof.Gen.Kernel.Regions

set_option maxRecDepth 16384

noncomputable section

namespace Cert.Kernel.Conv

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]
variable (m : (ℓ : Loc nD τ sig) → Buf (Elt F) ℓ)

/-- A buffer no host stretch writes holds, when the first region is entered, what it was launched with. -/
theorem W9_of (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W)
    (h7 : r ∉ hostOps0_7_W) (h8 : r ∉ hostOps0_8_W) :
    W9 m c (Proc.devRef .tc r) = m ((c.tc : Thread nD τ).loc r) :=
  calc W9 m c (Proc.devRef .tc r)
    _ = W8 m c (Proc.devRef .tc r) := StableHlo.after_of_writes_sub hostOps0_8 _ hostOps0_8_writes h8
    _ = W7 m c (Proc.devRef .tc r) := StableHlo.after_of_writes_sub hostOps0_7 _ hostOps0_7_writes h7
    _ = W6 m c (Proc.devRef .tc r) := StableHlo.after_of_writes_sub hostOps0_6 _ hostOps0_6_writes h6
    _ = W5 m c (Proc.devRef .tc r) := StableHlo.after_of_writes_sub hostOps0_5 _ hostOps0_5_writes h5
    _ = W4 m c (Proc.devRef .tc r) := StableHlo.after_of_writes_sub hostOps0_4 _ hostOps0_4_writes h4
    _ = W3 m c (Proc.devRef .tc r) := StableHlo.after_of_writes_sub hostOps0_3 _ hostOps0_3_writes h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c.tc : Thread nD τ).loc r) := rfl

/-- An argument that is no array of any region: no region's write-backs touch it. -/
theorem kept_of_ne (c : Dev nD) (r : Ref sig .tc) (hr2 : ∀ w, Pipeline.arrRef spec2 w ≠ r) (hr1 : ∀ w, Pipeline.arrRef spec1 w ≠ r)
    (hr0 : ∀ w, Pipeline.arrRef spec0 w ≠ r) (h : W9 m c (Proc.devRef .tc r) = m ((c.tc : Thread nD τ).loc r)) :
    V12 m c r = m ((c.tc : Thread nD τ).loc r) :=
  calc W12 m c (Proc.devRef .tc r)
    _ = W11 m c (Proc.devRef .tc r) := W12_of_ne m c r hr2
    _ = W10 m c (Proc.devRef .tc r) := W11_of_ne m c r hr1
    _ = W9 m c (Proc.devRef .tc r) := W10_of_ne m c r hr0
    _ = m ((c.tc : Thread nD τ).loc r) := h

/-- An argument the last region reads through input window `w`: the window's array ends as the region found it. -/
theorem kept_of_in2 (c : Dev nD) (w : Fin cfg2.W) (hw : (cfg2.win w).isOut = false) (hr1 : ∀ w', Pipeline.arrRef spec1 w' ≠ Pipeline.arrRef spec2 w)
    (hr0 : ∀ w', Pipeline.arrRef spec0 w' ≠ Pipeline.arrRef spec2 w)
    (h : W9 m c (Proc.devRef .tc (Pipeline.arrRef spec2 w)) = m ((c.tc : Thread nD τ).loc (Pipeline.arrRef spec2 w))) :
    V12 m c (Pipeline.arrRef spec2 w) = m ((c.tc : Thread nD τ).loc (Pipeline.arrRef spec2 w)) :=
  calc W12 m c (Proc.devRef .tc (Pipeline.arrRef spec2 w))
    _ = W11 m c (Proc.devRef .tc (Pipeline.arrRef spec2 w)) :=
          (W12_arr m c w).trans (((dat2 (V11 m) c).arrAt_in w hw _).trans (A_eq2 (V11 m) c w))
    _ = W10 m c (Proc.devRef .tc (Pipeline.arrRef spec2 w)) := W11_of_ne m c _ hr1
    _ = W9 m c (Proc.devRef .tc (Pipeline.arrRef spec2 w)) := W10_of_ne m c _ hr0
    _ = m ((c.tc : Thread nD τ).loc (Pipeline.arrRef spec2 w)) := h

theorem kept_arg0 (c : Dev nD) : V12 m c main_arg0 = m ((c.tc : Thread nD τ).loc main_arg0) :=
  kept_of_ne m c main_arg0 (by decide) (by decide) (by decide)
    (W9_of m c main_arg0 (by decide) (by decide) (by decide) (by decide) (by decide) (by decide) (by decide) (by decide) (by decide))

theorem kept_arg1 (c : Dev nD) : V12 m c main_arg1 = m ((c.tc : Thread nD τ).loc main_arg1) :=
  kept_of_ne m c main_arg1 (by decide) (by decide) (by decide)
    (W9_of m c main_arg1 (by decide) (by decide) (by decide) (by decide) (by decide) (by decide) (by decide) (by decide) (by decide))

theorem kept_arg2 (c : Dev nD) : V12 m c main_arg2 = m ((c.tc : Thread nD τ).loc main_arg2) :=
  kept_of_in2 m c 3 rfl (by decide) (by decide)
    (W9_of m c main_arg2 (by decide) (by decide) (by decide) (by decide) (by decide) (by decide) (by decide) (by decide) (by decide))

theorem kept_arg3 (c : Dev nD) : V12 m c main_arg3 = m ((c.tc : Thread nD τ).loc main_arg3) :=
  kept_of_ne m c main_arg3 (by decide) (by decide) (by decide)
    (W9_of m c main_arg3 (by decide) (by decide) (by decide) (by decide) (by decide) (by decide) (by decide) (by decide) (by decide))

theorem kept_arg4 (c : Dev nD) : V12 m c main_arg4 = m ((c.tc : Thread nD τ).loc main_arg4) :=
  kept_of_ne m c main_arg4 (by decide) (by decide) (by decide)
    (W9_of m c main_arg4 (by decide) (by decide) (by decide) (by decide) (by decide) (by decide) (by decide) (by decide) (by decide))

theorem kept_arg5 (c : Dev nD) : V12 m c main_arg5 = m ((c.tc : Thread nD τ).loc main_arg5) :=
  kept_of_in2 m c 0 rfl (by decide) (by decide)
    (W9_of m c main_arg5 (by decide) (by decide) (by decide) (by decide) (by decide) (by decide) (by decide) (by decide) (by decide))

theorem kept_arg6 (c : Dev nD) : V12 m c main_arg6 = m ((c.tc : Thread nD τ).loc main_arg6) :=
  kept_of_ne m c main_arg6 (by decide) (by decide) (by decide)
    (W9_of m c main_arg6 (by decide) (by decide) (by decide) (by decide) (by decide) (by decide) (by decide) (by decide) (by decide))

theorem kept_arg7 (c : Dev nD) : V12 m c main_arg7 = m ((c.tc : Thread nD τ).loc main_arg7) :=
  kept_of_ne m c main_arg7 (by decide) (by decide) (by decide)
    (W9_of m c main_arg7 (by decide) (by decide) (by decide) (by decide) (by decide) (by decide) (by decide) (by decide) (by decide))

end Cert.Kernel.Conv

end
-- ==== Proof.KernelIdeal.Dats.lean ====
/-
  What each of the three kernel regions of the program leaves behind, stated as data: for every region the blocks its
  windows hold at a grid point, what the body leaves in each window's staging buffer there, and the contents of every
  buffer of the program between two consecutive items of its entry function.

  Region 0 and region 1 are the same kernel: at point t the 512 × 10112 panel t of an incidence matrix times the whole
  10112 × 512 table, written to rows 512·t … 512·t + 511 of the partial message. Region 2 computes the message once, at
  its first point, from the two partial messages, the group table, the transposed weight and the bias; it keeps a
  copy in a scratch buffer that every later point reads, and at point t multiplies rows 1000·t … 1000·t + 999 of the
  aggregation matrix by that copy. The message's own output block never moves, so its staging buffer keeps the message
  from the first point to the last, where it is written back.
-/
import proofs.«111077_g1812476199039_cont_8to1_364_13_alg».proof.Proof.Gen.KernelIdeal.Launch
import proofs.«111077_g1812476199039_cont_8to1_364_13_alg».proof.Proof.Gen.KernelIdeal.Skeleton
import proofs.«111077_g1812476199039_cont_8to1_364_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! ## Region 0: one incidence matrix times its table -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rPanel : Rect S512x10112 := Rect.unit (s := S512x10112) ![0, 0] S512x10112.size inb_S512x10112_S512x10112_0_0
abbrev rTable : Rect S10112x512 := Rect.unit (s := S10112x512) ![0, 0] S10112x512.size inb_S10112x512_S10112x512_0_0
abbrev rTile : Rect S512x512 := Rect.unit (s := S512x512) ![0, 0] S512x512.size inb_S512x512_S512x512_0_0

/-- The output tile after the body of region 0: the panel times the table, stored whole. -/
def out0_2 (x0 : Vec F S512x10112 .bf16) (x1 : Vec F S10112x512 .bf16) : Vec F S512x512 .bf16 :=
  View.canon [⟨rTile, k0_pay1 (View.ld x0 rPanel) (View.ld x1 rTable)⟩]

/-- The proof data of region 0: the arrays as the region finds them; each input's buffer at its block, the output's at
    the product; nothing owed, full shares, the scoped rest untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: the other incidence matrix times its table -/

/-- Window `w`'s block at point `t` of region 1. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output tile after the body of region 1. -/
def out1_2 (x0 : Vec F S512x10112 .bf16) (x1 : Vec F S10112x512 .bf16) : Vec F S512x512 .bf16 :=
  View.canon [⟨rTile, k1_pay1 (View.ld x0 rPanel) (View.ld x1 rTable)⟩]

/-- The proof data of region 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Region 2: the message, once, and the aggregation, slab by slab -/

/-- Window `w`'s block at point `t` of region 2. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rSlab : Rect S1000x2048 := Rect.unit (s := S1000x2048) ![0, 0] S1000x2048.size inb_S1000x2048_S1000x2048_0_0
abbrev rMsg : Rect S2048x512 := Rect.unit (s := S2048x512) ![0, 0] S2048x512.size inb_S2048x512_S2048x512_0_0
abbrev rWt : Rect S1536x512 := Rect.unit (s := S1536x512) ![0, 0] S1536x512.size inb_S1536x512_S1536x512_0_0
abbrev rBias : Rect S1x512 := Rect.unit (s := S1x512) ![0, 0] S1x512.size inb_S1x512_S1x512_0_0
abbrev rOut : Rect S1000x512 := Rect.unit (s := S1000x512) ![0, 0] S1000x512.size inb_S1000x512_S1000x512_0_0

/-- The message block the first point stores: from the two partial messages `x1`, `x2`, the group table `x3`, the
    transposed weight `x4` and the bias row `x5`. -/
def msgOf (x1 x2 : Vec F S2048x512 .bf16) (x3 : Vec F S2048x512 .f32) (x4 : Vec F S1536x512 .f32) (x5 : Vec F S1x512 .f32) : Vec F S2048x512 .f32 :=
  View.canon [⟨rMsg, k2_pay1 (View.ld x2 rMsg) (View.ld x3 rMsg) (View.ld x4 rWt) (View.ld x1 rMsg) (View.ld x2 rMsg) (View.ld x5 rBias)⟩]

/-- The copy of the message the first point leaves in the scratch buffer. -/
def copyOf (x1 x2 : Vec F S2048x512 .bf16) (x3 : Vec F S2048x512 .f32) (x4 : Vec F S1536x512 .f32) (x5 : Vec F S1x512 .f32) : Vec F S2048x512 .bf16 :=
  View.canon [⟨rMsg, k2_pay2 (View.ld x2 rMsg) (View.ld x3 rMsg) (View.ld x4 rWt) (View.ld x1 rMsg) (View.ld x2 rMsg) (View.ld x5 rBias)⟩]

/-- The output slab after the body at any point: the slab of the aggregation matrix times the scratch copy `s`. -/
def out2_6 (x0 : Vec F S1000x2048 .f32) (s : Vec F S2048x512 .bf16) : Vec F S1000x512 .f32 :=
  View.canon [⟨rOut, k2_pay3 (View.ld x0 rSlab) (View.ld s rMsg)⟩]

/-- The first point of region 2's grid. -/
def t2z : Fin cfg2.N := ⟨0, Nat.lt_of_lt_of_eq (by decide : 0 < 20) N_2.symm⟩

/-- The message, from the blocks the first point finds (windows 1 … 5 never move, so every point finds the same). -/
def msg2 (c : Dev nD) : Vec F S2048x512 .f32 :=
  msgOf (iblk2 V c 1 t2z) (iblk2 V c 2 t2z) (iblk2 V c 3 t2z) (iblk2 V c 4 t2z) (iblk2 V c 5 t2z)

/-- The scratch copy of the message. -/
def copy2 (c : Dev nD) : Vec F S2048x512 .bf16 :=
  copyOf (iblk2 V c 1 t2z) (iblk2 V c 2 t2z) (iblk2 V c 3 t2z) (iblk2 V c 4 t2z) (iblk2 V c 5 t2z)

/-- The scratch buffer of region 2, as a memref. -/
abbrev scM2 : Memref sig .tc .vmem S2048x512 .bf16 := Memref.whole cc2_scratch0

/-- The scoped buffers of regions 0 and 1 (no concern of region 2), each whole at some contents, in front of `X`:
    with `X` the scratch buffer at some contents this is all of region 2's scoped rest. -/
def chain2 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ X)

/-- Region 2's invariant before position `n`: before the first point the scoped rest at anything and the generator
    register; afterwards the same with the scratch buffer at the copy of the message. -/
def PhiS2 (c : Dev nD) : ℕ → sProp 𝕄
  | 0 => Pipeline.ΦA spec2 c
  | _ + 1 => iprop(chain2 c (owns (c : Thread nD τ) scM2 fullShare (copy2 V c)) ∗ (∃ r, prngReg c r))

/-- The proof data of region 2: the inputs' buffers at their blocks; the slab output's at the slab times the copy; the
    message output's at the message, at EVERY point (stored at the first, kept since); the invariant `PhiS2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (copy2 V c)
    | ⟨7, _⟩ => msg2 V c
  Φ t := PhiS2 V c t.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (copy2 V c) := by dsimp only [dat2]
theorem after2_7 (c : Dev nD) (t : Fin cfg2.N) : (dat2 V c).after 7 t = msg2 V c := by dsimp only [dat2]

end Regions

/-! ## The buffers' contents between the items of the entry function -/

variable (m : (ℓ : Loc nD τ sig) → Buf (Elt F) ℓ)

/-- Core `c`'s buffers at launch. -/
abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
abbrev W5 (c : Dev nD) : Valuation τ sig (Elt F) := StableHlo.after hostOps0_4 (W4 m c)
abbrev W6 (c : Dev nD) : Valuation τ sig (Elt F) := StableHlo.after hostOps0_5 (W5 m c)
abbrev W7 (c : Dev nD) : Valuation τ sig (Elt F) := StableHlo.after hostOps0_6 (W6 m c)
abbrev W8 (c : Dev nD) : Valuation τ sig (Elt F) := StableHlo.after hostOps0_7 (W7 m c)
/-- After the last host operation before the regions: what region 0 is entered from. -/
abbrev W9 (c : Dev nD) : Valuation τ sig (Elt F) := StableHlo.after hostOps0_8 (W8 m c)
abbrev V9 : (c : Dev nD) → (b : Ref sig .tc) → Buf (Elt F) ((c : Thread nD τ).loc b) := fun c b => W9 m c b
/-- At region 0's exit: its arrays at what its write-backs leave, every other buffer as entered. -/
def W10 (c : Dev nD) : Valuation τ sig (Elt F) :=
  Pipeline.withArrays spec0 c (W9 m c) fun w => (dat0 (V9 m) c).arrAt w cfg0.N
abbrev V10 : (c : Dev nD) → (b : Ref sig .tc) → Buf (Elt F) ((c : Thread nD τ).loc b) := fun c b => W10 m c b
/-- At region 1's exit. -/
def W11 (c : Dev nD) : Valuation τ sig (Elt F) :=
  Pipeline.withArrays spec1 c (W10 m c) fun w => (dat1 (V10 m) c).arrAt w cfg1.N
abbrev V11 : (c : Dev nD) → (b : Ref sig .tc) → Buf (Elt F) ((c : Thread nD τ).loc b) := fun c b => W11 m c b
/-- At region 2's exit: the program's end. -/
def W12 (c : Dev nD) : Valuation τ sig (Elt F) :=
  Pipeline.withArrays spec2 c (W11 m c) fun w => (dat2 (V11 m) c).arrAt w cfg2.N
abbrev V12 : (c : Dev nD) → (b : Ref sig .tc) → Buf (Elt F) ((c : Thread nD τ).loc b) := fun c b => W12 m c b

theorem W10_arr (c : Dev nD) (w : Fin cfg0.W) :
    W10 m c (Proc.devRef .tc (Pipeline.arrRef spec0 w)) = (dat0 (V9 m) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m c (Proc.devRef .tc b) = W9 m c (Proc.devRef .tc b) := by
  unfold W10; exact Pipeline.withArrays_of_ne spec0 c _ _ b hb
theorem W11_arr (c : Dev nD) (w : Fin cfg1.W) :
    W11 m c (Proc.devRef .tc (Pipeline.arrRef spec1 w)) = (dat1 (V10 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb
theorem W12_arr (c : Dev nD) (w : Fin cfg2.W) :
    W12 m c (Proc.devRef .tc (Pipeline.arrRef spec2 w)) = (dat2 (V11 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb

/-- No region has a prefetched table. -/
abbrev adm : (p : Fin 3) → (pcfgs (F := F) p).Adm := fun p => (cfgs p).toPCfg_adm

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V9 m) c
  | ⟨1, _⟩ => fun c => dat1 (V10 m) c
  | ⟨2, _⟩ => fun c => dat2 (V11 m) c

end Cert.KernelIdeal.Conv

end
-- ==== Proof.KernelIdeal.Body01.lean ====
/-
  The body obligations of the two partial-message regions: at every grid point the kernel finds the panel's block and
  the whole table in its input buffers (fetched there or not), and leaves in its output buffer the product of the
  two, stored as one whole tile.
-/
import proofs.«111077_g1812476199039_cont_8to1_364_13_alg».proof.Proof.KernelIdeal.Dats

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- The panel's staging buffer holds its block at every point: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The table's staging buffer holds the whole table at every point: fetched at the first point, and its block index
    never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one whole-tile store covers the output tile. -/
theorem cover0_2 (p0 : Vec F S512x512 .bf16) (y : S512x512.Idx) :
    ∃ pc ∈ ([⟨rTile, p0⟩] : List (View.Piece (Elt F) S512x512 .bf16)), y ∈ pc.1.set :=
  View.cover_of_tiled [⟨rTile, p0⟩] S512x512.size (by rfl) y

set_option maxHeartbeats 1000000 in
/-- The kernel on whole staging memrefs, the inputs' at read contents `x0`, `x1` and the output's at anything, runs to the
    continuation holding the inputs' as they were and the output's at the product tile. The load of the output tile
    before its store reads a value nothing uses. -/
theorem sound_kernel0 (c : Dev nD) (E : Set ℕ) (i : grid0.Coords)
    (arg1 : Memref sig .tc .vmem S512x10112 .bf16) (harg1 : arg1.IsWhole)
    (arg2 : Memref sig .tc .vmem S10112x512 .bf16) (harg2 : arg2.IsWhole)
    (arg3 : Memref sig .tc .vmem S512x512 .bf16) (harg3 : arg3.IsWhole)
    (x0 : Vec F S512x10112 .bf16) (x1 : Vec F S10112x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__partial_msg_body i arg1 harg1 arg2 harg2 arg3 harg3) K := by
  simp only [cc0__partial_msg_body_eq_skeleton]; unfold cc0__partial_msg_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ### The body obligation of region 0, at a generic point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`: the invariant, the core's dues, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Region 1 -/

/-- The panel's staging buffer holds its block at every point: the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The table's staging buffer holds the whole table at every point: fetched at the first point, and its block index
    never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one whole-tile store covers the output tile. -/
theorem cover1_2 (p0 : Vec F S512x512 .bf16) (y : S512x512.Idx) :
    ∃ pc ∈ ([⟨rTile, p0⟩] : List (View.Piece (Elt F) S512x512 .bf16)), y ∈ pc.1.set :=
  View.cover_of_tiled [⟨rTile, p0⟩] S512x512.size (by rfl) y

set_option maxHeartbeats 1000000 in
/-- The kernel on whole staging memrefs, the inputs' at read contents `x0`, `x1` and the output's at anything, runs to the
    continuation holding the inputs' as they were and the output's at the product tile. The load of the output tile
    before its store reads a value nothing uses. -/
theorem sound_kernel1 (c : Dev nD) (E : Set ℕ) (i : grid1.Coords)
    (arg1 : Memref sig .tc .vmem S512x10112 .bf16) (harg1 : arg1.IsWhole)
    (arg2 : Memref sig .tc .vmem S10112x512 .bf16) (harg2 : arg2.IsWhole)
    (arg3 : Memref sig .tc .vmem S512x512 .bf16) (harg3 : arg3.IsWhole)
    (x0 : Vec F S512x10112 .bf16) (x1 : Vec F S10112x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__partial_msg_body i arg1 harg1 arg2 harg2 arg3 harg3) K := by
  simp only [cc1__partial_msg_body_eq_skeleton]; unfold cc1__partial_msg_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ### The body obligation of region 1, at a generic point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`: the invariant, the core's dues, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the kernel's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Conv

end
-- ==== Proof.KernelIdeal.Body2a.lean ====
/-
  The kernel of region 2 on its staging buffers, in its two cases. At the first grid point it loads the two partial
  messages, the group table, the transposed weight and the bias, stores the message into the message window's buffer
  and its copy into the scratch buffer, then multiplies the slab of the aggregation matrix by that copy. At every
  later point it only multiplies the slab by the copy the scratch buffer still holds.
-/
import proofs.«111077_g1812476199039_cont_8to1_364_13_alg».proof.Proof.KernelIdeal.Dats

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The later points: the slab times the scratch copy -/

/-- The one store of the later points covers the slab output's buffer. -/
theorem coverOut (p0 : Vec F S1000x512 .f32) (y : S1000x512.Idx) :
    ∃ pc ∈ ([⟨rOut, p0⟩] : List (View.Piece (Elt F) S1000x512 .f32)), y ∈ pc.1.set :=
  View.cover_of_tiled [⟨rOut, p0⟩] S1000x512.size (by rfl) y

set_option maxHeartbeats 1000000 in
/-- Away from the first point the body reads the slab `x0` and the scratch copy `s` and stores their product into
    the slab output; it touches no other buffer. -/
theorem sound_later (c : Dev nD) (E : Set ℕ) (i : grid2.Coords) (hc : ¬ k2_cond1 i = 1#1)
    (arg1 : Memref sig .tc .vmem S1000x2048 .f32) (harg1 : arg1.IsWhole) (arg2 : Memref sig .tc .vmem S2048x512 .bf16) (harg2 : arg2.IsWhole)
    (arg3 : Memref sig .tc .vmem S2048x512 .bf16) (harg3 : arg3.IsWhole) (arg4 : Memref sig .tc .vmem S2048x512 .f32) (harg4 : arg4.IsWhole)
    (arg5 : Memref sig .tc .vmem S1536x512 .f32) (harg5 : arg5.IsWhole) (arg6 : Memref sig .tc .vmem S1x512 .f32) (harg6 : arg6.IsWhole)
    (arg7 : Memref sig .tc .vmem S1000x512 .f32) (harg7 : arg7.IsWhole) (arg8 : Memref sig .tc .vmem S2048x512 .f32) (harg8 : arg8.IsWhole)
    (arg9 : Memref sig .tc .vmem S2048x512 .bf16) (harg9 : arg9.IsWhole)
    (x0 : Vec F S1000x2048 .f32) (s : Vec F S2048x512 .bf16) (K : PUnit → sProp 𝕄) :
    iprop(owns (c : Thread nD τ) arg1 fullShare x0 ∗ (∃ d, owns (c : Thread nD τ) arg7 fullShare d) ∗ owns (c : Thread nD τ) arg9 fullShare s
        ∗ (iprop(owns (c : Thread nD τ) arg1 fullShare x0 ∗ owns (c : Thread nD τ) arg7 fullShare (out2_6 x0 s) ∗ owns (c : Thread nD τ) arg9 fullShare s) -∗ K ⟨⟩))
      ⊢ wp frame (wpE (defs₀ (F := F)) Variants.none c none) E (cc2__agg_body i arg1 harg1 arg2 harg2 arg3 harg3 arg4 harg4 arg5 harg5 arg6 harg6 arg7 harg7 arg8 harg8 arg9 harg9) K := by
  simp only [cc2__agg_body_eq_skeleton]; unfold cc2__agg_body_skel
  unfold owns
  iintro ⟨⟨%f0, %hf0, H0⟩, ⟨%d7, %f7, -, H7⟩, ⟨%f9, %hf9, H9⟩, Hk⟩
  subst hf0; subst hf9
  sl_exec (disch := exact hc)
  sl_step
  iapply Hk
  isplitl [H0]
  · iexists f0; isplitr; · ipureintro; rfl
    iexact H0
  isplitl [H7]
  · iexists _; isplitr
    swap; · iexact H7
    ipureintro
    exact View.read_writes_eq_canon _ _ _ (coverOut _)
  iexists f9; isplitr; · ipureintro; rfl
  iexact H9

/-! ## The first point: the message, its copy, and the first slab -/

theorem coverMsg (p0 : Vec F S2048x512 .f32) (y : S2048x512.Idx) :
    ∃ pc ∈ ([⟨rMsg, p0⟩] : List (View.Piece (Elt F) S2048x512 .f32)), y ∈ pc.1.set :=
  View.cover_of_tiled [⟨rMsg, p0⟩] S2048x512.size (by rfl) y

theorem coverCopy (p0 : Vec F S2048x512 .bf16) (y : S2048x512.Idx) :
    ∃ pc ∈ ([⟨rMsg, p0⟩] : List (View.Piece (Elt F) S2048x512 .bf16)), y ∈ pc.1.set :=
  View.cover_of_tiled [⟨rMsg, p0⟩] S2048x512.size (by rfl) y

set_option maxHeartbeats 2000000 in
/-- At the first point the body reads the five constant blocks and the slab, stores the message, its copy, and the
    slab times that copy. -/
theorem sound_first (c : Dev nD) (E : Set ℕ) (i : grid2.Coords) (hc : k2_cond1 i = 1#1)
    (arg1 : Memref sig .tc .vmem S1000x2048 .f32) (harg1 : arg1.IsWhole) (arg2 : Memref sig .tc .vmem S2048x512 .bf16) (harg2 : arg2.IsWhole)
    (arg3 : Memref sig .tc .vmem S2048x512 .bf16) (harg3 : arg3.IsWhole) (arg4 : Memref sig .tc .vmem S2048x512 .f32) (harg4 : arg4.IsWhole)
    (arg5 : Memref sig .tc .vmem S1536x512 .f32) (harg5 : arg5.IsWhole) (arg6 : Memref sig .tc .vmem S1x512 .f32) (harg6 : arg6.IsWhole)
    (arg7 : Memref sig .tc .vmem S1000x512 .f32) (harg7 : arg7.IsWhole) (arg8 : Memref sig .tc .vmem S2048x512 .f32) (harg8 : arg8.IsWhole)
    (arg9 : Memref sig .tc .vmem S2048x512 .bf16) (harg9 : arg9.IsWhole)
    (x0 : Vec F S1000x2048 .f32) (x1 x2 : Vec F S2048x512 .bf16) (x3 : Vec F S2048x512 .f32) (x4 : Vec F S1536x512 .f32) (x5 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 (copyOf x1 x2 x3 x4 x5))
            ∗ owns (c : Thread nD τ) arg8 fullShare (msgOf x1 x2 x3 x4 x5)
            ∗ owns (c : Thread nD τ) arg9 fullShare (copyOf x1 x2 x3 x4 x5)) -∗ K ⟨⟩))
      ⊢ wp frame (wpE (defs₀ (F := F)) Variants.none c none) E (cc2__agg_body i arg1 harg1 arg2 harg2 arg3 harg3 arg4 harg4 arg5 harg5 arg6 harg6 arg7 harg7 arg8 harg8 arg9 harg9) K := by
  simp only [cc2__agg_body_eq_skeleton]; unfold cc2__agg_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%d9, %f9, -, H9⟩, Hk⟩
  subst hf0; subst hf1; subst hf2; subst hf3; subst hf4; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    refine (View.read_writes_eq_canon _ _ _ (coverOut _)).trans ?_
    unfold out2_6 copyOf
    sl_unfold_run_names
    refine congrArg (fun s => View.canon [(⟨rOut, k2_pay3 (View.ld (View.read (Elt F) arg1.view f0) rSlab) s⟩ : View.Piece (Elt F) S1000x512 .f32)]) ?_
    exact View.readCov_eq_canon_ld _ _ _ (coverCopy _)
  isplitl [H8]
  · iexists _; isplitr
    swap; · iexact H8
    ipureintro
    exact View.read_writes_eq_canon _ _ _ (coverMsg _)
  iexists _; isplitr
  swap; · iexact H9
  ipureintro
  exact View.read_writes_eq_canon _ _ _ (coverCopy _)

end Cert.KernelIdeal.Conv

end
-- ==== Proof.KernelIdeal.Body2.lean ====
/-
  The body obligation of region 2: at every grid point, from its invariant and its windows' staging buffers as the
  pipeline hands them over, the kernel runs to the invariant of the next point and leaves each buffer at what the
  proof data state. The inputs' buffers hold their blocks at every point, fetched there or not. The slab output's
  buffer is fresh at every point. The message output's buffer is stored at the first point; its block never moves
  and is written back at the last point only, so from the second point on the buffer still holds the message, which is
  what the last point's write-back writes.
-/
import proofs.«111077_g1812476199039_cont_8to1_364_13_alg».proof.Proof.KernelIdeal.Dats
import proofs.«111077_g1812476199039_cont_8to1_364_13_alg».proof.Proof.KernelIdeal.Body2a

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the buffers hold when the body runs -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

/-- The branch condition holds at the first point only. -/
theorem hcond2 : ∀ t : Fin cfg2.N, k2_cond1 (grid2.coords t) = 1#1 ↔ t.val % 20 = 0 :=
  (by decide +kernel : ∀ t : Fin grid2.N, k2_cond1 (grid2.coords t) = 1#1 ↔ t.val % 20 = 0)
/-- The message window is stated idle everywhere but at the first point. -/
theorem idle2_7 : ∀ t : Fin cfg2.N, cfg2.idle 7 (grid2.coords t) = true ↔ ¬ t.val % 20 = 0 :=
  (by decide +kernel : ∀ t : Fin grid2.N, idle2 7 (grid2.coords t) = true ↔ ¬ t.val % 20 = 0)
theorem live2_7 : ∀ t : Fin cfg2.N, cfg2.idle 7 (grid2.coords t) = false ↔ t.val % 20 = 0 :=
  (by decide +kernel : ∀ t : Fin grid2.N, idle2 7 (grid2.coords t) = false ↔ t.val % 20 = 0)

/-- After the first point the message window's buffer holds the message: nothing has touched it since the first
    point's store. -/
theorem before2_7_pos (c : Dev nD) (t : Fin cfg2.N) (ht : t.val ≠ 0) (d) : (dat2 V c).before 7 t d = msg2 V c := by
  obtain ⟨n, hn⟩ := t
  induction n with
  | zero => exact absurd rfl ht
  | succ k ih =>
    have hN : k + 1 < 20 := lt_of_lt_of_eq hn (show cfg2.N = 20 from N_2)
    have hk : k < cfg2.N := Nat.lt_of_succ_lt hn
    rw [(dat2 V c).before_of_pos 7 ⟨k + 1, hn⟩ ht ((cfg2.win 7).fetch_out rfl _) d]
    have e : (⟨(⟨k + 1, hn⟩ : Fin cfg2.N).val - 1, Nat.lt_of_le_of_lt (Nat.sub_le _ _) (⟨k + 1, hn⟩ : Fin cfg2.N).isLt⟩ : Fin cfg2.N) = ⟨k, hk⟩ := Fin.ext (show k + 1 - 1 = k from Nat.add_sub_cancel k 1)
    rw [e]
    have hfl : (cfg2.win 7).flush ⟨k, hk⟩ = false := by
      cases h : (cfg2.win 7).flush ⟨k, hk⟩ with
      | false => rfl
      | true => exfalso; have := (flush2_7 ⟨k, hk⟩).mp h; dsimp only at this; omega
    rw [hfl, if_neg Bool.false_ne_true]
    unfold Dat.left
    by_cases hz : k = 0
    · subst hz
      rw [(live2_7 ⟨0, hk⟩).mpr rfl]
      dsimp only
      unfold Dat.kept
      rw [Pipeline.fill_of_clip_none (cfg := cfg2) 7 _ (fun _ => rfl) d ((dat2 V c).after 7 ⟨0, hk⟩), Window.fill_cut, after2_7]
    · rw [(idle2_7 ⟨k, hk⟩).mpr (by dsimp only; omega)]
      dsimp only
      exact ih hk hz

/-! ## The invariant, point by point -/

/-- Region 2's scoped rest with the scratch buffer as a memref at some contents. -/
theorem PhiA2_eq (c : Dev nD) :
    (Pipeline.ΦA spec2 c : sProp 𝕄) = iprop(chain2 c iprop(∃ d, owns (c : Thread nD τ) scM2 fullShare d) ∗ (∃ r, prngReg c r)) := by
  unfold Pipeline.ΦA chain2; rw [scopedRest2_eq]; simp only [scM2, owns_whole]; try rfl

theorem PhiS2_pos (c : Dev nD) (n : ℕ) (hn : n ≠ 0) :
    PhiS2 V c n = iprop(chain2 c (owns (c : Thread nD τ) scM2 fullShare (copy2 V c)) ∗ (∃ r, prngReg c r)) := by
  cases n with
  | zero => exact absurd rfl hn
  | succ n => rfl

/-! ## The obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

theorem live_in (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

set_option maxHeartbeats 4000000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) from rfl, show (dat2 V c).Φ t.castSucc = PhiS2 V c t.val from rfl]
  rw [live_in V c 0 t rfl, live_in V c 1 t rfl, live_in V c 2 t rfl, live_in V c 3 t rfl, live_in V c 4 t rfl, live_in V c 5 t rfl, live_in V c 6 t rfl,
    after2_0, after2_1, after2_2, after2_3, after2_4, after2_5, after2_6]
  rw [PhiS2_pos V c (t.val + 1) (Nat.succ_ne_zero _)]
  have hN : t.val < 20 := lt_of_lt_of_eq t.isLt (show cfg2.N = 20 from N_2)
  by_cases h0 : t.val = 0
  · -- the first point
    obtain rfl : t = t2z := Fin.ext h0
    have hc : k2_cond1 (grid2.coords t2z) = 1#1 := (hcond2 t2z).mpr rfl
    rw [live_in V c 7 t2z ((live2_7 t2z).mpr rfl), after2_7]
    rw [show PhiS2 V c (t2z : Fin cfg2.N).val = Pipeline.ΦA spec2 c from rfl, PhiA2_eq]
    unfold chain2
    iintro ⟨⟨⟨B0, B1, B2, B3, B4, B5, B6, B7, B8, B9, HS⟩, Hg⟩, Ho, ⟨%d0, H0⟩, ⟨%d1, H1⟩, ⟨%d2, H2⟩, ⟨%d3, H3⟩, ⟨%d4, H4⟩, ⟨%d5, H5⟩, H6, H7⟩
    iapply (sound_first c Set.univ (grid2.coords t2z) hc _ _ _ _ _ _ _ _ _ _ _ _ _ _ _ _ _ _
      (iblk2 V c 0 t2z) (iblk2 V c 1 t2z) (iblk2 V c 2 t2z) (iblk2 V c 3 t2z) (iblk2 V c 4 t2z) (iblk2 V c 5 t2z) _)
    isplitl [H0]; · iexact H0
    isplitl [H1]; · iexact H1
    isplitl [H2]; · iexact H2
    isplitl [H3]; · iexact H3
    isplitl [H4]; · iexact H4
    isplitl [H5]; · iexact H5
    isplitl [H6]
    · icases H6 with ⟨%d6, H6⟩; iexists _; iexact H6
    isplitl [H7]
    · icases H7 with ⟨%d7, H7⟩; iexists _; iexact H7
    isplitl [HS]; · iexact HS
    iintro ⟨H0, H1, H2, H3, H4, H5, H6, H7, HS⟩
    isplitl [B0 B1 B2 B3 B4 B5 B6 B7 B8 B9 HS Hg]
    · isplitr [Hg]
      · isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · -- a later point
    have hc : ¬ k2_cond1 (grid2.coords t) = 1#1 := fun h => h0 (by have := (hcond2 t).mp h; omega)
    rw [PhiS2_pos V c t.val h0]
    unfold chain2
    by_cases h19 : t.val = 19
    · -- the last point: the message window is written back, at the message it still holds
      rw [show (dat2 V c).leavesExact 7 t = owns (c : Thread nD τ) (st2_7 t) fullShare ((dat2 V c).after 7 t) from by
        unfold Dat.leavesExact; rw [(idle2_7 t).mpr (by omega), (flush2_7 t).mpr (by omega)], after2_7]
      iintro ⟨⟨⟨B0, B1, B2, B3, B4, B5, B6, B7, B8, B9, HS⟩, Hg⟩, Ho, ⟨%d0, H0⟩, H1, H2, H3, H4, H5, ⟨%d6, H6⟩, ⟨%d7, H7⟩⟩
      rw [before2_7_pos V c t h0 d7]
      iapply (sound_later c Set.univ (grid2.coords t) hc _ _ _ _ _ _ _ _ _ _ _ _ _ _ _ _ _ _ (iblk2 V c 0 t) (copy2 V c) _)
      isplitl [H0]; · iexact H0
      isplitl [H6]; · iexists _; iexact H6
      isplitl [HS]; · iexact HS
      iintro ⟨H0, H6, HS⟩
      isplitl [B0 B1 B2 B3 B4 B5 B6 B7 B8 B9 HS Hg]
      · isplitr [Hg]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          iexact HS
        iexact Hg
      isplitl [Ho]; · iexact Ho
      isplitl [H0]; · iexact H0
      isplitl [H1]; · icases H1 with ⟨%d1, H1⟩; iexact H1
      isplitl [H2]; · icases H2 with ⟨%d2, H2⟩; iexact H2
      isplitl [H3]; · icases H3 with ⟨%d3, H3⟩; iexact H3
      isplitl [H4]; · icases H4 with ⟨%d4, H4⟩; iexact H4
      isplitl [H5]; · icases H5 with ⟨%d5, H5⟩; iexact H5
      isplitl [H6]; · iexact H6
      iexact H7
    · -- a middle point: the message window's buffer is handed back as found
      rw [(dat2 V c).leavesExact_idle 7 t ((idle2_7 t).mpr (by omega)) (by
        cases h : (cfg2.win 7).flush t with
        | false => rfl
        | true => exfalso; have := (flush2_7 t).mp h; omega)]
      iintro ⟨⟨⟨B0, B1, B2, B3, B4, B5, B6, B7, B8, B9, HS⟩, Hg⟩, Ho, ⟨%d0, H0⟩, H1, H2, H3, H4, H5, ⟨%d6, H6⟩, H7⟩
      iapply (sound_later c Set.univ (grid2.coords t) hc _ _ _ _ _ _ _ _ _ _ _ _ _ _ _ _ _ _ (iblk2 V c 0 t) (copy2 V c) _)
      isplitl [H0]; · iexact H0
      isplitl [H6]; · iexists _; iexact H6
      isplitl [HS]; · iexact HS
      iintro ⟨H0, H6, HS⟩
      isplitl [B0 B1 B2 B3 B4 B5 B6 B7 B8 B9 HS Hg]
      · isplitr [Hg]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          iexact HS
        iexact Hg
      isplitl [Ho]; · iexact Ho
      isplitl [H0]; · iexact H0
      isplitl [H1]; · icases H1 with ⟨%d1, H1⟩; iexact H1
      isplitl [H2]; · icases H2 with ⟨%d2, H2⟩; iexact H2
      isplitl [H3]; · icases H3 with ⟨%d3, H3⟩; iexact H3
      isplitl [H4]; · icases H4 with ⟨%d4, H4⟩; iexact H4
      isplitl [H5]; · icases H5 with ⟨%d5, H5⟩; iexact H5
      isplitl [H6]; · iexact H6
      iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Conv

end
-- ==== Proof.KernelIdeal.Run.lean ====
/-
  The whole run of the entry function: nine stretches of host operations, then the three kernel regions, each
  entered from what the item before it left. Between two items a core holds every unscoped buffer at the contents
  `WK` beside its generator register and an empty debt; a region takes its windows' arrays out of those buffers,
  runs its pipeline over its proof data, and puts the arrays back at what the write-backs left. Every weakly fair
  execution therefore ends, without a fault, with every unscoped buffer at `W12`.
-/
import proofs.«111077_g1812476199039_cont_8to1_364_13_alg».proof.Proof.Gen.KernelIdeal.Regions
import proofs.«111077_g1812476199039_cont_8to1_364_13_alg».proof.Proof.KernelIdeal.Dats
import proofs.«111077_g1812476199039_cont_8to1_364_13_alg».proof.Proof.KernelIdeal.Body01
import proofs.«111077_g1812476199039_cont_8to1_364_13_alg».proof.Proof.KernelIdeal.Body2

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and an empty debt. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hF0 (c : Dev nD) (w : Fin cfg0.W) : (dat0 (V9 m) c).arrAt w cfg0.N = V10 m c (Pipeline.arrRef spec0 w) :=
  (W10_arr m c w).symm
theorem hrest0 (c : Dev nD) : ∀ b, b ∉ Finset.univ.image (Pipeline.arrRef spec0) → V10 m c b = V9 m c b :=
  fun b hb => W10_of_ne m c b fun w e => hb (Finset.mem_image.mpr ⟨w, Finset.mem_univ _, e⟩)

theorem hF1 (c : Dev nD) (w : Fin cfg1.W) : (dat1 (V10 m) c).arrAt w cfg1.N = V11 m c (Pipeline.arrRef spec1 w) :=
  (W11_arr m c w).symm
theorem hrest1 (c : Dev nD) : ∀ b, b ∉ Finset.univ.image (Pipeline.arrRef spec1) → V11 m c b = V10 m c b :=
  fun b hb => W11_of_ne m c b fun w e => hb (Finset.mem_image.mpr ⟨w, Finset.mem_univ _, e⟩)

theorem hF2 (c : Dev nD) (w : Fin cfg2.W) : (dat2 (V11 m) c).arrAt w cfg2.N = V12 m c (Pipeline.arrRef spec2 w) :=
  (W12_arr m c w).symm
theorem hrest2 (c : Dev nD) : ∀ b, b ∉ Finset.univ.image (Pipeline.arrRef spec2) → V12 m c b = V11 m c b :=
  fun b hb => W12_of_ne m c b fun w e => hb (Finset.mem_image.mpr ⟨w, Finset.mem_univ _, e⟩)

set_option backward.isDefEq.respectTransparency.types false in
/-- Region 0 over the thread state: entered from every unscoped buffer at `W9`, left at `W10`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9 m) c).loose
  hwaits := Pipeline.hwaits_of_owed_zero _ _ _ _ L lv 0 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec0 c (V9 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V9 m c) (V10 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered at `W10`, left at `W11`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V10 m) c).loose
  hwaits := Pipeline.hwaits_of_owed_zero _ _ _ _ L lv 1 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec1 c (V10 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V10 m c) (V11 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered at `W11`, left at `W12`; at its exit the scratch buffer's named contents are forgotten. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m) c).loose
  hwaits := Pipeline.hwaits_of_owed_zero _ _ _ _ L lv 2 fun _ _ => rfl
  pre c := iprop(StableHlo.held (c : Thread nD τ) (Pipeline.ucRefs τ sig) (W11 m c) ∗ R c)
  post c := iprop(iprop(StableHlo.held (c : Thread nD τ) (Pipeline.ucRefs τ sig) (W12 m c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V11 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = PhiS2 (V11 m) c (Fin.last cfg2.N).val from rfl,
      show (Fin.last cfg2.N).val = 19 + 1 from (show cfg2.N = 20 from N_2), PhiS2, show Pipeline.scopedRest (Pipeline.pin (pcfgs (F := F)) adm 2).spec c = Pipeline.scopedRest spec2 c from rfl, scopedRest2_eq]
    unfold chain2
    rw [show (scM2 : Memref sig .tc .vmem S2048x512 .bf16) = Memref.whole cc2_scratch0 from rfl, owns_whole]
    iintro ⟨⟨H0, H1, H2, H3, H4, H5, H6, H7, H8, H9, HS⟩, Hp⟩
    isplitl [Hp]; · iexact Hp
    isplitr; · iempintro
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact HS
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V11 m c) (V12 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The entry function's twelve items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .region (reg0 m), .region (reg1 m), .region (reg2 m) ]

/-- The entry function is the run of its items. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the entry function terminates, nothing
    faulting, with every unscoped buffer of every core at `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W12 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.KernelIdeal.Conv

end
-- ==== Proof.KernelIdeal.Kept.lean ====
/-
  No item of the entry function writes an argument array: each ends holding what it was launched with.
-/
import proofs.«111077_g1812476199039_cont_8to1_364_13_alg».proof.Proof.KernelIdeal.Dats
import proofs.«111077_g1812476199039_cont_8to1_364_13_alg».proof.Proof.Gen.KernelIdeal.Regions

set_option maxRecDepth 16384

noncomputable section

namespace Cert.KernelIdeal.Conv

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- A buffer no host stretch writes holds, when the first region is entered, what it was launched with. -/
theorem W9_of (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W)
    (h7 : r ∉ hostOps0_7_W) (h8 : r ∉ hostOps0_8_W) :
    W9 m c (Proc.devRef .tc r) = m ((c.tc : Thread nD τ).loc r) :=
  calc W9 m c (Proc.devRef .tc r)
    _ = W8 m c (Proc.devRef .tc r) := StableHlo.after_of_writes_sub hostOps0_8 _ hostOps0_8_writes h8
    _ = W7 m c (Proc.devRef .tc r) := StableHlo.after_of_writes_sub hostOps0_7 _ hostOps0_7_writes h7
    _ = W6 m c (Proc.devRef .tc r) := StableHlo.after_of_writes_sub hostOps0_6 _ hostOps0_6_writes h6
    _ = W5 m c (Proc.devRef .tc r) := StableHlo.after_of_writes_sub hostOps0_5 _ hostOps0_5_writes h5
    _ = W4 m c (Proc.devRef .tc r) := StableHlo.after_of_writes_sub hostOps0_4 _ hostOps0_4_writes h4
    _ = W3 m c (Proc.devRef .tc r) := StableHlo.after_of_writes_sub hostOps0_3 _ hostOps0_3_writes h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c.tc : Thread nD τ).loc r) := rfl

/-- An argument that is no array of any region: no region's write-backs touch it. -/
theorem kept_of_ne (c : Dev nD) (r : Ref sig .tc) (hr2 : ∀ w, Pipeline.arrRef spec2 w ≠ r) (hr1 : ∀ w, Pipeline.arrRef spec1 w ≠ r)
    (hr0 : ∀ w, Pipeline.arrRef spec0 w ≠ r) (h : W9 m c (Proc.devRef .tc r) = m ((c.tc : Thread nD τ).loc r)) :
    V12 m c r = m ((c.tc : Thread nD τ).loc r) :=
  calc W12 m c (Proc.devRef .tc r)
    _ = W11 m c (Proc.devRef .tc r) := W12_of_ne m c r hr2
    _ = W10 m c (Proc.devRef .tc r) := W11_of_ne m c r hr1
    _ = W9 m c (Proc.devRef .tc r) := W10_of_ne m c r hr0
    _ = m ((c.tc : Thread nD τ).loc r) := h

/-- An argument the last region reads through input window `w`: the window's array ends as the region found it. -/
theorem kept_of_in2 (c : Dev nD) (w : Fin cfg2.W) (hw : (cfg2.win w).isOut = false) (hr1 : ∀ w', Pipeline.arrRef spec1 w' ≠ Pipeline.arrRef spec2 w)
    (hr0 : ∀ w', Pipeline.arrRef spec0 w' ≠ Pipeline.arrRef spec2 w)
    (h : W9 m c (Proc.devRef .tc (Pipeline.arrRef spec2 w)) = m ((c.tc : Thread nD τ).loc (Pipeline.arrRef spec2 w))) :
    V12 m c (Pipeline.arrRef spec2 w) = m ((c.tc : Thread nD τ).loc (Pipeline.arrRef spec2 w)) :=
  calc W12 m c (Proc.devRef .tc (Pipeline.arrRef spec2 w))
    _ = W11 m c (Proc.devRef .tc (Pipeline.arrRef spec2 w)) :=
          (W12_arr m c w).trans (((dat2 (V11 m) c).arrAt_in w hw _).trans (A_eq2 (V11 m) c w))
    _ = W10 m c (Proc.devRef .tc (Pipeline.arrRef spec2 w)) := W11_of_ne m c _ hr1
    _ = W9 m c (Proc.devRef .tc (Pipeline.arrRef spec2 w)) := W10_of_ne m c _ hr0
    _ = m ((c.tc : Thread nD τ).loc (Pipeline.arrRef spec2 w)) := h

theorem kept_arg0 (c : Dev nD) : V12 m c main_arg0 = m ((c.tc : Thread nD τ).loc main_arg0) :=
  kept_of_ne m c main_arg0 (by decide) (by decide) (by decide)
    (W9_of m c main_arg0 (by decide) (by decide) (by decide) (by decide) (by decide) (by decide) (by decide) (by decide) (by decide))

theorem kept_arg1 (c : Dev nD) : V12 m c main_arg1 = m ((c.tc : Thread nD τ).loc main_arg1) :=
  kept_of_ne m c main_arg1 (by decide) (by decide) (by decide)
    (W9_of m c main_arg1 (by decide) (by decide) (by decide) (by decide) (by decide) (by decide) (by decide) (by decide) (by decide))

theorem kept_arg2 (c : Dev nD) : V12 m c main_arg2 = m ((c.tc : Thread nD τ).loc main_arg2) :=
  kept_of_in2 m c 3 rfl (by decide) (by decide)
    (W9_of m c main_arg2 (by decide) (by decide) (by decide) (by decide) (by decide) (by decide) (by decide) (by decide) (by decide))

theorem kept_arg3 (c : Dev nD) : V12 m c main_arg3 = m ((c.tc : Thread nD τ).loc main_arg3) :=
  kept_of_ne m c main_arg3 (by decide) (by decide) (by decide)
    (W9_of m c main_arg3 (by decide) (by decide) (by decide) (by decide) (by decide) (by decide) (by decide) (by decide) (by decide))

theorem kept_arg4 (c : Dev nD) : V12 m c main_arg4 = m ((c.tc : Thread nD τ).loc main_arg4) :=
  kept_of_ne m c main_arg4 (by decide) (by decide) (by decide)
    (W9_of m c main_arg4 (by decide) (by decide) (by decide) (by decide) (by decide) (by decide) (by decide) (by decide) (by decide))

theorem kept_arg5 (c : Dev nD) : V12 m c main_arg5 = m ((c.tc : Thread nD τ).loc main_arg5) :=
  kept_of_in2 m c 0 rfl (by decide) (by decide)
    (W9_of m c main_arg5 (by decide) (by decide) (by decide) (by decide) (by decide) (by decide) (by decide) (by decide) (by decide))

theorem kept_arg6 (c : Dev nD) : V12 m c main_arg6 = m ((c.tc : Thread nD τ).loc main_arg6) :=
  kept_of_ne m c main_arg6 (by decide) (by decide) (by decide)
    (W9_of m c main_arg6 (by decide) (by decide) (by decide) (by decide) (by decide) (by decide) (by decide) (by decide) (by decide))

theorem kept_arg7 (c : Dev nD) : V12 m c main_arg7 = m ((c.tc : Thread nD τ).loc main_arg7) :=
  kept_of_ne m c main_arg7 (by decide) (by decide) (by decide)
    (W9_of m c main_arg7 (by decide) (by decide) (by decide) (by decide) (by decide) (by decide) (by decide) (by decide) (by decide))

end Cert.KernelIdeal.Conv

end
-- ==== Proof.Spec.lean ====
/-
  The mathematics of the two programs, over the extended reals, index by index.

  With incidence matrices `uh`, `ih` (groups × nodes), embedding tables `ue`, `ie` (nodes × features), the group
  table `ge`, the layer's weight `W` (features × 3·features), its bias `b` and the aggregation matrix `fh`:

    um = uh · ue,   im = ih · ie,   msg = [um | im | im ∘ ge] · Wᵀ + b,   norm = fh · msg.

  One program contracts over the 10000 nodes; the other over 10112 of them, the 112 extra rows and columns holding
  zeros on BOTH sides of the product (`padCols`, `padRows`, `sumPad`). One program forms the 1536-wide concatenation and contracts it
  against Wᵀ whole (`msgR`); the other adds three 512-wide contractions, one per block of W's columns (`msgK`).
  Nothing here mentions a program: the arrays are functions of indices written by coordinates.
-/
import Idealize.ShloMosaic.PureOps.Ideal
import Idealize.ShloMosaic.Lib.ValueIdx

noncomputable section

open scoped BigOperators

namespace Cert.Conv

open Idealize.ShloMosaic Idealize.ShloMosaic.ValueIdx

/-- An `a × b` matrix of extended reals, as a function of its index. -/
abbrev Mat (a b : Nat) : Type := (⟨2, ![a, b]⟩ : Shape).Idx → EReal
/-- A vector of `a` extended reals. -/
abbrev Row (a : Nat) : Type := (⟨1, ![a]⟩ : Shape).Idx → EReal

/-- Column `k` of block `s` of a 1536-wide row cut into three 512-wide blocks. -/
def col (s : Fin 3) (k : Fin 512) : Fin 1536 := ⟨512 * s.val + k.val, by have := s.isLt; have := k.isLt; omega⟩

/-- A groups × 10000 matrix with 112 columns of zeros appended. -/
def padCols (h : Mat 2048 10000) : Mat 2048 10112 :=
  fun i => if hk : (i 1).val < 10000 then h (ix2 (⟨(i 0).val, (i 0).isLt⟩ : Fin 2048) (⟨(i 1).val, hk⟩ : Fin 10000)) else 0

/-- A 10000 × features table with 112 rows of zeros appended. -/
def padRows (e : Mat 10000 512) : Mat 10112 512 :=
  fun i => if hk : (i 0).val < 10000 then e (ix2 (⟨(i 0).val, hk⟩ : Fin 10000) (⟨(i 1).val, (i 1).isLt⟩ : Fin 512)) else 0

/-- The product over the padded contraction axis, entry `(g, d)`. -/
def sumPad (hp : Mat 2048 10112) (ep : Mat 10112 512) (g : Fin 2048) (d : Fin 512) : EReal :=
  ∑ k : Fin 10112, hp (ix2 g k) * ep (ix2 k d)

/-- The product over the nodes, entry `(g, d)`: the message a group collects from its members. -/
def sumNodes (h : Mat 2048 10000) (e : Mat 10000 512) (g : Fin 2048) (d : Fin 512) : EReal :=
  ∑ k : Fin 10000, h (ix2 g k) * e (ix2 k d)

/-- The partial message as an array, contracted over the padded axis. -/
def partialK (h : Mat 2048 10000) (e : Mat 10000 512) : Mat 2048 512 :=
  fun i => sumPad (padCols h) (padRows e) (⟨(i 0).val, (i 0).isLt⟩ : Fin 2048) (⟨(i 1).val, (i 1).isLt⟩ : Fin 512)

/-- The partial message as an array, contracted over the nodes. -/
def partialR (h : Mat 2048 10000) (e : Mat 10000 512) : Mat 2048 512 :=
  fun i => sumNodes h e (⟨(i 0).val, (i 0).isLt⟩ : Fin 2048) (⟨(i 1).val, (i 1).isLt⟩ : Fin 512)

/-- The linear layer as three 512-wide contractions added up, then the bias: entry `(g, j)`. -/
def msgK (um im ge : Mat 2048 512) (W : Mat 512 1536) (b : Row 512) (g : Fin 2048) (j : Fin 512) : EReal :=
  (((∑ k : Fin 512, um (ix2 g k) * W (ix2 j (col 0 k)))
      + (∑ k : Fin 512, im (ix2 g k) * W (ix2 j (col 1 k))))
    + (∑ k : Fin 512, (im (ix2 g k) * ge (ix2 g k)) * W (ix2 j (col 2 k))))
  + b (ix1 j)

/-- The 1536-wide concatenation [um | im | im ∘ ge], entry `(g, e)`. -/
def cat (um im ge : Mat 2048 512) (g : Fin 2048) (e : Fin 1536) : EReal :=
  if h0 : e.val < 512 then um (ix2 g (⟨e.val, h0⟩ : Fin 512))
  else if h1 : e.val < 1024 then im (ix2 g (⟨e.val - 512, by omega⟩ : Fin 512))
  else im (ix2 g (⟨e.val - 1024, by have := e.isLt; omega⟩ : Fin 512)) * ge (ix2 g (⟨e.val - 1024, by have := e.isLt; omega⟩ : Fin 512))

/-- The linear layer as one 1536-wide contraction, then the bias: entry `(g, j)`. -/
def msgR (um im ge : Mat 2048 512) (W : Mat 512 1536) (b : Row 512) (g : Fin 2048) (j : Fin 512) : EReal :=
  (∑ e : Fin 1536, cat um im ge g e * W (ix2 j e)) + b (ix1 j)

/-- The aggregation, entry `(r, j)`. -/
def agg (fh : Mat 20000 2048) (msg : Mat 2048 512) (r : Fin 20000) (j : Fin 512) : EReal :=
  ∑ g : Fin 2048, fh (ix2 r g) * msg (ix2 g j)

/-- The message array in the three-contractions arrangement over padded partial messages. -/
def msgArrK (ue ie : Mat 10000 512) (ge : Mat 2048 512) (uh ih : Mat 2048 10000) (W : Mat 512 1536) (b : Row 512) : Mat 2048 512 :=
  fun i => msgK (partialK uh ue) (partialK ih ie) ge W b (⟨(i 0).val, (i 0).isLt⟩ : Fin 2048) (⟨(i 1).val, (i 1).isLt⟩ : Fin 512)

/-- The message array in the one-contraction arrangement over the nodes. -/
def msgArrR (ue ie : Mat 10000 512) (ge : Mat 2048 512) (uh ih : Mat 2048 10000) (W : Mat 512 1536) (b : Row 512) : Mat 2048 512 :=
  fun i => msgR (partialR uh ue) (partialR ih ie) ge W b (⟨(i 0).val, (i 0).isLt⟩ : Fin 2048) (⟨(i 1).val, (i 1).isLt⟩ : Fin 512)

/-- The aggregated array of a message array. -/
def aggArr (fh : Mat 20000 2048) (msg : Mat 2048 512) : Mat 20000 512 :=
  fun i => agg fh msg (⟨(i 0).val, (i 0).isLt⟩ : Fin 20000) (⟨(i 1).val, (i 1).isLt⟩ : Fin 512)

end Cert.Conv

end
-- ==== Proof.KernelIdeal.Payload.lean ====
/-
  The arithmetic of the three kernel bodies read at one entry, over the extended reals: a matrix product into a zero
  accumulator is the sum over the contracted coordinate of the products of entries; a change of float format is the
  identity; a slice of the transposed weight's rows is a block of its columns; the bias row is spread over the rows.
  And the host operations in front of the kernels read at an entry: appending zeros, transposing, a row vector as a
  one-row matrix.
-/
import proofs.«111077_g1812476199039_cont_8to1_364_13_alg».proof.Proof.Gen.KernelIdeal.Skeleton
import proofs.«111077_g1812476199039_cont_8to1_364_13_alg».proof.Proof.Gen.KernelIdeal.Launch
import proofs.«111077_g1812476199039_cont_8to1_364_13_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Conv

open Idealize.ShloMosaic Idealize.ShloMosaic.ValueIdx
open Cert.KernelIdeal Cert.KernelIdeal.Gen Cert.Conv

/-! ### A 512 × 10112 panel times the 10112 × 512 table -/

/-- The left operand's row is the result's row. -/
theorem dotP_lhs0 (i : S512x512.Idx) (q : dot_S512x10112_S10112x512_S512x512_1_0_0_1_n_n.contr.Idx) :
    (dot_S512x10112_S10112x512_S512x512_1_0_0_1_n_n.lhsIdx i q 0).val = (i 0).val := by
  unfold DotDims.lhsIdx
  rw [dif_neg (show ¬(0 : Fin S512x10112.rank) ∈ dot_S512x10112_S10112x512_S512x512_1_0_0_1_n_n.lhsBatch by decide), dif_pos (show (0 : Fin S512x10112.rank) ∈ dot_S512x10112_S10112x512_S512x512_1_0_0_1_n_n.lhsNonContracting by decide)]
  rfl
/-- The left operand's column is the contracted coordinate. -/
theorem dotP_lhs1 (i : S512x512.Idx) (q : dot_S512x10112_S10112x512_S512x512_1_0_0_1_n_n.contr.Idx) :
    (dot_S512x10112_S10112x512_S512x512_1_0_0_1_n_n.lhsIdx i q 1).val = (q ⟨0, by decide⟩).val :=
  dot_S512x10112_S10112x512_S512x512_1_0_0_1_n_n.lhsIdx_val_of_single rfl i q
/-- The right operand's row is the contracted coordinate. -/
theorem dotP_rhs0 (i : S512x512.Idx) (q : dot_S512x10112_S10112x512_S512x512_1_0_0_1_n_n.contr.Idx) :
    (dot_S512x10112_S10112x512_S512x512_1_0_0_1_n_n.rhsIdx i q 0).val = (q ⟨0, by decide⟩).val :=
  dot_S512x10112_S10112x512_S512x512_1_0_0_1_n_n.rhsIdx_val_of_single rfl i q
/-- The right operand's column is the result's column. -/
theorem dotP_rhs1 (i : S512x512.Idx) (q : dot_S512x10112_S10112x512_S512x512_1_0_0_1_n_n.contr.Idx) :
    (dot_S512x10112_S10112x512_S512x512_1_0_0_1_n_n.rhsIdx i q 1).val = (i 1).val := by
  unfold DotDims.rhsIdx
  rw [dif_neg (show ¬(1 : Fin S10112x512.rank) ∈ dot_S512x10112_S10112x512_S512x512_1_0_0_1_n_n.rhsBatch by decide), dif_pos (show (1 : Fin S10112x512.rank) ∈ dot_S512x10112_S10112x512_S512x512_1_0_0_1_n_n.rhsNonContracting by decide)]
  rfl

/-- The product into the zero accumulator, entry `(p, q)`: the sum over the contracted coordinate. -/
theorem dotP_apply {φ₁ φ₂ : FTy} (x0 : FVec Ideal S512x10112 φ₁) (x1 : FVec Ideal S10112x512 φ₂) (p : Fin 512) (q : Fin 512) :
    matmul dot_S512x10112_S10112x512_S512x512_1_0_0_1_n_n none x0 x1 (constant (F := Ideal) S512x512 .f32 0x00000000#32) (ix2 p q)
      = ∑ k : Fin 10112, x0 (ix2 p k) * x1 (ix2 k q) := by
  refine (Ideal.matmul_constant_zero_apply dot_S512x10112_S10112x512_S512x512_1_0_0_1_n_n none x0 x1 (ix2 p q)).trans ?_
  rw [← Equiv.sum_comp (contrEquiv1 dot_S512x10112_S10112x512_S512x512_1_0_0_1_n_n 10112 rfl rfl).symm]
  refine Finset.sum_congr rfl fun k _ => ?_
  have hk := contrEquiv1_symm_val dot_S512x10112_S10112x512_S512x512_1_0_0_1_n_n 10112 rfl rfl k
  have el : dot_S512x10112_S10112x512_S512x512_1_0_0_1_n_n.lhsIdx (ix2 p q) ((contrEquiv1 dot_S512x10112_S10112x512_S512x512_1_0_0_1_n_n 10112 rfl rfl).symm k) = ix2 p k := funext fun a => Fin.ext (by
    match a with
    | ⟨0, _⟩ => exact dotP_lhs0 _ _
    | ⟨1, _⟩ => exact (dotP_lhs1 _ _).trans hk)
  have er : dot_S512x10112_S10112x512_S512x512_1_0_0_1_n_n.rhsIdx (ix2 p q) ((contrEquiv1 dot_S512x10112_S10112x512_S512x512_1_0_0_1_n_n 10112 rfl rfl).symm k) = ix2 k q := funext fun a => Fin.ext (by
    match a with
    | ⟨0, _⟩ => exact (dotP_rhs0 _ _).trans hk
    | ⟨1, _⟩ => exact dotP_rhs1 _ _)
  rw [el, er]

/-- The panel times the table, entry `(p, q)`. -/
theorem pay0_apply (x0 : Vec Ideal S512x10112 .bf16) (x1 : Vec Ideal S10112x512 .bf16) (p q : Fin 512) :
    k0_pay1 (F := Ideal) x0 x1 (ix2 p q) = ∑ k : Fin 10112, x0 (ix2 p k) * x1 (ix2 k q) := by
  unfold k0_pay1
  rw [shapeCast_self, shapeCast_self]
  exact dotP_apply (φ₁ := .bf16) (φ₂ := .bf16) x0 x1 p q

/-- The same for the second incidence matrix. -/
theorem pay1_apply (x0 : Vec Ideal S512x10112 .bf16) (x1 : Vec Ideal S10112x512 .bf16) (p q : Fin 512) :
    k1_pay1 (F := Ideal) x0 x1 (ix2 p q) = ∑ k : Fin 10112, x0 (ix2 p k) * x1 (ix2 k q) := by
  unfold k1_pay1
  rw [shapeCast_self, shapeCast_self]
  exact dotP_apply (φ₁ := .bf16) (φ₂ := .bf16) x0 x1 p q

/-! ### A 2048 × 512 partial message times a 512 × 512 block of the transposed weight -/

/-- The left operand's row is the result's row. -/
theorem dotM_lhs0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
/-- The left operand's column is the contracted coordinate. -/
theorem dotM_lhs1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
/-- The right operand's row is the contracted coordinate. -/
theorem dotM_rhs0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
/-- The right operand's column is the result's column. -/
theorem dotM_rhs1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The product into the zero accumulator, entry `(p, q)`: the sum over the contracted coordinate. -/
theorem dotM_apply {φ₁ φ₂ : FTy} (x0 : FVec Ideal S2048x512 φ₁) (x1 : FVec Ideal S512x512 φ₂) (p : Fin 2048) (q : Fin 512) :
    matmul dot_S2048x512_S512x512_S2048x512_1_0_0_1_n_n none x0 x1 (constant (F := Ideal) S2048x512 .f32 0x00000000#32) (ix2 p q)
      = ∑ k : Fin 512, x0 (ix2 p k) * x1 (ix2 k q) := by
  refine (Ideal.matmul_constant_zero_apply dot_S2048x512_S512x512_S2048x512_1_0_0_1_n_n none x0 x1 (ix2 p q)).trans ?_
  rw [← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p q) ((contrEquiv1 dot_S2048x512_S512x512_S2048x512_1_0_0_1_n_n 512 rfl rfl).symm k) = ix2 p k := funext fun a => Fin.ext (by
    match a with
    | ⟨0, _⟩ => exact dotM_lhs0 _ _
    | ⟨1, _⟩ => exact (dotM_lhs1 _ _).trans hk)
  have er : dot_S2048x512_S512x512_S2048x512_1_0_0_1_n_n.rhsIdx (ix2 p q) ((contrEquiv1 dot_S2048x512_S512x512_S2048x512_1_0_0_1_n_n 512 rfl rfl).symm k) = ix2 k q := funext fun a => Fin.ext (by
    match a with
    | ⟨0, _⟩ => exact (dotM_rhs0 _ _).trans hk
    | ⟨1, _⟩ => exact dotM_rhs1 _ _)
  rw [el, er]

/-- Rows `o … o + 511` of the transposed weight, `o = 512 s`, read in the narrower format, at `(k, j)`: the weight's
    row `col s k`. -/
theorem wblock_apply (o : Nat) (s : Fin 3) (ho : o = 512 * s.val) (w : FVec Ideal S1536x512 .f32)
    (h : S1536x512.Slices ![o, 0] S512x512) (k j : Fin 512) :
    extractStridedSlice S512x512 ![o, 0] (truncf .bf16 w bitsLt_bf16_f32 : FVec Ideal S1536x512 .bf16) h (ix2 k j)
      = w (ix2 (col s k) j) :=
  slice2_axis0_apply o (truncf .bf16 w bitsLt_bf16_f32 : FVec Ideal S1536x512 .bf16) h k j (col s k) (by subst ho; rfl)

/-- The message, entry `(g, j)`: three 512-wide contractions against the three row blocks of the transposed weight
    `v13`, added left to right, plus the bias. (`v16` is the first partial message, `v8` = `v20` the second, `v11` the
    group table.) -/
theorem pay2_msg_apply (v8 : Vec Ideal S2048x512 .bf16) (v11 : Vec Ideal S2048x512 .f32) (v13 : Vec Ideal S1536x512 .f32)
    (v16 v20 : Vec Ideal S2048x512 .bf16) (v29 : Vec Ideal S1x512 .f32) (g : Fin 2048) (j : Fin 512) :
    k2_pay1 (F := Ideal) v8 v11 v13 v16 v20 v29 (ix2 g j)
      = (((∑ k : Fin 512, v16 (ix2 g k) * v13 (ix2 (col 0 k) j))
          + (∑ k : Fin 512, v20 (ix2 g k) * v13 (ix2 (col 1 k) j)))
        + (∑ k : Fin 512, (v8 (ix2 g k) * v11 (ix2 g k)) * v13 (ix2 (col 2 k) j)))
      + v29 (ix2 (0 : Fin 1) j) := by
  unfold k2_pay1
  simp only [shapeCast_self]
  rw [addf_apply, addf_apply, addf_apply]
  refine congrArg₂ (· + ·) (congrArg₂ (· + ·) (congrArg₂ (· + ·) ?_ ?_) ?_) ?_
  · refine (dotM_apply (φ₁ := .bf16) (φ₂ := .bf16) v16 _ g j).trans ?_
    exact Finset.sum_congr rfl fun k _ => congrArg (v16 (ix2 g k) * ·) (wblock_apply 0 0 rfl v13 _ k j)
  · refine (dotM_apply (φ₁ := .bf16) (φ₂ := .bf16) v20 _ g j).trans ?_
    exact Finset.sum_congr rfl fun k _ => congrArg (v20 (ix2 g k) * ·) (wblock_apply 512 1 rfl v13 _ k j)
  · refine (dotM_apply (φ₁ := .bf16) (φ₂ := .bf16) _ _ g j).trans ?_
    exact Finset.sum_congr rfl fun k _ => congrArg ((v8 (ix2 g k) * v11 (ix2 g k)) * ·) (wblock_apply 1024 2 rfl v13 _ k j)
  · exact broadcastTo_1b_ab_apply v29 broadcasts_S1x512_S2048x512 g j

/-- The scratch copy is the message: rounding to the narrower format is the identity here. -/
theorem pay2_copy_apply (v8 : Vec Ideal S2048x512 .bf16) (v11 : Vec Ideal S2048x512 .f32) (v13 : Vec Ideal S1536x512 .f32)
    (v16 v20 : Vec Ideal S2048x512 .bf16) (v29 : Vec Ideal S1x512 .f32) (i : S2048x512.Idx) :
    k2_pay2 (F := Ideal) v8 v11 v13 v16 v20 v29 i = k2_pay1 (F := Ideal) v8 v11 v13 v16 v20 v29 i := by
  unfold k2_pay2
  generalize k2_pay1 (F := Ideal) v8 v11 v13 v16 v20 v29 = y
  rw [shapeCast_self]
  exact truncf_apply y bitsLt_bf16_f32 i

/-! ### A 1000 × 2048 slab of the aggregation matrix times the 2048 × 512 message -/

/-- The left operand's row is the result's row. -/
theorem dotA_lhs0 (i : S1000x512.Idx) (q : dot_S1000x2048_S2048x512_S1000x512_1_0_0_1_n_n.contr.Idx) :
    (dot_S1000x2048_S2048x512_S1000x512_1_0_0_1_n_n.lhsIdx i q 0).val = (i 0).val := by
  unfold DotDims.lhsIdx
  rw [dif_neg (show ¬(0 : Fin S1000x2048.rank) ∈ dot_S1000x2048_S2048x512_S1000x512_1_0_0_1_n_n.lhsBatch by decide), dif_pos (show (0 : Fin S1000x2048.rank) ∈ dot_S1000x2048_S2048x512_S1000x512_1_0_0_1_n_n.lhsNonContracting by decide)]
  rfl
/-- The left operand's column is the contracted coordinate. -/
theorem dotA_lhs1 (i : S1000x512.Idx) (q : dot_S1000x2048_S2048x512_S1000x512_1_0_0_1_n_n.contr.Idx) :
    (dot_S1000x2048_S2048x512_S1000x512_1_0_0_1_n_n.lhsIdx i q 1).val = (q ⟨0, by decide⟩).val :=
  dot_S1000x2048_S2048x512_S1000x512_1_0_0_1_n_n.lhsIdx_val_of_single rfl i q
/-- The right operand's row is the contracted coordinate. -/
theorem dotA_rhs0 (i : S1000x512.Idx) (q : dot_S1000x2048_S2048x512_S1000x512_1_0_0_1_n_n.contr.Idx) :
    (dot_S1000x2048_S2048x512_S1000x512_1_0_0_1_n_n.rhsIdx i q 0).val = (q ⟨0, by decide⟩).val :=
  dot_S1000x2048_S2048x512_S1000x512_1_0_0_1_n_n.rhsIdx_val_of_single rfl i q
/-- The right operand's column is the result's column. -/
theorem dotA_rhs1 (i : S1000x512.Idx) (q : dot_S1000x2048_S2048x512_S1000x512_1_0_0_1_n_n.contr.Idx) :
    (dot_S1000x2048_S2048x512_S1000x512_1_0_0_1_n_n.rhsIdx i q 1).val = (i 1).val := by
  unfold DotDims.rhsIdx
  rw [dif_neg (show ¬(1 : Fin S2048x512.rank) ∈ dot_S1000x2048_S2048x512_S1000x512_1_0_0_1_n_n.rhsBatch by decide), dif_pos (show (1 : Fin S2048x512.rank) ∈ dot_S1000x2048_S2048x512_S1000x512_1_0_0_1_n_n.rhsNonContracting by decide)]
  rfl

/-- The product into the zero accumulator, entry `(p, q)`: the sum over the contracted coordinate. -/
theorem dotA_apply {φ₁ φ₂ : FTy} (x0 : FVec Ideal S1000x2048 φ₁) (x1 : FVec Ideal S2048x512 φ₂) (p : Fin 1000) (q : Fin 512) :
    matmul dot_S1000x2048_S2048x512_S1000x512_1_0_0_1_n_n none x0 x1 (constant (F := Ideal) S1000x512 .f32 0x00000000#32) (ix2 p q)
      = ∑ k : Fin 2048, x0 (ix2 p k) * x1 (ix2 k q) := by
  refine (Ideal.matmul_constant_zero_apply dot_S1000x2048_S2048x512_S1000x512_1_0_0_1_n_n none x0 x1 (ix2 p q)).trans ?_
  rw [← Equiv.sum_comp (contrEquiv1 dot_S1000x2048_S2048x512_S1000x512_1_0_0_1_n_n 2048 rfl rfl).symm]
  refine Finset.sum_congr rfl fun k _ => ?_
  have hk := contrEquiv1_symm_val dot_S1000x2048_S2048x512_S1000x512_1_0_0_1_n_n 2048 rfl rfl k
  have el : dot_S1000x2048_S2048x512_S1000x512_1_0_0_1_n_n.lhsIdx (ix2 p q) ((contrEquiv1 dot_S1000x2048_S2048x512_S1000x512_1_0_0_1_n_n 2048 rfl rfl).symm k) = ix2 p k := funext fun a => Fin.ext (by
    match a with
    | ⟨0, _⟩ => exact dotA_lhs0 _ _
    | ⟨1, _⟩ => exact (dotA_lhs1 _ _).trans hk)
  have er : dot_S1000x2048_S2048x512_S1000x512_1_0_0_1_n_n.rhsIdx (ix2 p q) ((contrEquiv1 dot_S1000x2048_S2048x512_S1000x512_1_0_0_1_n_n 2048 rfl rfl).symm k) = ix2 k q := funext fun a => Fin.ext (by
    match a with
    | ⟨0, _⟩ => exact (dotA_rhs0 _ _).trans hk
    | ⟨1, _⟩ => exact dotA_rhs1 _ _)
  rw [el, er]

/-- The slab of the aggregation matrix times the copy of the message, entry `(r, j)`. -/
theorem pay2_agg_apply (v3 : Vec Ideal S1000x2048 .f32) (v5 : Vec Ideal S2048x512 .bf16) (r : Fin 1000) (j : Fin 512) :
    k2_pay3 (F := Ideal) v3 v5 (ix2 r j) = ∑ g : Fin 2048, v3 (ix2 r g) * v5 (ix2 g j) := by
  unfold k2_pay3
  exact dotA_apply (φ₁ := .bf16) (φ₂ := .bf16) (truncf .bf16 v3 bitsLt_bf16_f32 : FVec Ideal S1000x2048 .bf16) v5 r j

/-! ### The host operations in front of the kernels -/

/-- The padding value: the integer zero read as a float is zero. -/
theorem padValue_apply (i : S_.Idx) : sitofp (F := Ideal) .f32 (constantI S_ 32 0#32) i = 0 := by
  show (((0#32 : BitVec 32).toInt : ℝ) : EReal) = 0
  simp

/-- An incidence matrix with 112 columns of zeros appended, then read in the narrower format. -/
theorem hostPadCols (x : FVec Ideal S2048x10000 .f32) :
    (truncf .bf16 (pad S2048x10112 ![0, 0] ![0, 112] ![0, 0] x (sitofp (F := Ideal) .f32 (constantI S_ 32 0#32)) pads_S2048x10000_S2048x10112_000_01120 h_S_) bitsLt_bf16_f32 : FVec Ideal S2048x10112 .bf16)
      = padCols x := by
  funext i
  refine (truncf_apply _ bitsLt_bf16_f32 i).trans ?_
  unfold pad padCols
  by_cases hk : (i 1).val < 10000
  · have hin : ∀ a : Fin S2048x10000.rank, (![0, 0] : Fin 2 → Nat) a ≤ (i (a.cast pads_S2048x10000_S2048x10112_000_01120.1)).val
        ∧ ((i (a.cast pads_S2048x10000_S2048x10112_000_01120.1)).val - (![0, 0] : Fin 2 → Nat) a) % ((![0, 0] : Fin 2 → Nat) a + 1) = 0
        ∧ ((i (a.cast pads_S2048x10000_S2048x10112_000_01120.1)).val - (![0, 0] : Fin 2 → Nat) a) / ((![0, 0] : Fin 2 → Nat) a + 1) < S2048x10000.size a := fun a => by
      match a with
      | ⟨0, _⟩ =>
        have h0 : (i 0).val < 2048 := idx2_lt0 i
        show 0 ≤ (i 0).val ∧ ((i 0).val - 0) % (0 + 1) = 0 ∧ ((i 0).val - 0) / (0 + 1) < 2048
        omega
      | ⟨1, _⟩ =>
        show 0 ≤ (i 1).val ∧ ((i 1).val - 0) % (0 + 1) = 0 ∧ ((i 1).val - 0) / (0 + 1) < 10000
        omega
    rw [dif_pos hin, dif_pos hk]
    refine congrArg x (funext fun a => Fin.ext ?_)
    match a with
    | ⟨0, _⟩ => show ((i 0).val - 0) / (0 + 1) = (i 0).val; omega
    | ⟨1, _⟩ => show ((i 1).val - 0) / (0 + 1) = (i 1).val; omega
  · rw [dif_neg (fun hin => hk (by
      have h1 := (hin 1).2.2
      have e : ((i 1).val - 0) / (0 + 1) < 10000 := h1
      omega)), dif_neg hk]
    exact padValue_apply _

/-- A table with 112 rows of zeros appended, then read in the narrower format. -/
theorem hostPadRows (x : FVec Ideal S10000x512 .f32) :
    (truncf .bf16 (pad S10112x512 ![0, 0] ![112, 0] ![0, 0] x (sitofp (F := Ideal) .f32 (constantI S_ 32 0#32)) pads_S10000x512_S10112x512_01120_000 h_S_) bitsLt_bf16_f32 : FVec Ideal S10112x512 .bf16)
      = padRows x := by
  funext i
  refine (truncf_apply _ bitsLt_bf16_f32 i).trans ?_
  unfold pad padRows
  by_cases hk : (i 0).val < 10000
  · have hin : ∀ a : Fin S10000x512.rank, (![0, 0] : Fin 2 → Nat) a ≤ (i (a.cast pads_S10000x512_S10112x512_01120_000.1)).val
        ∧ ((i (a.cast pads_S10000x512_S10112x512_01120_000.1)).val - (![0, 0] : Fin 2 → Nat) a) % ((![0, 0] : Fin 2 → Nat) a + 1) = 0
        ∧ ((i (a.cast pads_S10000x512_S10112x512_01120_000.1)).val - (![0, 0] : Fin 2 → Nat) a) / ((![0, 0] : Fin 2 → Nat) a + 1) < S10000x512.size a := fun a => by
      match a with
      | ⟨0, _⟩ =>
        show 0 ≤ (i 0).val ∧ ((i 0).val - 0) % (0 + 1) = 0 ∧ ((i 0).val - 0) / (0 + 1) < 10000
        omega
      | ⟨1, _⟩ =>
        have h1 : (i 1).val < 512 := idx2_lt1 i
        show 0 ≤ (i 1).val ∧ ((i 1).val - 0) % (0 + 1) = 0 ∧ ((i 1).val - 0) / (0 + 1) < 512
        omega
    rw [dif_pos hin, dif_pos hk]
    refine congrArg x (funext fun a => Fin.ext ?_)
    match a with
    | ⟨0, _⟩ => show ((i 0).val - 0) / (0 + 1) = (i 0).val; omega
    | ⟨1, _⟩ => show ((i 1).val - 0) / (0 + 1) = (i 1).val; omega
  · rw [dif_neg (fun hin => hk (by
      have h0 := (hin 0).2.2
      have e : ((i 0).val - 0) / (0 + 1) < 10000 := h0
      omega)), dif_neg hk]
    exact padValue_apply _

/-- The transposed weight, entry `(e, j)`. -/
theorem hostTranspose_apply (x : FVec Ideal S512x1536 .f32) (e : Fin 1536) (j : Fin 512) :
    (transpose S1536x512 [1, 0] x transposes_S512x1536_S1536x512_1_0 : FVec Ideal S1536x512 .f32) (ix2 e j) = x (ix2 j e) :=
  transpose_ix2_apply x transposes_S512x1536_S1536x512_1_0 e j

/-- The bias as a one-row matrix, entry `(0, j)`. -/
theorem hostBias_apply (x : FVec Ideal S512 .f32) (u : Fin 1) (j : Fin 512) :
    (shapeCast S1x512 x shapeCasts_S512_S1x512 : FVec Ideal S1x512 .f32) (ix2 u j) = x (ix1 j) :=
  shapeCast_a_1a_apply x shapeCasts_S512_S1x512 u j

end Cert.KernelIdeal.Conv

end
-- ==== Proof.KernelIdeal.FinalR2.lean ====
/-
  Region 2 of the kernel program, read as arrays: the message array it leaves is the message computed at its first point; the aggregated array is, slab by slab, the aggregation matrix's slab times the scratch copy.
-/
import proofs.«111077_g1812476199039_cont_8to1_364_13_alg».proof.Proof.KernelIdeal.Dats
import proofs.«111077_g1812476199039_cont_8to1_364_13_alg».proof.Proof.KernelIdeal.Payload
import proofs.«111077_g1812476199039_cont_8to1_364_13_alg».proof.Proof.Spec
import Idealize.ShloMosaic.Lib.Pipeline.Value

set_option maxRecDepth 16384

noncomputable section

open scoped BigOperators

namespace Cert.KernelIdeal.Conv

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Conv

variable {F : FTy → Type} [FloatOps F]

/-- The zero offsets of a whole-buffer rectangle. -/
theorem hz : (![0, 0] : Fin 2 → Nat) = fun _ => 0 := funext fun a => by fin_cases a <;> rfl

/-- The block indices of region 2's windows over its grid: the slab windows move with the point along the rows, every
    other window stays at the whole array. -/
theorem idx2_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0 :=
  (by decide +kernel : ∀ t : Fin grid2.N, _)

/-- The last point of region 2's grid. -/
def t2l : Fin cfg2.N := ⟨19, Nat.lt_of_lt_of_eq (by decide : 19 < 20) N_2.symm⟩

/-! ## The blocks of the windows that never move are their arrays -/

theorem read_blk2_1 (A : Vec F S2048x512 .bf16) (t : Fin cfg2.N) : ((cfg2.win 1).blk t).view.read (Elt F) A = A := by
  obtain ⟨-, -, e0, e1, -⟩ := idx2_facts t
  funext j
  show A (((cfg2.win 1).blk t).view.emb j) = A j
  refine congrArg A ?_
  funext a; apply Fin.ext
  match a with
  | ⟨0, _⟩ => show win2_1.index t (0 : Fin 2) * 2048 + 1 * (j 0).val = (j 0).val; omega
  | ⟨1, _⟩ => show win2_1.index t (1 : Fin 2) * 512 + 1 * (j 1).val = (j 1).val; omega

theorem read_blk2_2 (A : Vec F S2048x512 .bf16) (t : Fin cfg2.N) : ((cfg2.win 2).blk t).view.read (Elt F) A = A := by
  obtain ⟨-, -, -, -, e0, e1, -⟩ := idx2_facts t
  funext j
  show A (((cfg2.win 2).blk t).view.emb j) = A j
  refine congrArg A ?_
  funext a; apply Fin.ext
  match a with
  | ⟨0, _⟩ => show win2_2.index t (0 : Fin 2) * 2048 + 1 * (j 0).val = (j 0).val; omega
  | ⟨1, _⟩ => show win2_2.index t (1 : Fin 2) * 512 + 1 * (j 1).val = (j 1).val; omega

theorem read_blk2_3 (A : Vec F S2048x512 .f32) (t : Fin cfg2.N) : ((cfg2.win 3).blk t).view.read (Elt F) A = A := by
  obtain ⟨-, -, -, -, -, -, e0, e1, -⟩ := idx2_facts t
  funext j
  show A (((cfg2.win 3).blk t).view.emb j) = A j
  refine congrArg A ?_
  funext a; apply Fin.ext
  match a with
  | ⟨0, _⟩ => show win2_3.index t (0 : Fin 2) * 2048 + 1 * (j 0).val = (j 0).val; omega
  | ⟨1, _⟩ => show win2_3.index t (1 : Fin 2) * 512 + 1 * (j 1).val = (j 1).val; omega

theorem read_blk2_4 (A : Vec F S1536x512 .f32) (t : Fin cfg2.N) : ((cfg2.win 4).blk t).view.read (Elt F) A = A := by
  obtain ⟨-, -, -, -, -, -, -, -, e0, e1, -⟩ := idx2_facts t
  funext j
  show A (((cfg2.win 4).blk t).view.emb j) = A j
  refine congrArg A ?_
  funext a; apply Fin.ext
  match a with
  | ⟨0, _⟩ => show win2_4.index t (0 : Fin 2) * 1536 + 1 * (j 0).val = (j 0).val; omega
  | ⟨1, _⟩ => show win2_4.index t (1 : Fin 2) * 512 + 1 * (j 1).val = (j 1).val; omega

theorem read_blk2_5 (A : Vec F S1x512 .f32) (t : Fin cfg2.N) : ((cfg2.win 5).blk t).view.read (Elt F) A = A := by
  obtain ⟨-, -, -, -, -, -, -, -, -, -, e0, e1, -⟩ := idx2_facts t
  funext j
  show A (((cfg2.win 5).blk t).view.emb j) = A j
  refine congrArg A ?_
  funext a; apply Fin.ext
  match a with
  | ⟨0, _⟩ => show win2_5.index t (0 : Fin 2) * 1 + 1 * (j 0).val = (j 0).val; omega
  | ⟨1, _⟩ => show win2_5.index t (1 : Fin 2) * 512 + 1 * (j 1).val = (j 1).val; omega

/-! ## The message window -/

/-- A whole-array block of the message window, cut for the write-back, is the array read through the block. -/
theorem read_blk2_7 (M : Vec F S2048x512 .f32) (t : Fin cfg2.N) :
    (cfg2.win 7).cut (grid2.coords t) M = ((cfg2.win 7).blk t).view.read (Elt F) M := by
  obtain ⟨-, -, -, -, -, -, -, -, -, -, -, -, -, -, e0, e1⟩ := idx2_facts t
  funext j
  show M _ = M (((cfg2.win 7).blk t).view.emb j)
  refine congrArg M ?_
  funext a; apply Fin.ext
  match a with
  | ⟨0, _⟩ => show (j 0).val = win2_7.index t (0 : Fin 2) * 2048 + 1 * (j 0).val; omega
  | ⟨1, _⟩ => show (j 1).val = win2_7.index t (1 : Fin 2) * 512 + 1 * (j 1).val; omega

section
variable (V : (c : Dev nD) → (b : Ref sig .tc) → Buf (Elt F) ((c : Thread nD τ).loc b))

/-- What a point writes back of the message window is the message read through the point's block. -/
theorem flushed2_7 (c : Dev nD) (t : Fin cfg2.N) :
    (dat2 V c).flushed 7 t = ((cfg2.win 7).blk t).view.read (Elt F) (msg2 V c) := by
  show (cfg2.win 7).cut (grid2.coords t) ((dat2 V c).after 7 t) = _
  rw [after2_7]
  exact read_blk2_7 (msg2 V c) t

/-- An index of the message array is in point `t`'s block iff each coordinate is in the block's range on its axis. -/
theorem mem_blk2_7 (t : Fin cfg2.N) (i : S2048x512.Idx) :
    i ∈ ((cfg2.win 7).blk t).view.set ↔ ∀ a : Fin 2, win2_7.index t a * S2048x512.size a ≤ (i a).val ∧ (i a).val < win2_7.index t a * S2048x512.size a + S2048x512.size a := by
  show i ∈ ((View.whole main_v12_1).slice (win2_7.rect t)).set ↔ _
  rw [View.set_slice_whole, Rect.mem_set_unit]
  exact Iff.rfl

/-- The message array after region 2: the message, written back whole at the last point. -/
theorem arr2_7 (c : Dev nD) : (dat2 V c).arrAt 7 cfg2.N = msg2 V c := by
  refine (dat2 V c).arrAt_eq_of_cover 7 (msg2 V c) (fun t _ => flushed2_7 V c t) fun i => ⟨t2l, (flush2_7 t2l).mpr rfl, ?_⟩
  obtain ⟨-, -, -, -, -, -, -, -, -, -, -, -, -, -, e0, e1⟩ := idx2_facts t2l
  rw [mem_blk2_7]
  intro a
  match a with
  | ⟨0, _⟩ => show win2_7.index t2l (0 : Fin 2) * 2048 ≤ (i 0).val ∧ (i 0).val < win2_7.index t2l (0 : Fin 2) * 2048 + 2048; have h : (i 0).val < 2048 := (i 0).isLt; omega
  | ⟨1, _⟩ => show win2_7.index t2l (1 : Fin 2) * 512 ≤ (i 1).val ∧ (i 1).val < win2_7.index t2l (1 : Fin 2) * 512 + 512; have h : (i 1).val < 512 := (i 1).isLt; omega

/-- The message is the message of the arrays of the five windows that never move. -/
theorem msg2_eq (c : Dev nD) :
    msg2 V c = msgOf (V c main_v10) (V c main_v11) (V c main_arg2) (V c main_v8) (V c main_v9) := by
  unfold msg2 iblk2
  rw [read_blk2_1, read_blk2_2, read_blk2_3, read_blk2_4, read_blk2_5]

/-- The scratch copy likewise. -/
theorem copy2_eq (c : Dev nD) :
    copy2 V c = copyOf (V c main_v10) (V c main_v11) (V c main_arg2) (V c main_v8) (V c main_v9) := by
  unfold copy2 iblk2
  rw [read_blk2_1, read_blk2_2, read_blk2_3, read_blk2_4, read_blk2_5]
end

end Cert.KernelIdeal.Conv

end
-- ==== Proof.KernelIdeal.FinalAgg.lean ====
/-
  Region 2's payloads read at an entry over the extended reals, and the aggregated array it leaves: row r is written by the point r / 1000, as the aggregation matrix's row times the scratch copy of the message.
-/
import proofs.«111077_g1812476199039_cont_8to1_364_13_alg».proof.Proof.KernelIdeal.FinalR2

set_option maxRecDepth 16384

noncomputable section

open scoped BigOperators

namespace Cert.KernelIdeal.Conv

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Conv

/-! ## The payloads of region 2 at an entry -/

/-- The message block at entry `(g, j)`: the three contractions against the three row blocks of the transposed weight
    `x4`, added left to right, plus the bias row `x5`. -/
theorem msgOf_apply (x1 x2 : Vec Ideal S2048x512 .bf16) (x3 : Vec Ideal S2048x512 .f32) (x4 : Vec Ideal S1536x512 .f32)
    (x5 : Vec Ideal S1x512 .f32) (g : Fin 2048) (j : Fin 512) :
    msgOf x1 x2 x3 x4 x5 (ix2 g j)
      = (((∑ k : Fin 512, x1 (ix2 g k) * x4 (ix2 (col 0 k) j))
          + (∑ k : Fin 512, x2 (ix2 g k) * x4 (ix2 (col 1 k) j)))
        + (∑ k : Fin 512, (x2 (ix2 g k) * x3 (ix2 g k)) * x4 (ix2 (col 2 k) j)))
      + x5 (ix2 (0 : Fin 1) j) := by
  unfold msgOf
  rw [View.canon_unit_zero hz]
  simp only [View.ld_unit_zero (S := S2048x512) hz, View.ld_unit_zero (S := S1536x512) hz, View.ld_unit_zero (S := S1x512) hz]
  exact pay2_msg_apply x2 x3 x4 x1 x2 x5 g j

/-- The scratch copy is the message block: the narrower format holds the same extended reals. -/
theorem copyOf_eq (x1 x2 : Vec Ideal S2048x512 .bf16) (x3 : Vec Ideal S2048x512 .f32) (x4 : Vec Ideal S1536x512 .f32)
    (x5 : Vec Ideal S1x512 .f32) : copyOf x1 x2 x3 x4 x5 = msgOf x1 x2 x3 x4 x5 := by
  unfold copyOf msgOf
  rw [View.canon_unit_zero hz, View.canon_unit_zero hz]
  funext i
  exact pay2_copy_apply _ _ _ _ _ _ i

/-- The output slab at entry `(p, q)`: the slab of the aggregation matrix times the scratch copy. -/
theorem out2_6_apply (x0 : Vec Ideal S1000x2048 .f32) (s : Vec Ideal S2048x512 .bf16) (p : Fin 1000) (q : Fin 512) :
    out2_6 x0 s (ix2 p q) = ∑ g : Fin 2048, x0 (ix2 p g) * s (ix2 g q) := by
  unfold out2_6
  rw [View.canon_unit_zero hz]
  simp only [View.ld_unit_zero (S := S1000x2048) hz, View.ld_unit_zero (S := S2048x512) hz]
  exact pay2_agg_apply x0 s p q

/-- The aggregated array at an index whose coordinates are known. -/
theorem aggArr_apply_of (fh : Mat 20000 2048) (s : Mat 2048 512) (I : (⟨2, ![20000, 512]⟩ : Shape).Idx) (r : Fin 20000) (q : Fin 512)
    (h0 : (I 0).val = r.val) (h1 : (I 1).val = q.val) : aggArr fh s I = ∑ g : Fin 2048, fh (ix2 r g) * s (ix2 g q) := by
  have e0 : (⟨(I 0).val, (I 0).isLt⟩ : Fin 20000) = r := Fin.ext h0
  have e1 : (⟨(I 1).val, (I 1).isLt⟩ : Fin 512) = q := Fin.ext h1
  show agg fh s ⟨(I 0).val, (I 0).isLt⟩ ⟨(I 1).val, (I 1).isLt⟩ = _
  rw [e0, e1]
  rfl

/-! ## The aggregated window: twenty slabs of a thousand rows -/

/-- Slab `t` of the aggregation matrix, read at `(p, g)`: its row `1000·t + p`. -/
theorem read_blk2_0 {F : FTy → Type} [FloatOps F] (A : Vec F S20000x2048 .f32) (t : Fin cfg2.N) (p : Fin 1000) (g : Fin 2048) (r : Fin 20000)
    (hr : r.val = t.val * 1000 + p.val) : ((cfg2.win 0).blk t).view.read (Elt F) A (ix2 p g) = A (ix2 r g) := by
  obtain ⟨e0, e1, -⟩ := idx2_facts t
  show A (((cfg2.win 0).blk t).view.emb (ix2 p g)) = A (ix2 r g)
  refine congrArg A ?_
  funext a; apply Fin.ext
  match a with
  | ⟨0, _⟩ => show win2_0.index t (0 : Fin 2) * 1000 + 1 * p.val = r.val; omega
  | ⟨1, _⟩ => show win2_0.index t (1 : Fin 2) * 2048 + 1 * g.val = g.val; omega

/-- What a point leaves in the slab window, cut for the write-back, is the aggregated array read through the point's block. -/
theorem cut_blk2_6 (fh : Vec Ideal S20000x2048 .f32) (s : Vec Ideal S2048x512 .bf16) (x0 : Vec Ideal S1000x2048 .f32) (t : Fin cfg2.N)
    (hx0 : ∀ (p : Fin 1000) (g : Fin 2048) (r : Fin 20000), r.val = t.val * 1000 + p.val → x0 (ix2 p g) = fh (ix2 r g)) :
    (cfg2.win 6).cut (grid2.coords t) (out2_6 x0 s) = ((cfg2.win 6).blk t).view.read (Elt Ideal) (aggArr fh s) := by
  obtain ⟨-, -, -, -, -, -, -, -, -, -, -, -, e0, e1, -⟩ := idx2_facts t
  have hN : t.val < 20 := Nat.lt_of_lt_of_eq t.isLt N_2
  funext j
  have hj0 : (j 0).val < 1000 := (j 0).isLt
  have hj1 : (j 1).val < 512 := (j 1).isLt
  have hl : ∀ O : Vec Ideal S1000x512 .f32, (cfg2.win 6).cut (grid2.coords t) O j = O (ix2 ⟨(j 0).val, hj0⟩ ⟨(j 1).val, hj1⟩) := fun O => by
    show O _ = O _
    exact congrArg O (funext fun a => match a with | ⟨0, _⟩ => rfl | ⟨1, _⟩ => rfl)
  have hr : ∀ G : Vec Ideal S20000x512 .f32, ((cfg2.win 6).blk t).view.read (Elt Ideal) G j = G (((cfg2.win 6).blk t).view.emb j) := fun G => rfl
  rw [hl, hr, out2_6_apply]
  have hrow : t.val * 1000 + (j 0).val < 20000 := by omega
  rw [aggArr_apply_of fh s _ ⟨t.val * 1000 + (j 0).val, hrow⟩ ⟨(j 1).val, hj1⟩
    (by show win2_6.index t (0 : Fin 2) * 1000 + 1 * (j 0).val = t.val * 1000 + (j 0).val; omega)
    (by show win2_6.index t (1 : Fin 2) * 512 + 1 * (j 1).val = (j 1).val; omega)]
  exact Finset.sum_congr rfl fun g _ => by rw [hx0 ⟨(j 0).val, hj0⟩ g ⟨t.val * 1000 + (j 0).val, hrow⟩ rfl]

section
variable (V : (c : Dev nD) → (b : Ref sig .tc) → Buf (Elt Ideal) ((c : Thread nD τ).loc b))

/-- What a point writes back of the slab window is the aggregated array read through the point's block. -/
theorem flushed2_6 (c : Dev nD) (t : Fin cfg2.N) :
    (dat2 V c).flushed 6 t = ((cfg2.win 6).blk t).view.read (Elt Ideal) (aggArr (V c main_arg5) (copy2 V c)) := by
  show (cfg2.win 6).cut (grid2.coords t) ((dat2 V c).after 6 t) = _
  rw [after2_6]
  exact cut_blk2_6 (V c main_arg5) (copy2 V c) (iblk2 V c 0 t) t (fun p g r hr => read_blk2_0 (V c main_arg5) t p g r hr)

/-- An index of the aggregated array is in point `t`'s block iff each coordinate is in the block's range on its axis. -/
theorem mem_blk2_6 (t : Fin cfg2.N) (i : S20000x512.Idx) :
    i ∈ ((cfg2.win 6).blk t).view.set ↔ ∀ a : Fin 2, win2_6.index t a * S1000x512.size a ≤ (i a).val ∧ (i a).val < win2_6.index t a * S1000x512.size a + S1000x512.size a := by
  show i ∈ ((View.whole main_v12_0).slice (win2_6.rect t)).set ↔ _
  rw [View.set_slice_whole, Rect.mem_set_unit]
  exact Iff.rfl

/-- The aggregated array after region 2: the aggregation matrix times the scratch copy, row `r` written by point `r / 1000`. -/
theorem arr2_6 (c : Dev nD) : (dat2 V c).arrAt 6 cfg2.N = aggArr (V c main_arg5) (copy2 V c) := by
  refine (dat2 V c).arrAt_eq_of_cover 6 (aggArr (V c main_arg5) (copy2 V c)) (fun t _ => flushed2_6 V c t) fun i => ?_
  have hi0 : (i 0).val < 20000 := (i 0).isLt
  have hi1 : (i 1).val < 512 := (i 1).isLt
  have ht : (i 0).val / 1000 < cfg2.N := Nat.lt_of_lt_of_eq (by omega : (i 0).val / 1000 < 20) N_2.symm
  obtain ⟨-, -, -, -, -, -, -, -, -, -, -, -, e0, e1, -⟩ := idx2_facts ⟨(i 0).val / 1000, ht⟩
  refine ⟨⟨(i 0).val / 1000, ht⟩, flush2_6 _, ?_⟩
  rw [mem_blk2_6]
  intro a
  match a with
  | ⟨0, _⟩ =>
    show win2_6.index ⟨(i 0).val / 1000, ht⟩ (0 : Fin 2) * 1000 ≤ (i 0).val ∧ (i 0).val < win2_6.index ⟨(i 0).val / 1000, ht⟩ (0 : Fin 2) * 1000 + 1000
    have e0' : win2_6.index ⟨(i 0).val / 1000, ht⟩ (0 : Fin 2) = (i 0).val / 1000 := e0
    omega
  | ⟨1, _⟩ =>
    show win2_6.index ⟨(i 0).val / 1000, ht⟩ (1 : Fin 2) * 512 ≤ (i 1).val ∧ (i 1).val < win2_6.index ⟨(i 0).val / 1000, ht⟩ (1 : Fin 2) * 512 + 512
    omega
end

end Cert.KernelIdeal.Conv

end
-- ==== Proof.KernelIdeal.FinalHost.lean ====
/-
  What the host operations in front of the kernels leave in the buffers the three regions read, as functions of the
  arguments: the incidence matrices and the tables with zeros appended, the weight transposed, the bias as a one-row
  matrix; and the arguments the last region reads directly.
-/
import proofs.«111077_g1812476199039_cont_8to1_364_13_alg».proof.Proof.KernelIdeal.Dats
import proofs.«111077_g1812476199039_cont_8to1_364_13_alg».proof.Proof.KernelIdeal.Payload
import proofs.«111077_g1812476199039_cont_8to1_364_13_alg».proof.Proof.KernelIdeal.Kept
import proofs.«111077_g1812476199039_cont_8to1_364_13_alg».proof.Proof.Spec

set_option maxRecDepth 16384

noncomputable section

open scoped BigOperators

namespace Cert.KernelIdeal.Conv

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Conv

variable (m : (ℓ : Loc nD τ sig) → Buf (Elt Ideal) ℓ)

/-! ### An argument no host stretch has written yet -/

/-- After the first `k` stretches an argument still holds what it was launched with (`k` = 1, 3, 5, 7, 8). -/
theorem W1_arg (c : Dev nD) (r : Ref sig .tc) (h0 : r ∉ hostOps0_W) :
    W1 (F := Ideal) m c (Proc.devRef .tc r) = m ((c.tc : Thread nD τ).loc r) :=
  StableHlo.after_of_writes_sub hostOps0 _ hostOps0_writes h0
theorem W3_arg (c : Dev nD) (r : Ref sig .tc) (h0 : r ∉ hostOps0_W) (h1 : r ∉ hostOps0_1_W) (h2 : r ∉ hostOps0_2_W) :
    W3 (F := Ideal) m c (Proc.devRef .tc r) = m ((c.tc : Thread nD τ).loc r) :=
  calc W3 (F := Ideal) m c (Proc.devRef .tc r)
    _ = W2 (F := Ideal) m c (Proc.devRef .tc r) := StableHlo.after_of_writes_sub hostOps0_2 _ hostOps0_2_writes h2
    _ = W1 (F := Ideal) m c (Proc.devRef .tc r) := StableHlo.after_of_writes_sub hostOps0_1 _ hostOps0_1_writes h1
    _ = m ((c.tc : Thread nD τ).loc r) := W1_arg m c r h0
theorem W5_arg (c : Dev nD) (r : Ref sig .tc) (h0 : r ∉ hostOps0_W) (h1 : r ∉ hostOps0_1_W) (h2 : r ∉ hostOps0_2_W)
    (h3 : r ∉ hostOps0_3_W) (h4 : r ∉ hostOps0_4_W) :
    W5 (F := Ideal) m c (Proc.devRef .tc r) = m ((c.tc : Thread nD τ).loc r) :=
  calc W5 (F := Ideal) m c (Proc.devRef .tc r)
    _ = W4 (F := Ideal) m c (Proc.devRef .tc r) := StableHlo.after_of_writes_sub hostOps0_4 _ hostOps0_4_writes h4
    _ = W3 (F := Ideal) m c (Proc.devRef .tc r) := StableHlo.after_of_writes_sub hostOps0_3 _ hostOps0_3_writes h3
    _ = m ((c.tc : Thread nD τ).loc r) := W3_arg m c r h0 h1 h2
theorem W7_arg (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) :
    W7 (F := Ideal) m c (Proc.devRef .tc r) = m ((c.tc : Thread nD τ).loc r) :=
  calc W7 (F := Ideal) m c (Proc.devRef .tc r)
    _ = W6 (F := Ideal) m c (Proc.devRef .tc r) := StableHlo.after_of_writes_sub hostOps0_6 _ hostOps0_6_writes h6
    _ = W5 (F := Ideal) m c (Proc.devRef .tc r) := StableHlo.after_of_writes_sub hostOps0_5 _ hostOps0_5_writes h5
    _ = m ((c.tc : Thread nD τ).loc r) := W5_arg m c r h0 h1 h2 h3 h4
theorem W8_arg (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) (h7 : r ∉ hostOps0_7_W) :
    W8 (F := Ideal) m c (Proc.devRef .tc r) = m ((c.tc : Thread nD τ).loc r) :=
  calc W8 (F := Ideal) m c (Proc.devRef .tc r)
    _ = W7 (F := Ideal) m c (Proc.devRef .tc r) := StableHlo.after_of_writes_sub hostOps0_7 _ hostOps0_7_writes h7
    _ = m ((c.tc : Thread nD τ).loc r) := W7_arg m c r h0 h1 h2 h3 h4 h5 h6

/-! ### The zero each pad is called with -/

theorem W1_c (c : Dev nD) : W1 (F := Ideal) m c (Proc.devRef .tc main_c) = (constantI S_ 32 0#32 : IVec S_ 32) := by
  show StableHlo.after hostOps0 (W0 (F := Ideal) m c) (Proc.devRef .tc main_c) = _
  generalize W0 (F := Ideal) m c = V
  after_results
theorem W3_c0 (c : Dev nD) : W3 (F := Ideal) m c (Proc.devRef .tc main_c_0) = (constantI S_ 32 0#32 : IVec S_ 32) := by
  show StableHlo.after hostOps0_2 (W2 (F := Ideal) m c) (Proc.devRef .tc main_c_0) = _
  generalize W2 (F := Ideal) m c = V
  after_results
theorem W5_c1 (c : Dev nD) : W5 (F := Ideal) m c (Proc.devRef .tc main_c_1) = (constantI S_ 32 0#32 : IVec S_ 32) := by
  show StableHlo.after hostOps0_4 (W4 (F := Ideal) m c) (Proc.devRef .tc main_c_1) = _
  generalize W4 (F := Ideal) m c = V
  after_results
theorem W7_c2 (c : Dev nD) : W7 (F := Ideal) m c (Proc.devRef .tc main_c_2) = (constantI S_ 32 0#32 : IVec S_ 32) := by
  show StableHlo.after hostOps0_6 (W6 (F := Ideal) m c) (Proc.devRef .tc main_c_2) = _
  generalize W6 (F := Ideal) m c = V
  after_results

/-! ### The four padded arrays -/

/-- The first incidence matrix padded, before it is read in the narrower format. -/
theorem W2_v0 (c : Dev nD) :
    W2 (F := Ideal) m c (Proc.devRef .tc main_v0)
      = (pad S2048x10112 ![0, 0] ![0, 112] ![0, 0] (m ((c.tc : Thread nD τ).loc main_arg3) : FVec Ideal S2048x10000 .f32)
          (sitofp (F := Ideal) .f32 (constantI S_ 32 0#32)) pads_S2048x10000_S2048x10112_000_01120 h_S_ : FVec Ideal S2048x10112 .f32) := by
  have ea := W1_arg m c main_arg3 (by decide)
  have ec := W1_c m c
  show StableHlo.after hostOps0_1 (W1 (F := Ideal) m c) (Proc.devRef .tc main_v0) = _
  generalize W1 (F := Ideal) m c = V at ea ec
  after_results
  rw [ea, ec]
  rfl
theorem W3_v1 (c : Dev nD) :
    W3 (F := Ideal) m c (Proc.devRef .tc main_v1)
      = (truncf .bf16 (W2 (F := Ideal) m c (Proc.devRef .tc main_v0) : FVec Ideal S2048x10112 .f32) bitsLt_bf16_f32 : FVec Ideal S2048x10112 .bf16) := by
  show StableHlo.after hostOps0_2 (W2 (F := Ideal) m c) (Proc.devRef .tc main_v1) = _
  generalize W2 (F := Ideal) m c = V
  after_results

/-- The second incidence matrix padded. -/
theorem W4_v2 (c : Dev nD) :
    W4 (F := Ideal) m c (Proc.devRef .tc main_v2)
      = (pad S2048x10112 ![0, 0] ![0, 112] ![0, 0] (m ((c.tc : Thread nD τ).loc main_arg4) : FVec Ideal S2048x10000 .f32)
          (sitofp (F := Ideal) .f32 (constantI S_ 32 0#32)) pads_S2048x10000_S2048x10112_000_01120 h_S_ : FVec Ideal S2048x10112 .f32) := by
  have ea := W3_arg m c main_arg4 (by decide) (by decide) (by decide)
  have ec := W3_c0 m c
  show StableHlo.after hostOps0_3 (W3 (F := Ideal) m c) (Proc.devRef .tc main_v2) = _
  generalize W3 (F := Ideal) m c = V at ea ec
  after_results
  rw [ea, ec]
  rfl
theorem W5_v3 (c : Dev nD) :
    W5 (F := Ideal) m c (Proc.devRef .tc main_v3)
      = (truncf .bf16 (W4 (F := Ideal) m c (Proc.devRef .tc main_v2) : FVec Ideal S2048x10112 .f32) bitsLt_bf16_f32 : FVec Ideal S2048x10112 .bf16) := by
  show StableHlo.after hostOps0_4 (W4 (F := Ideal) m c) (Proc.devRef .tc main_v3) = _
  generalize W4 (F := Ideal) m c = V
  after_results
/-- The first table padded. -/
theorem W6_v4 (c : Dev nD) :
    W6 (F := Ideal) m c (Proc.devRef .tc main_v4)
      = (pad S10112x512 ![0, 0] ![112, 0] ![0, 0] (m ((c.tc : Thread nD τ).loc main_arg0) : FVec Ideal S10000x512 .f32)
          (sitofp (F := Ideal) .f32 (constantI S_ 32 0#32)) pads_S10000x512_S10112x512_01120_000 h_S_ : FVec Ideal S10112x512 .f32) := by
  have ea := W5_arg m c main_arg0 (by decide) (by decide) (by decide) (by decide) (by decide)
  have ec := W5_c1 m c
  show StableHlo.after hostOps0_5 (W5 (F := Ideal) m c) (Proc.devRef .tc main_v4) = _
  generalize W5 (F := Ideal) m c = V at ea ec
  after_results
  rw [ea, ec]
  rfl
theorem W7_v5 (c : Dev nD) :
    W7 (F := Ideal) m c (Proc.devRef .tc main_v5)
      = (truncf .bf16 (W6 (F := Ideal) m c (Proc.devRef .tc main_v4) : FVec Ideal S10112x512 .f32) bitsLt_bf16_f32 : FVec Ideal S10112x512 .bf16) := by
  show StableHlo.after hostOps0_6 (W6 (F := Ideal) m c) (Proc.devRef .tc main_v5) = _
  generalize W6 (F := Ideal) m c = V
  after_results
/-- The second table padded. -/
theorem W8_v6 (c : Dev nD) :
    W8 (F := Ideal) m c (Proc.devRef .tc main_v6)
      = (pad S10112x512 ![0, 0] ![112, 0] ![0, 0] (m ((c.tc : Thread nD τ).loc main_arg1) : FVec Ideal S10000x512 .f32)
          (sitofp (F := Ideal) .f32 (constantI S_ 32 0#32)) pads_S10000x512_S10112x512_01120_000 h_S_ : FVec Ideal S10112x512 .f32) := by
  have ea := W7_arg m c main_arg1 (by decide) (by decide) (by decide) (by decide) (by decide) (by decide) (by decide)
  have ec := W7_c2 m c
  show StableHlo.after hostOps0_7 (W7 (F := Ideal) m c) (Proc.devRef .tc main_v6) = _
  generalize W7 (F := Ideal) m c = V at ea ec
  after_results
  rw [ea, ec]
  rfl
theorem W9_v7 (c : Dev nD) :
    W9 (F := Ideal) m c (Proc.devRef .tc main_v7)
      = (truncf .bf16 (W8 (F := Ideal) m c (Proc.devRef .tc main_v6) : FVec Ideal S10112x512 .f32) bitsLt_bf16_f32 : FVec Ideal S10112x512 .bf16) := by
  show StableHlo.after hostOps0_8 (W8 (F := Ideal) m c) (Proc.devRef .tc main_v7) = _
  generalize W8 (F := Ideal) m c = V
  after_results

/-! ### The weight transposed and the bias as a one-row matrix -/

theorem W9_v8 (c : Dev nD) :
    W9 (F := Ideal) m c (Proc.devRef .tc main_v8)
      = (transpose S1536x512 [1, 0] (m ((c.tc : Thread nD τ).loc main_arg6) : FVec Ideal S512x1536 .f32) transposes_S512x1536_S1536x512_1_0 : FVec Ideal S1536x512 .f32) := by
  have ea := W8_arg m c main_arg6 (by decide) (by decide) (by decide) (by decide) (by decide) (by decide) (by decide) (by decide)
  show StableHlo.after hostOps0_8 (W8 (F := Ideal) m c) (Proc.devRef .tc main_v8) = _
  generalize W8 (F := Ideal) m c = V at ea
  after_results
  rw [ea]
theorem W9_v9 (c : Dev nD) :
    W9 (F := Ideal) m c (Proc.devRef .tc main_v9)
      = (shapeCast S1x512 (m ((c.tc : Thread nD τ).loc main_arg7) : FVec Ideal S512 .f32) shapeCasts_S512_S1x512 : FVec Ideal S1x512 .f32) := by
  have ea := W8_arg m c main_arg7 (by decide) (by decide) (by decide) (by decide) (by decide) (by decide) (by decide) (by decide)
  show StableHlo.after hostOps0_8 (W8 (F := Ideal) m c) (Proc.devRef .tc main_v9) = _
  generalize W8 (F := Ideal) m c = V at ea
  after_results
  rw [ea]
  rfl

/-! ### What the regions find -/

theorem host_v1 (c : Dev nD) : V9 (F := Ideal) m c main_v1 = padCols (m ((c.tc : Thread nD τ).loc main_arg3)) :=
  calc W9 (F := Ideal) m c (Proc.devRef .tc main_v1)
    _ = W8 (F := Ideal) m c (Proc.devRef .tc main_v1) := StableHlo.after_of_writes_sub hostOps0_8 _ hostOps0_8_writes (by decide)
    _ = W7 (F := Ideal) m c (Proc.devRef .tc main_v1) := StableHlo.after_of_writes_sub hostOps0_7 _ hostOps0_7_writes (by decide)
    _ = W6 (F := Ideal) m c (Proc.devRef .tc main_v1) := StableHlo.after_of_writes_sub hostOps0_6 _ hostOps0_6_writes (by decide)
    _ = W5 (F := Ideal) m c (Proc.devRef .tc main_v1) := StableHlo.after_of_writes_sub hostOps0_5 _ hostOps0_5_writes (by decide)
    _ = W4 (F := Ideal) m c (Proc.devRef .tc main_v1) := StableHlo.after_of_writes_sub hostOps0_4 _ hostOps0_4_writes (by decide)
    _ = W3 (F := Ideal) m c (Proc.devRef .tc main_v1) := StableHlo.after_of_writes_sub hostOps0_3 _ hostOps0_3_writes (by decide)
    _ = padCols (m ((c.tc : Thread nD τ).loc main_arg3)) := by
      rw [W3_v1, W2_v0]; exact hostPadCols _
theorem host_v5 (c : Dev nD) : V9 (F := Ideal) m c main_v5 = padRows (m ((c.tc : Thread nD τ).loc main_arg0)) :=
  calc W9 (F := Ideal) m c (Proc.devRef .tc main_v5)
    _ = W8 (F := Ideal) m c (Proc.devRef .tc main_v5) := StableHlo.after_of_writes_sub hostOps0_8 _ hostOps0_8_writes (by decide)
    _ = W7 (F := Ideal) m c (Proc.devRef .tc main_v5) := StableHlo.after_of_writes_sub hostOps0_7 _ hostOps0_7_writes (by decide)
    _ = padRows (m ((c.tc : Thread nD τ).loc main_arg0)) := by
      rw [W7_v5, W6_v4]; exact hostPadRows _
theorem host_v3 (c : Dev nD) : V10 (F := Ideal) m c main_v3 = padCols (m ((c.tc : Thread nD τ).loc main_arg4)) :=
  calc W10 (F := Ideal) m c (Proc.devRef .tc main_v3)
    _ = W9 (F := Ideal) m c (Proc.devRef .tc main_v3) := W10_of_ne m c main_v3 (by decide)
    _ = W8 (F := Ideal) m c (Proc.devRef .tc main_v3) := StableHlo.after_of_writes_sub hostOps0_8 _ hostOps0_8_writes (by decide)
    _ = W7 (F := Ideal) m c (Proc.devRef .tc main_v3) := StableHlo.after_of_writes_sub hostOps0_7 _ hostOps0_7_writes (by decide)
    _ = W6 (F := Ideal) m c (Proc.devRef .tc main_v3) := StableHlo.after_of_writes_sub hostOps0_6 _ hostOps0_6_writes (by decide)
    _ = W5 (F := Ideal) m c (Proc.devRef .tc main_v3) := StableHlo.after_of_writes_sub hostOps0_5 _ hostOps0_5_writes (by decide)
    _ = padCols (m ((c.tc : Thread nD τ).loc main_arg4)) := by
      rw [W5_v3, W4_v2]; exact hostPadCols _
theorem host_v7 (c : Dev nD) : V10 (F := Ideal) m c main_v7 = padRows (m ((c.tc : Thread nD τ).loc main_arg1)) :=
  calc W10 (F := Ideal) m c (Proc.devRef .tc main_v7)
    _ = W9 (F := Ideal) m c (Proc.devRef .tc main_v7) := W10_of_ne m c main_v7 (by decide)
    _ = padRows (m ((c.tc : Thread nD τ).loc main_arg1)) := by
      rw [W9_v7, W8_v6]; exact hostPadRows _
theorem host_arg5 (c : Dev nD) : V11 (F := Ideal) m c main_arg5 = m ((c.tc : Thread nD τ).loc main_arg5) :=
  calc W11 (F := Ideal) m c (Proc.devRef .tc main_arg5)
    _ = W10 (F := Ideal) m c (Proc.devRef .tc main_arg5) := W11_of_ne m c main_arg5 (by decide)
    _ = W9 (F := Ideal) m c (Proc.devRef .tc main_arg5) := W10_of_ne m c main_arg5 (by decide)
    _ = m ((c.tc : Thread nD τ).loc main_arg5) :=
      W9_of m c main_arg5 (by decide) (by decide) (by decide) (by decide) (by decide) (by decide) (by decide) (by decide) (by decide)
theorem host_arg2 (c : Dev nD) : V11 (F := Ideal) m c main_arg2 = m ((c.tc : Thread nD τ).loc main_arg2) :=
  calc W11 (F := Ideal) m c (Proc.devRef .tc main_arg2)
    _ = W10 (F := Ideal) m c (Proc.devRef .tc main_arg2) := W11_of_ne m c main_arg2 (by decide)
    _ = W9 (F := Ideal) m c (Proc.devRef .tc main_arg2) := W10_of_ne m c main_arg2 (by decide)
    _ = m ((c.tc : Thread nD τ).loc main_arg2) :=
      W9_of m c main_arg2 (by decide) (by decide) (by decide) (by decide) (by decide) (by decide) (by decide) (by decide) (by decide)
theorem host_v8_apply (c : Dev nD) (e : Fin 1536) (j : Fin 512) :
    V11 (F := Ideal) m c main_v8 (ix2 e j) = m ((c.tc : Thread nD τ).loc main_arg6) (ix2 j e) := by
  have h : W11 (F := Ideal) m c (Proc.devRef .tc main_v8) = W9 (F := Ideal) m c (Proc.devRef .tc main_v8) :=
    (W11_of_ne m c main_v8 (by decide)).trans (W10_of_ne m c main_v8 (by decide))
  show W11 (F := Ideal) m c (Proc.devRef .tc main_v8) (ix2 e j) = _
  rw [h, W9_v8]
  exact hostTranspose_apply _ e j
theorem host_v9_apply (c : Dev nD) (u : Fin 1) (j : Fin 512) :
    V11 (F := Ideal) m c main_v9 (ix2 u j) = m ((c.tc : Thread nD τ).loc main_arg7) (ix1 j) := by
  have h : W11 (F := Ideal) m c (Proc.devRef .tc main_v9) = W9 (F := Ideal) m c (Proc.devRef .tc main_v9) :=
    (W11_of_ne m c main_v9 (by decide)).trans (W10_of_ne m c main_v9 (by decide))
  show W11 (F := Ideal) m c (Proc.devRef .tc main_v9) (ix2 u j) = _
  rw [h, W9_v9]
  exact hostBias_apply _ u j

end Cert.KernelIdeal.Conv

end
-- ==== Proof.KernelIdeal.FinalPartial.lean ====
/-
  The two partial messages as whole arrays: row r of the output lies in the block of point r / 512, which holds the
  panel of that point times the whole table, so entry (g, d) is the sum over the padded contraction axis of the
  products of entries.
-/
import proofs.«111077_g1812476199039_cont_8to1_364_13_alg».proof.Proof.KernelIdeal.Dats
import proofs.«111077_g1812476199039_cont_8to1_364_13_alg».proof.Proof.KernelIdeal.Payload
import proofs.«111077_g1812476199039_cont_8to1_364_13_alg».proof.Proof.Spec
import Idealize.ShloMosaic.Lib.Pipeline.Value

set_option maxRecDepth 16384

noncomputable section

open scoped BigOperators

namespace Cert.KernelIdeal.Conv

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Conv

theorem zeroOffsets : (![0, 0] : Fin 2 → Nat) = fun _ => 0 := funext fun a => by fin_cases a <;> rfl

/-- The product of a padded incidence matrix and a padded table, as an array. -/
abbrev prodArr (A : Mat 2048 10112) (E : Mat 10112 512) : Mat 2048 512 :=
  fun i => sumPad A E (⟨(i 0).val, (i 0).isLt⟩ : Fin 2048) (⟨(i 1).val, (i 1).isLt⟩ : Fin 512)

/-- Entry `j` of a sum-of-products tile whose left operand is rows `512 b …` of `A` and whose right operand is `E`
    is the entry of the product array in row `512 b + j₀`, column `j₁`. -/
theorem tile_entry (pay : Vec Ideal S512x10112 .bf16 → Vec Ideal S10112x512 .bf16 → FVec Ideal S512x512 .bf16)
    (hpay : ∀ x0 x1 (p q : Fin 512), pay x0 x1 (ix2 p q) = ∑ k : Fin 10112, x0 (ix2 p k) * x1 (ix2 k q))
    (A : Mat 2048 10112) (E : Mat 10112 512) (x0 : Vec Ideal S512x10112 .bf16) (x1 : Vec Ideal S10112x512 .bf16)
    (b : Nat) (hb : b < 4)
    (h0 : ∀ (p : Fin 512) (k : Fin 10112), x0 (ix2 p k) = A (ix2 (⟨b * 512 + p.val, by have := p.isLt; omega⟩ : Fin 2048) k))
    (h1 : ∀ (k : Fin 10112) (q : Fin 512), x1 (ix2 k q) = E (ix2 k q))
    (p q : Fin 512) (i : S2048x512.Idx) (hi0 : (i 0).val = b * 512 + p.val) (hi1 : (i 1).val = q.val) :
    pay x0 x1 (ix2 p q) = prodArr A E i := by
  rw [hpay]
  show _ = ∑ k : Fin 10112, A (ix2 (⟨(i 0).val, (i 0).isLt⟩ : Fin 2048) k) * E (ix2 k (⟨(i 1).val, (i 1).isLt⟩ : Fin 512))
  refine Finset.sum_congr rfl fun k _ => ?_
  rw [h0, h1]
  have ea : (⟨b * 512 + p.val, by have := p.isLt; omega⟩ : Fin 2048) = ⟨(i 0).val, (i 0).isLt⟩ := Fin.ext hi0.symm
  have eb : q = ⟨(i 1).val, (i 1).isLt⟩ := Fin.ext hi1.symm
  rw [ea, ← eb]

/-! ## Region 0 -/

section Region0
variable (V : (c : Dev nD) → (b : Ref sig .tc) → Buf (Elt Ideal) ((c : Thread nD τ).loc b))

/-- The printed index maps, decided over the grid: the panel and the output tile are at block row `t`, the table never
    moves. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed0_eq (c : Dev nD) (t : Fin cfg0.N) :
    (dat0 V c).flushed 2 t = ((cfg0.win 2).blk t).view.read (Elt Ideal) (prodArr (V c main_v1) (V c main_v5)) := by
  show (cfg0.win 2).cut (grid0.coords t) ((dat0 V c).after 2 t) = _
  rw [after0_2]
  unfold out0_2
  rw [View.canon_unit_zero zeroOffsets]
  simp only [View.ld_unit_zero (S := S512x10112) zeroOffsets, View.ld_unit_zero (S := S10112x512) zeroOffsets]
  obtain ⟨e0, e1, e2, e3, e4, e5⟩ := idx_facts0 t
  have ht : t.val < 4 := Nat.lt_of_lt_of_eq t.isLt N_0
  funext j
  obtain ⟨p, q, rfl⟩ : ∃ p q : Fin 512, j = ix2 p q := ⟨j 0, j 1, eq_ix2 j⟩
  show k0_pay1 (F := Ideal) (iblk0 V c 0 t) (iblk0 V c 1 t) (ix2 p q) = prodArr (V c main_v1) (V c main_v5) (((cfg0.win 2).blk t).view.emb (ix2 p q))
  refine tile_entry (k0_pay1 (F := Ideal)) pay0_apply (V c main_v1) (V c main_v5) (iblk0 V c 0 t) (iblk0 V c 1 t) t.val ht ?_ ?_ p q _ ?_ ?_
  · intro p k
    show V c main_v1 (((cfg0.win 0).blk t).view.emb (ix2 p k)) = _
    refine congrArg (V c main_v1) (funext fun a => Fin.ext ?_)
    match a with
    | ⟨0, _⟩ => show win0_0.index t (0 : Fin 2) * 512 + 1 * p.val = t.val * 512 + p.val; rw [e0]; omega
    | ⟨1, _⟩ => show win0_0.index t (1 : Fin 2) * 10112 + 1 * k.val = k.val; rw [e1]; omega
  · intro k q
    show V c main_v5 (((cfg0.win 1).blk t).view.emb (ix2 k q)) = _
    refine congrArg (V c main_v5) (funext fun a => Fin.ext ?_)
    match a with
    | ⟨0, _⟩ => show win0_1.index t (0 : Fin 2) * 10112 + 1 * k.val = k.val; rw [e2]; omega
    | ⟨1, _⟩ => show win0_1.index t (1 : Fin 2) * 512 + 1 * q.val = q.val; rw [e3]; omega
  · show win0_2.index t (0 : Fin 2) * 512 + 1 * p.val = t.val * 512 + p.val; rw [e4]; omega
  · show win0_2.index t (1 : Fin 2) * 512 + 1 * q.val = q.val; rw [e5]; omega

/-- An index of the output array is in point `t`'s block iff each coordinate is in the block's range on its axis. -/
theorem mem_blk0 (t : Fin cfg0.N) (i : S2048x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v10).slice (win0_2.rect t)).set ↔ _
  rw [View.set_slice_whole, Rect.mem_set_unit]
  exact Iff.rfl

/-- Row `r` lies in the block of point `r / 512`, which is written back. -/
theorem cover0 (i : S2048x512.Idx) : ∃ t : Fin cfg0.N, (cfg0.win 2).flush t = true ∧ i ∈ ((cfg0.win 2).blk t).view.set := by
  have hi0 : (i 0).val < 2048 := idx2_lt0 i
  have hi1 : (i 1).val < 512 := idx2_lt1 i
  obtain ⟨t, ht⟩ : ∃ t : Fin cfg0.N, t.val = (i 0).val / 512 :=
    ⟨⟨(i 0).val / 512, Nat.lt_of_lt_of_eq (by omega : (i 0).val / 512 < 4) N_0.symm⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; rw [e4, ht]; omega
  | ⟨1, _⟩ => show win0_2.index t (1 : Fin 2) * 512 ≤ (i 1).val ∧ (i 1).val < win0_2.index t (1 : Fin 2) * 512 + 512; rw [e5]; omega

/-- The output array after the region: the product of the two arrays as the region finds them. -/
theorem final0 (c : Dev nD) : (dat0 V c).arrAt 2 cfg0.N = prodArr (V c main_v1) (V c main_v5) :=
  (dat0 V c).arrAt_eq_of_cover 2 (prodArr (V c main_v1) (V c main_v5)) (fun t _ => flushed0_eq V c t) (cover0)

end Region0

/-! ## Region 1 -/

section Region1
variable (V : (c : Dev nD) → (b : Ref sig .tc) → Buf (Elt Ideal) ((c : Thread nD τ).loc b))

/-- The printed index maps, decided over the grid: the panel and the output tile are at block row `t`, the table never
    moves. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two arrays as the region finds them. -/
theorem flushed1_eq (c : Dev nD) (t : Fin cfg1.N) :
    (dat1 V c).flushed 2 t = ((cfg1.win 2).blk t).view.read (Elt Ideal) (prodArr (V c main_v3) (V c main_v7)) := by
  show (cfg1.win 2).cut (grid1.coords t) ((dat1 V c).after 2 t) = _
  rw [after1_2]
  unfold out1_2
  rw [View.canon_unit_zero zeroOffsets]
  simp only [View.ld_unit_zero (S := S512x10112) zeroOffsets, View.ld_unit_zero (S := S10112x512) zeroOffsets]
  obtain ⟨e0, e1, e2, e3, e4, e5⟩ := idx_facts1 t
  have ht : t.val < 4 := Nat.lt_of_lt_of_eq t.isLt N_1
  funext j
  obtain ⟨p, q, rfl⟩ : ∃ p q : Fin 512, j = ix2 p q := ⟨j 0, j 1, eq_ix2 j⟩
  show k1_pay1 (F := Ideal) (iblk1 V c 0 t) (iblk1 V c 1 t) (ix2 p q) = prodArr (V c main_v3) (V c main_v7) (((cfg1.win 2).blk t).view.emb (ix2 p q))
  refine tile_entry (k1_pay1 (F := Ideal)) pay1_apply (V c main_v3) (V c main_v7) (iblk1 V c 0 t) (iblk1 V c 1 t) t.val ht ?_ ?_ p q _ ?_ ?_
  · intro p k
    show V c main_v3 (((cfg1.win 0).blk t).view.emb (ix2 p k)) = _
    refine congrArg (V c main_v3) (funext fun a => Fin.ext ?_)
    match a with
    | ⟨0, _⟩ => show win1_0.index t (0 : Fin 2) * 512 + 1 * p.val = t.val * 512 + p.val; rw [e0]; omega
    | ⟨1, _⟩ => show win1_0.index t (1 : Fin 2) * 10112 + 1 * k.val = k.val; rw [e1]; omega
  · intro k q
    show V c main_v7 (((cfg1.win 1).blk t).view.emb (ix2 k q)) = _
    refine congrArg (V c main_v7) (funext fun a => Fin.ext ?_)
    match a with
    | ⟨0, _⟩ => show win1_1.index t (0 : Fin 2) * 10112 + 1 * k.val = k.val; rw [e2]; omega
    | ⟨1, _⟩ => show win1_1.index t (1 : Fin 2) * 512 + 1 * q.val = q.val; rw [e3]; omega
  · show win1_2.index t (0 : Fin 2) * 512 + 1 * p.val = t.val * 512 + p.val; rw [e4]; omega
  · show win1_2.index t (1 : Fin 2) * 512 + 1 * q.val = q.val; rw [e5]; omega

/-- An index of the output array is in point `t`'s block iff each coordinate is in the block's range on its axis. -/
theorem mem_blk1 (t : Fin cfg1.N) (i : S2048x512.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v11).slice (win1_2.rect t)).set ↔ _
  rw [View.set_slice_whole, Rect.mem_set_unit]
  exact Iff.rfl

/-- Row `r` lies in the block of point `r / 512`, which is written back. -/
theorem cover1 (i : S2048x512.Idx) : ∃ t : Fin cfg1.N, (cfg1.win 2).flush t = true ∧ i ∈ ((cfg1.win 2).blk t).view.set := by
  have hi0 : (i 0).val < 2048 := idx2_lt0 i
  have hi1 : (i 1).val < 512 := idx2_lt1 i
  obtain ⟨t, ht⟩ : ∃ t : Fin cfg1.N, t.val = (i 0).val / 512 :=
    ⟨⟨(i 0).val / 512, Nat.lt_of_lt_of_eq (by omega : (i 0).val / 512 < 4) N_1.symm⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 512 ≤ (i 0).val ∧ (i 0).val < win1_2.index t (0 : Fin 2) * 512 + 512; rw [e4, ht]; omega
  | ⟨1, _⟩ => show win1_2.index t (1 : Fin 2) * 512 ≤ (i 1).val ∧ (i 1).val < win1_2.index t (1 : Fin 2) * 512 + 512; rw [e5]; omega

/-- The output array after the region: the product of the two arrays as the region finds them. -/
theorem final1 (c : Dev nD) : (dat1 V c).arrAt 2 cfg1.N = prodArr (V c main_v3) (V c main_v7) :=
  (dat1 V c).arrAt_eq_of_cover 2 (prodArr (V c main_v3) (V c main_v7)) (fun t _ => flushed1_eq V c t) (cover1)

end Region1

variable (m : (ℓ : Loc nD τ sig) → Buf (Elt Ideal) ℓ)

theorem partial_um (c : Dev nD) :
    V11 (F := Ideal) m c main_v10
      = fun i => sumPad (V9 (F := Ideal) m c main_v1) (V9 (F := Ideal) m c main_v5) (⟨(i 0).val, (i 0).isLt⟩ : Fin 2048) (⟨(i 1).val, (i 1).isLt⟩ : Fin 512) :=
  calc W11 (F := Ideal) m c (Proc.devRef .tc main_v10)
    _ = W10 (F := Ideal) m c (Proc.devRef .tc main_v10) := W11_of_ne m c main_v10 (by decide)
    _ = (dat0 (V9 (F := Ideal) m) c).arrAt 2 cfg0.N := W10_arr m c 2
    _ = _ := final0 (V9 (F := Ideal) m) c
theorem partial_im (c : Dev nD) :
    V11 (F := Ideal) m c main_v11
      = fun i => sumPad (V10 (F := Ideal) m c main_v3) (V10 (F := Ideal) m c main_v7) (⟨(i 0).val, (i 0).isLt⟩ : Fin 2048) (⟨(i 1).val, (i 1).isLt⟩ : Fin 512) :=
  calc W11 (F := Ideal) m c (Proc.devRef .tc main_v11)
    _ = (dat1 (V10 (F := Ideal) m) c).arrAt 2 cfg1.N := W11_arr m c 2
    _ = _ := final1 (V10 (F := Ideal) m) c

end Cert.KernelIdeal.Conv

end
-- ==== Proof.KernelIdeal.Final.lean ====
/-
  The two result arrays of the kernel program as whole-array functions of its arguments, over the extended reals.
-/
import proofs.«111077_g1812476199039_cont_8to1_364_13_alg».proof.Proof.KernelIdeal.Dats
import proofs.«111077_g1812476199039_cont_8to1_364_13_alg».proof.Proof.KernelIdeal.Payload
import proofs.«111077_g1812476199039_cont_8to1_364_13_alg».proof.Proof.Spec
import proofs.«111077_g1812476199039_cont_8to1_364_13_alg».proof.Proof.KernelIdeal.FinalR2
import proofs.«111077_g1812476199039_cont_8to1_364_13_alg».proof.Proof.KernelIdeal.FinalAgg
import proofs.«111077_g1812476199039_cont_8to1_364_13_alg».proof.Proof.KernelIdeal.FinalHost
import proofs.«111077_g1812476199039_cont_8to1_364_13_alg».proof.Proof.KernelIdeal.FinalPartial

set_option maxRecDepth 16384

noncomputable section

open scoped BigOperators

namespace Cert.KernelIdeal.Conv

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Conv

variable (m : (ℓ : Loc nD τ sig) → Buf (Elt Ideal) ℓ)

/-- The message block at `(g, j)` is the three-contractions layer of the specification, once the transposed weight and
    the one-row bias are read back as the weight and the bias. -/
theorem msgOf_eq_msgK (um im : Vec Ideal S2048x512 .bf16) (ge : Vec Ideal S2048x512 .f32) (Wt : Vec Ideal S1536x512 .f32)
    (bias : Vec Ideal S1x512 .f32) (W : Mat 512 1536) (b : Row 512)
    (hW : ∀ (e : Fin 1536) (j : Fin 512), Wt (ix2 e j) = W (ix2 j e))
    (hb : ∀ (u : Fin 1) (j : Fin 512), bias (ix2 u j) = b (ix1 j)) (g : Fin 2048) (j : Fin 512) :
    msgOf um im ge Wt bias (ix2 g j) = msgK um im ge W b g j := by
  rw [msgOf_apply]
  unfold msgK
  simp only [hW, hb]

/-- The message array the program ends with. -/
theorem final_msg (c : Dev nD) :
    V12 (F := Ideal) m c main_v12_1
      = msgArrK (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg6)) (m ((c.tc : Thread nD τ).loc main_arg7)) := by
  have h1 : V12 (F := Ideal) m c main_v12_1 = (dat2 (V11 (F := Ideal) m) c).arrAt 7 cfg2.N := W12_arr m c 7
  rw [h1, arr2_7, msg2_eq]
  funext i
  obtain ⟨g, j, rfl⟩ : ∃ (g : Fin 2048) (j : Fin 512), i = ix2 g j := ⟨i 0, i 1, eq_ix2 i⟩
  rw [msgOf_eq_msgK (V11 (F := Ideal) m c main_v10) (V11 (F := Ideal) m c main_v11) (V11 (F := Ideal) m c main_arg2) (V11 (F := Ideal) m c main_v8) (V11 (F := Ideal) m c main_v9)
    (m ((c.tc : Thread nD τ).loc main_arg6)) (m ((c.tc : Thread nD τ).loc main_arg7)) (host_v8_apply m c) (host_v9_apply m c) g j]
  rw [partial_um, partial_im, host_arg2, host_v1, host_v5, host_v3, host_v7]
  rfl

/-- The aggregated array the program ends with. -/
theorem final_norm (c : Dev nD) :
    V12 (F := Ideal) m c main_v12_0
      = aggArr (m ((c.tc : Thread nD τ).loc main_arg5))
          (msgArrK (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg6)) (m ((c.tc : Thread nD τ).loc main_arg7))) := by
  have h0 : V12 (F := Ideal) m c main_v12_0 = (dat2 (V11 (F := Ideal) m) c).arrAt 6 cfg2.N := W12_arr m c 6
  have h1 : V12 (F := Ideal) m c main_v12_1 = (dat2 (V11 (F := Ideal) m) c).arrAt 7 cfg2.N := W12_arr m c 7
  have hc : copy2 (V11 (F := Ideal) m) c = msg2 (V11 (F := Ideal) m) c := by rw [copy2_eq, msg2_eq, copyOf_eq]
  rw [h0, arr2_6, hc, ← arr2_7, ← h1, final_msg, host_arg5]

end Cert.KernelIdeal.Conv

end
-- ==== Proof.RefG.lean ====
/-
  The reference program's two results, read as the specification's arrays.

  The reference contracts each incidence matrix with its embedding table over the 10000 nodes, joins the two partial
  messages and the gated one side by side into a 1536-wide row, contracts that row against the transposed weight, adds
  the bias along the rows, and contracts the aggregation matrix with the result. Read index by index over the extended
  reals this is `msgArrR` (the message array) and `aggArr` of it (the aggregated array): each contraction is a finite
  sum of products, the side-by-side join at column `e` is operand 0, 1 or 2 at column `e`, `e - 512` or `e - 1024`,
  the transpose swaps the two coordinates, and the bias row is read at the column alone.
-/
import proofs.«111077_g1812476199039_cont_8to1_364_13_alg».proof.Defs
import proofs.«111077_g1812476199039_cont_8to1_364_13_alg».proof.Proof.Gen.ReferenceIdeal.Run
import proofs.«111077_g1812476199039_cont_8to1_364_13_alg».proof.Proof.Gen.ReferenceIdeal.Read
import proofs.«111077_g1812476199039_cont_8to1_364_13_alg».proof.Proof.Spec

noncomputable section

open scoped BigOperators

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

/-! ## The partial messages -/

/-- The first contraction is the partial message of the first incidence matrix and table. -/
theorem v0_eq (x0 : FVec Ideal S10000x512 .f32) (x3 : FVec Ideal S2048x10000 .f32) :
    val_main_v0 (F := Ideal) x0 x3 = Cert.Conv.partialR x3 x0 := by
  funext i
  rw [val_main_v0_apply]
  unfold Cert.Conv.partialR Cert.Conv.sumNodes
  refine Finset.sum_congr rfl fun k _ => ?_
  have el : lidx_main_v0 i k = ix2 (⟨(i 0).val, (i 0).isLt⟩ : Fin 2048) k :=
    funext fun a => by match a with | ⟨0, _⟩ => rfl | ⟨1, _⟩ => rfl
  have er : ridx_main_v0 i k = ix2 k (⟨(i 1).val, (i 1).isLt⟩ : Fin 512) :=
    funext fun a => by match a with | ⟨0, _⟩ => rfl | ⟨1, _⟩ => rfl
  rw [el, er]

/-- The second contraction is the partial message of the second incidence matrix and table. -/
theorem v1_eq (x1 : FVec Ideal S10000x512 .f32) (x4 : FVec Ideal S2048x10000 .f32) :
    val_main_v1 (F := Ideal) x1 x4 = Cert.Conv.partialR x4 x1 := by
  funext i
  rw [val_main_v1_apply]
  unfold Cert.Conv.partialR Cert.Conv.sumNodes
  refine Finset.sum_congr rfl fun k _ => ?_
  have el : lidx_main_v1 i k = ix2 (⟨(i 0).val, (i 0).isLt⟩ : Fin 2048) k :=
    funext fun a => by match a with | ⟨0, _⟩ => rfl | ⟨1, _⟩ => rfl
  have er : ridx_main_v1 i k = ix2 k (⟨(i 1).val, (i 1).isLt⟩ : Fin 512) :=
    funext fun a => by match a with | ⟨0, _⟩ => rfl | ⟨1, _⟩ => rfl
  rw [el, er]

/-! ## The side-by-side join at an index -/

/-- Three 2048 × 512 arrays joined along the columns, read at an index: the operand whose span of 512 columns holds the
    column, at the column less the spans before it. -/
theorem join3_apply (y0 y1 y2 : FVec Ideal S2048x512 .f32) (j : S2048x1536.Idx) :
    concatenate S2048x1536 1 [⟨S2048x512, y0⟩, ⟨S2048x512, y1⟩, ⟨S2048x512, y2⟩]
        concatenates_S2048x512_S2048x512_S2048x512_S2048x1536_d1 j
      = if h0 : (j 1).val < 512 then y0 (ix2 (⟨(j 0).val, idx2_lt0 j⟩ : Fin 2048) (⟨(j 1).val, h0⟩ : Fin 512))
        else if h1 : (j 1).val < 1024 then
          y1 (ix2 (⟨(j 0).val, idx2_lt0 j⟩ : Fin 2048) (⟨(j 1).val - 512, by omega⟩ : Fin 512))
        else y2 (ix2 (⟨(j 0).val, idx2_lt0 j⟩ : Fin 2048)
          (⟨(j 1).val - 1024, by have := idx2_lt1 j; omega⟩ : Fin 512)) := by
  have hj := idx2_lt1 j
  by_cases h0 : (j 1).val < 512
  · rw [dif_pos h0]
    refine concatenate_apply_piece (1 : Fin 2) _ _ j 0 (by show (0 : Nat) < 3; omega) S2048x512 y0 rfl rfl 0 rfl _
      (fun b => match b with
        | ⟨0, _⟩ => fun _ => rfl
        | ⟨1, _⟩ => fun hb => absurd rfl hb) ?_
    show 0 + (j 1).val = (j 1).val
    omega
  · rw [dif_neg h0]
    by_cases h1 : (j 1).val < 1024
    · rw [dif_pos h1]
      refine concatenate_apply_piece (1 : Fin 2) _ _ j 1 (by show (1 : Nat) < 3; omega) S2048x512 y1 rfl rfl 512 rfl _
        (fun b => match b with
          | ⟨0, _⟩ => fun _ => rfl
          | ⟨1, _⟩ => fun hb => absurd rfl hb) ?_
      show 512 + ((j 1).val - 512) = (j 1).val
      omega
    · rw [dif_neg h1]
      refine concatenate_apply_piece (1 : Fin 2) _ _ j 2 (by show (2 : Nat) < 3; omega) S2048x512 y2 rfl rfl 1024 rfl _
        (fun b => match b with
          | ⟨0, _⟩ => fun _ => rfl
          | ⟨1, _⟩ => fun hb => absurd rfl hb) ?_
      show 1024 + ((j 1).val - 1024) = (j 1).val
      omega

/-- The gated partial message, entry by entry: the second partial message times the group table. -/
theorem v2_apply (x1 : FVec Ideal S10000x512 .f32) (x2 : FVec Ideal S2048x512 .f32) (x4 : FVec Ideal S2048x10000 .f32)
    (i : S2048x512.Idx) :
    val_main_v2 (F := Ideal) x1 x2 x4 i = Cert.Conv.partialR x4 x1 i * x2 i := by
  rw [val_main_v2_apply, v1_eq]
  rfl

/-- The reference's 1536-wide row is the specification's concatenation of the two partial messages and the gated
    one. -/
theorem v3_apply (x0 x1 : FVec Ideal S10000x512 .f32) (x2 : FVec Ideal S2048x512 .f32)
    (x3 x4 : FVec Ideal S2048x10000 .f32) (j : S2048x1536.Idx) :
    val_main_v3 (F := Ideal) x0 x1 x2 x3 x4 j
      = Cert.Conv.cat (Cert.Conv.partialR x3 x0) (Cert.Conv.partialR x4 x1) x2
          (⟨(j 0).val, idx2_lt0 j⟩ : Fin 2048) (⟨(j 1).val, idx2_lt1 j⟩ : Fin 1536) := by
  unfold val_main_v3
  rw [join3_apply, v0_eq, v1_eq]
  simp only [v2_apply]
  unfold Cert.Conv.cat
  rfl

/-! ## The message array and the aggregated array -/

/-- The reference's message result is the specification's message array in the one-contraction arrangement. -/
theorem v8_eq (x0 x1 : FVec Ideal S10000x512 .f32) (x2 : FVec Ideal S2048x512 .f32)
    (x3 x4 : FVec Ideal S2048x10000 .f32) (x6 : FVec Ideal S512x1536 .f32) (x7 : FVec Ideal S512 .f32) :
    val_main_v8 (F := Ideal) x0 x1 x2 x3 x4 x6 x7 = Cert.Conv.msgArrR x0 x1 x2 x3 x4 x6 x7 := by
  funext i
  rw [val_main_v8_apply, val_main_v5_apply, val_main_v7_apply, val_main_v6_apply]
  unfold Cert.Conv.msgArrR Cert.Conv.msgR
  refine congrArg₂ (fun a b : EReal => a + b) (Finset.sum_congr rfl fun k _ => ?_) (congrArg x7 ?_)
  · have e4 : idx_main_v4 (ridx_main_v5 i k) = ix2 (⟨(i 1).val, (i 1).isLt⟩ : Fin 512) k :=
      funext fun a => by match a with | ⟨0, _⟩ => rfl | ⟨1, _⟩ => rfl
    rw [v3_apply, val_main_v4_apply, e4]
  · exact funext fun a => by match a with | ⟨0, _⟩ => rfl

/-- The reference's aggregated result is the specification's aggregation of that message array. -/
theorem v9_eq (x0 x1 : FVec Ideal S10000x512 .f32) (x2 : FVec Ideal S2048x512 .f32)
    (x3 x4 : FVec Ideal S2048x10000 .f32) (x5 : FVec Ideal S20000x2048 .f32) (x6 : FVec Ideal S512x1536 .f32)
    (x7 : FVec Ideal S512 .f32) :
    val_main_v9 (F := Ideal) x0 x1 x2 x3 x4 x5 x6 x7
      = Cert.Conv.aggArr x5 (Cert.Conv.msgArrR x0 x1 x2 x3 x4 x6 x7) := by
  funext i
  rw [val_main_v9_apply, v8_eq]
  unfold Cert.Conv.aggArr Cert.Conv.agg
  refine Finset.sum_congr rfl fun k _ => ?_
  have el : lidx_main_v9 i k = ix2 (⟨(i 0).val, (i 0).isLt⟩ : Fin 20000) k :=
    funext fun a => by match a with | ⟨0, _⟩ => rfl | ⟨1, _⟩ => rfl
  have er : ridx_main_v9 i k = ix2 k (⟨(i 1).val, (i 1).isLt⟩ : Fin 512) :=
    funext fun a => by match a with | ⟨0, _⟩ => rfl | ⟨1, _⟩ => rfl
  rw [el, er]

/-! ## The run -/

/-- On every device, from any memory with zero counters, every weakly fair execution of the reference terminates with
    its aggregated result at `aggArr` of the message array, its message result at the message array `msgArrR` of the
    arguments' launch contents, and the arguments unchanged. -/
theorem run_G (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread nD τ).loc main_v9)
          = Cert.Conv.aggArr (m ((c.tc : Thread nD τ).loc main_arg5))
              (Cert.Conv.msgArrR (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4)) (m ((c.tc : Thread nD τ).loc main_arg6))
                (m ((c.tc : Thread nD τ).loc main_arg7)))
      ∧ r.2.mem ((c.tc : Thread nD τ).loc main_v8)
          = Cert.Conv.msgArrR (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg6))
              (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (Cert.ReferenceIdeal.defs (F := Ideal)) _ _).mono
    (fun _ h c => ⟨(h c).1.trans ((val_main_v9_eq (F := Ideal) _ _ _ _ _ _ _ _).trans (v9_eq _ _ _ _ _ _ _ _)),
      (h c).2.1.trans ((val_main_v8_eq (F := Ideal) _ _ _ _ _ _ _).trans (v8_eq _ _ _ _ _ _ _)), (h c).2.2⟩)
    (Cert.ReferenceIdeal.Value.run (F := Ideal) m ρ)

end Cert.ReferenceIdeal.RefValue

end
-- ==== Proof.Law.lean ====
/-
  The law between the two arrangements of the message array, over the extended reals.

  Two facts, each true in any commutative additive monoid with a zero that multiplication respects:

  * a contraction over 10112 indices whose last 112 factors are zero on BOTH sides equals the contraction over the
    first 10000 (the extra terms are 0 * 0 = 0, and adding zero changes nothing);
  * a contraction over 1536 = 512 + 512 + 512 indices is the sum of the contractions over its three consecutive blocks,
    added left to right.

  Neither needs a finiteness hypothesis: only associativity and commutativity of addition, 0 + x = x and 0 * 0 = 0 are
  used, and these hold at the infinities too.
-/
import proofs.«111077_g1812476199039_cont_8to1_364_13_alg».proof.Proof.Spec
import Mathlib.Algebra.BigOperators.Fin

noncomputable section

open scoped BigOperators

namespace Cert.Conv

open Idealize.ShloMosaic Idealize.ShloMosaic.ValueIdx

/-! ## Two facts about finite sums, over abstract index counts -/

/-- A sum over `n + m` indices whose last `m` terms are zero is the sum of its first `n` terms. -/
theorem sum_append_zero {M : Type*} [AddCommMonoid M] (n m : Nat) (f : Fin (n + m) → M) (f₀ : Fin n → M)
    (hlo : ∀ k : Fin n, f (Fin.castAdd m k) = f₀ k) (hhi : ∀ k : Fin m, f (Fin.natAdd n k) = 0) :
    ∑ k : Fin (n + m), f k = ∑ k : Fin n, f₀ k := by
  rw [Fin.sum_univ_add]
  simp only [hlo, hhi, Finset.sum_const_zero, add_zero]

/-- A sum over `n + n + n` indices is the sum over its three consecutive blocks of `n`, added left to right. -/
theorem sum_three_blocks {M : Type*} [AddCommMonoid M] (n : Nat) (f : Fin (n + n + n) → M) (f₀ f₁ f₂ : Fin n → M)
    (h₀ : ∀ k : Fin n, f (Fin.castAdd n (Fin.castAdd n k)) = f₀ k)
    (h₁ : ∀ k : Fin n, f (Fin.castAdd n (Fin.natAdd n k)) = f₁ k)
    (h₂ : ∀ k : Fin n, f (Fin.natAdd (n + n) k) = f₂ k) :
    ∑ e : Fin (n + n + n), f e = ((∑ k : Fin n, f₀ k) + (∑ k : Fin n, f₁ k)) + (∑ k : Fin n, f₂ k) := by
  rw [Fin.sum_univ_add, Fin.sum_univ_add]
  simp only [h₀, h₁, h₂]

/-! ## The padded contraction is the contraction over the nodes -/

/-- A padded incidence matrix at one of the first 10000 columns is the matrix there. -/
theorem padCols_lt (h : Mat 2048 10000) (g : Fin 2048) (k : Fin 10112) (hk : k.val < 10000) :
    padCols h (ix2 g k) = h (ix2 g (⟨k.val, hk⟩ : Fin 10000)) :=
  dif_pos hk

/-- A padded incidence matrix at one of the 112 appended columns is zero. -/
theorem padCols_ge (h : Mat 2048 10000) (g : Fin 2048) (k : Fin 10112) (hk : ¬ k.val < 10000) :
    padCols h (ix2 g k) = 0 :=
  dif_neg hk

/-- A padded embedding table at one of the first 10000 rows is the table there. -/
theorem padRows_lt (e : Mat 10000 512) (k : Fin 10112) (d : Fin 512) (hk : k.val < 10000) :
    padRows e (ix2 k d) = e (ix2 (⟨k.val, hk⟩ : Fin 10000) d) :=
  dif_pos hk

/-- A padded embedding table at one of the 112 appended rows is zero. -/
theorem padRows_ge (e : Mat 10000 512) (k : Fin 10112) (d : Fin 512) (hk : ¬ k.val < 10000) :
    padRows e (ix2 k d) = 0 :=
  dif_neg hk

/-- The product over the padded axis is the product over the nodes: the 112 extra terms are `0 * 0`. -/
theorem sumPad_pad (h : Mat 2048 10000) (e : Mat 10000 512) (g : Fin 2048) (d : Fin 512) :
    sumPad (padCols h) (padRows e) g d = sumNodes h e g d := by
  unfold sumPad sumNodes
  refine sum_append_zero 10000 112 (fun k : Fin (10000 + 112) => padCols h (ix2 g k) * padRows e (ix2 k d))
    (fun k : Fin 10000 => h (ix2 g k) * e (ix2 k d)) (fun k => ?_) (fun k => ?_)
  · have hk : (Fin.castAdd 112 k : Fin 10112).val < 10000 := k.isLt
    show padCols h (ix2 g (Fin.castAdd 112 k : Fin 10112)) * padRows e (ix2 (Fin.castAdd 112 k : Fin 10112) d) = _
    rw [padCols_lt h g _ hk, padRows_lt e _ d hk]
    rfl
  · have hk : ¬ (Fin.natAdd 10000 k : Fin 10112).val < 10000 := by
      show ¬ 10000 + k.val < 10000
      omega
    show padCols h (ix2 g (Fin.natAdd 10000 k : Fin 10112)) * padRows e (ix2 (Fin.natAdd 10000 k : Fin 10112) d) = 0
    rw [padCols_ge h g _ hk, padRows_ge e _ d hk, mul_zero]

/-- The two partial-message arrays are one array. -/
theorem partialK_eq_partialR (h : Mat 2048 10000) (e : Mat 10000 512) : partialK h e = partialR h e := by
  funext i
  exact sumPad_pad h e _ _

/-! ## One 1536-wide contraction is three 512-wide ones -/

/-- The concatenation in its first block is the first operand. -/
theorem cat_block0 (um im ge : Mat 2048 512) (g : Fin 2048) (k : Fin 512) :
    cat um im ge g (col 0 k) = um (ix2 g k) := by
  have h0 : (col 0 k).val < 512 := by
    show 512 * 0 + k.val < 512
    have := k.isLt
    omega
  unfold cat
  rw [dif_pos h0]
  exact congrArg (fun x : Fin 512 => um (ix2 g x)) (Fin.ext (by show 512 * 0 + k.val = k.val; omega))

/-- The concatenation in its second block is the second operand. -/
theorem cat_block1 (um im ge : Mat 2048 512) (g : Fin 2048) (k : Fin 512) :
    cat um im ge g (col 1 k) = im (ix2 g k) := by
  have hv : (col 1 k).val = 512 * 1 + k.val := rfl
  have h0 : ¬ (col 1 k).val < 512 := by rw [hv]; omega
  have h1 : (col 1 k).val < 1024 := by rw [hv]; have := k.isLt; omega
  unfold cat
  rw [dif_neg h0, dif_pos h1]
  exact congrArg (fun x : Fin 512 => im (ix2 g x)) (Fin.ext (by show (col 1 k).val - 512 = k.val; rw [hv]; omega))

/-- The concatenation in its third block is the product of the second and third operands. -/
theorem cat_block2 (um im ge : Mat 2048 512) (g : Fin 2048) (k : Fin 512) :
    cat um im ge g (col 2 k) = im (ix2 g k) * ge (ix2 g k) := by
  have hv : (col 2 k).val = 512 * 2 + k.val := rfl
  have h0 : ¬ (col 2 k).val < 512 := by rw [hv]; omega
  have h1 : ¬ (col 2 k).val < 1024 := by rw [hv]; omega
  have hx : (⟨(col 2 k).val - 1024, by have := (col 2 k).isLt; omega⟩ : Fin 512) = k :=
    Fin.ext (by show (col 2 k).val - 1024 = k.val; rw [hv]; omega)
  unfold cat
  rw [dif_neg h0, dif_neg h1, hx]

/-- The contraction of the concatenation against a row of the weight is the three blocks' contractions added up. -/
theorem sum_cat (um im ge : Mat 2048 512) (W : Mat 512 1536) (g : Fin 2048) (j : Fin 512) :
    ∑ e : Fin 1536, cat um im ge g e * W (ix2 j e)
      = ((∑ k : Fin 512, um (ix2 g k) * W (ix2 j (col 0 k)))
          + (∑ k : Fin 512, im (ix2 g k) * W (ix2 j (col 1 k))))
        + (∑ k : Fin 512, (im (ix2 g k) * ge (ix2 g k)) * W (ix2 j (col 2 k))) := by
  refine sum_three_blocks 512 (fun e : Fin (512 + 512 + 512) => cat um im ge g e * W (ix2 j e)) _ _ _
    (fun k => ?_) (fun k => ?_) (fun k => ?_)
  · have e : (Fin.castAdd 512 (Fin.castAdd 512 k) : Fin 1536) = col 0 k :=
      Fin.ext (by show k.val = 512 * 0 + k.val; omega)
    show cat um im ge g (Fin.castAdd 512 (Fin.castAdd 512 k) : Fin 1536)
      * W (ix2 j (Fin.castAdd 512 (Fin.castAdd 512 k) : Fin 1536)) = _
    rw [e, cat_block0]
  · have e : (Fin.castAdd 512 (Fin.natAdd 512 k) : Fin 1536) = col 1 k :=
      Fin.ext (by show 512 + k.val = 512 * 1 + k.val; omega)
    show cat um im ge g (Fin.castAdd 512 (Fin.natAdd 512 k) : Fin 1536)
      * W (ix2 j (Fin.castAdd 512 (Fin.natAdd 512 k) : Fin 1536)) = _
    rw [e, cat_block1]
  · have e : (Fin.natAdd (512 + 512) k : Fin 1536) = col 2 k :=
      Fin.ext (by show 512 + 512 + k.val = 512 * 2 + k.val; omega)
    show cat um im ge g (Fin.natAdd (512 + 512) k : Fin 1536)
      * W (ix2 j (Fin.natAdd (512 + 512) k : Fin 1536)) = _
    rw [e, cat_block2]

/-- The two arrangements of the linear layer agree entry by entry. -/
theorem msgK_eq_msgR (um im ge : Mat 2048 512) (W : Mat 512 1536) (b : Row 512) (g : Fin 2048) (j : Fin 512) :
    msgK um im ge W b g j = msgR um im ge W b g j := by
  unfold msgK msgR
  rw [sum_cat]

/-- The message array computed as three contractions over padded partial messages is the message array computed as one
    contraction over the nodes' partial messages. -/
theorem msgArrK_eq_msgArrR (ue ie : Mat 10000 512) (ge : Mat 2048 512) (uh ih : Mat 2048 10000) (W : Mat 512 1536)
    (b : Row 512) : msgArrK ue ie ge uh ih W b = msgArrR ue ie ge uh ih W b := by
  funext i
  unfold msgArrK msgArrR
  rw [partialK_eq_partialR, partialK_eq_partialR]
  exact msgK_eq_msgR _ _ _ _ _ _ _

end Cert.Conv

end
-- ==== Proof.lean ====
/-
  Both programs compute, from incidence matrices uh, ih (groups × nodes), embedding tables ue, ie (nodes × features),
  a group table ge, a weight W (features × 3·features), a bias b and an aggregation matrix fh,

    um = uh · ue,   im = ih · ie,   msg = [um | im | im ∘ ge] · Wᵀ + b,   norm = fh · msg,

  and return norm and msg. One program contracts uh · ue and ih · ie over the 10000 nodes and contracts the 1536-wide
  concatenation against Wᵀ whole; the other contracts over 10112 indices, the last 112 of which hold zeros on both sides
  of every product, and adds three 512-wide contractions, one per block of W's columns. Over the extended reals the two
  message arrays are equal entry by entry: the 112 extra terms of a padded contraction are 0 · 0 = 0, and a sum over
  1536 = 512 + 512 + 512 indices is the sum of its three blocks, by associativity and commutativity of addition alone,
  so no entry needs to be finite. The aggregated arrays are then the same contraction of fh with equal message arrays.

  Each program's run is read as these arrays: the first program's two results are `aggArr fh (msgArrK …)` and
  `msgArrK …` of its arguments, the second's are `aggArr fh (msgArrR …)` and `msgArrR …`, and `msgArrK = msgArrR`. Neither
  program writes an argument array, at either reading of the floats.
-/
import proofs.«111077_g1812476199039_cont_8to1_364_13_alg».proof.Defs
import proofs.«111077_g1812476199039_cont_8to1_364_13_alg».proof.Proof.Gen.Kernel
import proofs.«111077_g1812476199039_cont_8to1_364_13_alg».proof.Proof.Gen.KernelIdeal
import proofs.«111077_g1812476199039_cont_8to1_364_13_alg».proof.Proof.Gen.ReferenceIdeal
import proofs.«111077_g1812476199039_cont_8to1_364_13_alg».proof.Proof.Gen.Pre_finite_inputs
import proofs.«111077_g1812476199039_cont_8to1_364_13_alg».proof.Proof.Kernel.Run
import proofs.«111077_g1812476199039_cont_8to1_364_13_alg».proof.Proof.Kernel.Kept
import proofs.«111077_g1812476199039_cont_8to1_364_13_alg».proof.Proof.KernelIdeal.Run
import proofs.«111077_g1812476199039_cont_8to1_364_13_alg».proof.Proof.KernelIdeal.Kept
import proofs.«111077_g1812476199039_cont_8to1_364_13_alg».proof.Proof.KernelIdeal.Final
import proofs.«111077_g1812476199039_cont_8to1_364_13_alg».proof.Proof.RefG
import proofs.«111077_g1812476199039_cont_8to1_364_13_alg».proof.Proof.Law

noncomputable section

namespace Cert.Proof

open Idealize.ShloMosaic Idealize.ShloMosaic.TcCoe Idealize.SL.Sem

/-- The program as printed runs and leaves its eight argument arrays as launched: every unscoped buffer ends at the
    contents the last region leaves, and no host operation or region writes an argument. -/
theorem frame_k : Cert.frame_Kernel := fun m ρ _ =>
  (θ_run (Cert.Kernel.defs (F := Bits)) _ _).mono (fun _ h c =>
    ⟨(h c _ (Cert.Kernel.Conv.mem_uc Cert.Kernel.main_arg0 (by decide))).trans (Cert.Kernel.Conv.kept_arg0 m c),
      (h c _ (Cert.Kernel.Conv.mem_uc Cert.Kernel.main_arg1 (by decide))).trans (Cert.Kernel.Conv.kept_arg1 m c),
      (h c _ (Cert.Kernel.Conv.mem_uc Cert.Kernel.main_arg2 (by decide))).trans (Cert.Kernel.Conv.kept_arg2 m c),
      (h c _ (Cert.Kernel.Conv.mem_uc Cert.Kernel.main_arg3 (by decide))).trans (Cert.Kernel.Conv.kept_arg3 m c),
      (h c _ (Cert.Kernel.Conv.mem_uc Cert.Kernel.main_arg4 (by decide))).trans (Cert.Kernel.Conv.kept_arg4 m c),
      (h c _ (Cert.Kernel.Conv.mem_uc Cert.Kernel.main_arg5 (by decide))).trans (Cert.Kernel.Conv.kept_arg5 m c),
      (h c _ (Cert.Kernel.Conv.mem_uc Cert.Kernel.main_arg6 (by decide))).trans (Cert.Kernel.Conv.kept_arg6 m c),
      (h c _ (Cert.Kernel.Conv.mem_uc Cert.Kernel.main_arg7 (by decide))).trans (Cert.Kernel.Conv.kept_arg7 m c)⟩)
    (Cert.Kernel.Conv.run_all (F := Bits) m ρ)

/-- The same program read over the extended reals runs and leaves its eight argument arrays as launched. -/
theorem frame_ki : Cert.frame_KernelIdeal := fun m ρ _ =>
  (θ_run (Cert.KernelIdeal.defs (F := Ideal)) _ _).mono (fun _ h c =>
    ⟨(h c _ (Cert.KernelIdeal.Conv.mem_uc Cert.KernelIdeal.main_arg0 (by decide))).trans (Cert.KernelIdeal.Conv.kept_arg0 m c),
      (h c _ (Cert.KernelIdeal.Conv.mem_uc Cert.KernelIdeal.main_arg1 (by decide))).trans (Cert.KernelIdeal.Conv.kept_arg1 m c),
      (h c _ (Cert.KernelIdeal.Conv.mem_uc Cert.KernelIdeal.main_arg2 (by decide))).trans (Cert.KernelIdeal.Conv.kept_arg2 m c),
      (h c _ (Cert.KernelIdeal.Conv.mem_uc Cert.KernelIdeal.main_arg3 (by decide))).trans (Cert.KernelIdeal.Conv.kept_arg3 m c),
      (h c _ (Cert.KernelIdeal.Conv.mem_uc Cert.KernelIdeal.main_arg4 (by decide))).trans (Cert.KernelIdeal.Conv.kept_arg4 m c),
      (h c _ (Cert.KernelIdeal.Conv.mem_uc Cert.KernelIdeal.main_arg5 (by decide))).trans (Cert.KernelIdeal.Conv.kept_arg5 m c),
      (h c _ (Cert.KernelIdeal.Conv.mem_uc Cert.KernelIdeal.main_arg6 (by decide))).trans (Cert.KernelIdeal.Conv.kept_arg6 m c),
      (h c _ (Cert.KernelIdeal.Conv.mem_uc Cert.KernelIdeal.main_arg7 (by decide))).trans (Cert.KernelIdeal.Conv.kept_arg7 m c)⟩)
    (Cert.KernelIdeal.Conv.run_all (F := Ideal) m ρ)

/-- The reference runs and leaves its eight argument arrays as launched: its run, with the two results dropped. -/
theorem frame_ri : Cert.frame_ReferenceIdeal := fun m ρ _ =>
  (θ_run (Cert.ReferenceIdeal.defs (F := Ideal)) _ _).mono (fun _ h c => (h c).2.2)
    (Cert.ReferenceIdeal.RefValue.run_G m ρ)

/-- Reading the program over the extended reals rewrote none of its operations: nothing to preserve. -/
theorem preserves : Cert.preserves_Kernel_KernelIdeal := trivial

/-- Over the extended reals, from memories that agree on the eight arguments, both programs run and end with equal
    results: the aggregated array `fh · msg` and the message array `msg`, the latter written as three 512-wide
    contractions over padded partial messages — which is the reference's one 1536-wide contraction over the nodes'
    partial messages, entry by entry. -/
theorem algebraic : Cert.algebraic_KernelIdeal_ReferenceIdeal := by
  intro m ρ m' ρ' _ hagree
  refine ⟨fun c => Cert.Conv.aggArr
      (m ((c.tc : Thread Cert.KernelIdeal.nD Cert.KernelIdeal.τ).loc Cert.KernelIdeal.main_arg5))
      (Cert.Conv.msgArrK (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))),
    fun c => Cert.Conv.msgArrK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run (Cert.KernelIdeal.defs (F := Ideal)) _ _).mono (fun _ h c =>
      ⟨(h c _ (Cert.KernelIdeal.Conv.mem_uc Cert.KernelIdeal.main_v12_0 (by decide))).trans (Cert.KernelIdeal.Conv.final_norm m c),
        (h c _ (Cert.KernelIdeal.Conv.mem_uc Cert.KernelIdeal.main_v12_1 (by decide))).trans (Cert.KernelIdeal.Conv.final_msg m c),
        (h c _ (Cert.KernelIdeal.Conv.mem_uc Cert.KernelIdeal.main_arg0 (by decide))).trans (Cert.KernelIdeal.Conv.kept_arg0 m c),
        (h c _ (Cert.KernelIdeal.Conv.mem_uc Cert.KernelIdeal.main_arg1 (by decide))).trans (Cert.KernelIdeal.Conv.kept_arg1 m c),
        (h c _ (Cert.KernelIdeal.Conv.mem_uc Cert.KernelIdeal.main_arg2 (by decide))).trans (Cert.KernelIdeal.Conv.kept_arg2 m c),
        (h c _ (Cert.KernelIdeal.Conv.mem_uc Cert.KernelIdeal.main_arg3 (by decide))).trans (Cert.KernelIdeal.Conv.kept_arg3 m c),
        (h c _ (Cert.KernelIdeal.Conv.mem_uc Cert.KernelIdeal.main_arg4 (by decide))).trans (Cert.KernelIdeal.Conv.kept_arg4 m c),
        (h c _ (Cert.KernelIdeal.Conv.mem_uc Cert.KernelIdeal.main_arg5 (by decide))).trans (Cert.KernelIdeal.Conv.kept_arg5 m c),
        (h c _ (Cert.KernelIdeal.Conv.mem_uc Cert.KernelIdeal.main_arg6 (by decide))).trans (Cert.KernelIdeal.Conv.kept_arg6 m c),
        (h c _ (Cert.KernelIdeal.Conv.mem_uc Cert.KernelIdeal.main_arg7 (by decide))).trans (Cert.KernelIdeal.Conv.kept_arg7 m c)⟩)
      (Cert.KernelIdeal.Conv.run_all (F := Ideal) m ρ)
  · refine (θ_run (Cert.ReferenceIdeal.defs (F := Ideal)) _ _).mono (fun _ h c => ?_)
      (Cert.ReferenceIdeal.RefValue.run_G m' ρ')
    obtain ⟨a0, a1, a2, a3, a4, a5, a6, a7⟩ := hagree c
    refine ⟨(h c).1.trans ?_, (h c).2.1.trans ?_, (h c).2.2⟩
    · rw [a0, a1, a2, a3, a4, a5, a6, a7, ← Cert.Conv.msgArrK_eq_msgArrR]
    · rw [a0, a1, a2, a3, a4, a6, a7, ← Cert.Conv.msgArrK_eq_msgArrR]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
